-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x512 : Shape := ⟨2, ![32, 512]⟩
abbrev S12x8 : Shape := ⟨2, ![12, 8]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S12x8 : S_.BroadcastsInDim S12x8 (![] : Fin 0 → Fin S12x8.rank)
  reducesTo_S12x8_S_d0_1 : S12x8.ReducesTo [0, 1] S_

variable [Facts]

def fn {F : FTy → Type} [FloatOps F] (main_arg0 : FVec F S32x512x512 .f32) (main_arg1 : IVec S32x512 1) (main_arg2 : FVec F S12x8 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S12x8 .f32 := Host.absf main_arg2
  let main_cst_0 : FVec F S_ .f32 := constant S_ .f32 0x7F800000#32
  let main_v5 : FVec F S12x8 .f32 := broadcastInDim S12x8 ![] bcast_S_S12x8 main_cst_0
  let main_v6 : IVec S12x8 1 := cmpf .olt main_v4 main_v5
  let main_c_1 : IVec S_ 1 := constantI S_ 1 1#1
  let main_v7 : IVec S_ 1 := (fun x v => Host.reduce IntOp.andi x v reducesTo_S12x8_S_d0_1 h_S_) main_v6 main_c_1
  let main_v8 : IVec S_ 1 := andi main_v3 main_v7
  main_v8
-- ==== Kernel.lean ====
abbrev S32x512x512 : Shape := ⟨3, ![32, 512, 512]⟩
abbrev S32x512 : Shape := ⟨2, ![32, 512]⟩
abbrev S12x8 : Shape := ⟨2, ![12, 8]⟩
abbrev S32x1x512 : Shape := ⟨3, ![32, 1, 512]⟩
abbrev S32x512x1 : Shape := ⟨3, ![32, 512, 1]⟩
abbrev S32x512x512x8 : Shape := ⟨4, ![32, 512, 512, 8]⟩
abbrev S1x512x512 : Shape := ⟨3, ![1, 512, 512]⟩
abbrev S1x1x512 : Shape := ⟨3, ![1, 1, 512]⟩
abbrev S1x512x1 : Shape := ⟨3, ![1, 512, 1]⟩
abbrev S1x32x512x8 : Shape := ⟨4, ![1, 32, 512, 8]⟩
abbrev S512x512 : Shape := ⟨2, ![512, 512]⟩
abbrev S512x1 : Shape := ⟨2, ![512, 1]⟩
abbrev S1x512 : Shape := ⟨2, ![1, 512]⟩
abbrev S32x512x8 : Shape := ⟨3, ![32, 512, 8]⟩
abbrev S1x8 : Shape := ⟨2, ![1, 8]⟩
abbrev S8 : Shape := ⟨1, ![8]⟩
abbrev S1x1x8 : Shape := ⟨3, ![1, 1, 8]⟩

abbrev nBuf : Space → Nat
  | .hbm => 8
  | .vmem => 11
  | .smem => 0
  | _ => 0

abbrev bufTy : (tb : Table) → Fin (tcTables nBuf tb) → BufTy
  | .hbm, ⟨0, _⟩ => ⟨S32x512x512, .f32⟩
  | .hbm, ⟨1, _⟩ => ⟨S32x512, .i1⟩
  | .hbm, ⟨2, _⟩ => ⟨S12x8, .f32⟩
  | .hbm, ⟨3, _⟩ => ⟨S32x512, .f32⟩
  | .hbm, ⟨4, _⟩ => ⟨S32x1x512, .f32⟩
  | .hbm, ⟨5, _⟩ => ⟨S32x512, .f32⟩
  | .hbm, ⟨6, _⟩ => ⟨S32x512x1, .f32⟩
  | .hbm, ⟨7, _⟩ => ⟨S32x512x512x8, .f32⟩
  | .local _ .vmem, ⟨0, _⟩ => ⟨S1x512x512, .f32⟩
  | .local _ .vmem, ⟨1, _⟩ => ⟨S1x512x512, .f32⟩
  | .local _ .vmem, ⟨2, _⟩ => ⟨S1x1x512, .f32⟩
  | .local _ .vmem, ⟨3, _⟩ => ⟨S1x1x512, .f32⟩
  | .local _ .vmem, ⟨4, _⟩ => ⟨S1x512x1, .f32⟩
  | .local _ .vmem, ⟨5, _⟩ => ⟨S1x512x1, .f32⟩
  | .local _ .vmem, ⟨6, _⟩ => ⟨S12x8, .f32⟩
  | .local _ .vmem, ⟨7, _⟩ => ⟨S1x32x512x8, .f32⟩
  | .local _ .vmem, ⟨8, _⟩ => ⟨S1x32x512x8, .f32⟩
  | .local _ .vmem, ⟨9, _⟩ => ⟨S512x512, .bf16⟩
  | .local _ .vmem, ⟨10, _⟩ => ⟨S512x512, .i32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c32_i32 : BitVec 32 := 32#32
  let v3 : BitVec 32 := Scalar.muli arg1 c32_i32
  v3
def k0_off1 (i : grid0.Coords) : Fin 2 → Nat :=
  let arg1 : BitVec 32 := BitVec.ofNat 32 (i 1).val
  let c32_i32 : BitVec 32 := 32#32
  let v3 : BitVec 32 := Scalar.muli arg1 c32_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S12x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x512_S32x1x512 : S32x512.ShapeCasts S32x1x512
  shapeCasts_S32x512_S32x512x1 : S32x512.ShapeCasts S32x512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  natLt_1_32 : 1 < 32
  transposes_S512x512_p1_0_S512x512 : S512x512.Transposes [1, 0] S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  iota_S512x512_d0_w32 : S512x512.Iotas .tc 32 [0]
  iota_S512x512_d1_w32 : S512x512.Iotas .tc 32 [1]
  h_S32x512 : 0 < S32x512.numel
  inb_S12x8_S1x8_0_0 : ∀ a, (![0, 0] : Fin 2 → Nat) a + S1x8.size a ≤ S12x8.size a
  h_S1x8 : 0 < S1x8.numel
  shapeCasts_S1x8_S8 : S1x8.ShapeCasts S8
  shapeCasts_S8_S1x1x8 : S8.ShapeCasts S1x1x8
  broadcasts_S32x512x1_S32x512x8 : S32x512x1.Broadcasts S32x512x8
  broadcasts_S1x1x8_S32x512x8 : S1x1x8.Broadcasts S32x512x8
  inb_S12x8_S1x8_1_0 : ∀ a, (![1, 0] : Fin 2 → Nat) a + S1x8.size a ≤ S12x8.size a
  inb_S12x8_S1x8_2_0 : ∀ a, (![2, 0] : Fin 2 → Nat) a + S1x8.size a ≤ S12x8.size a
  inb_S12x8_S1x8_3_0 : ∀ a, (![3, 0] : Fin 2 → Nat) a + S1x8.size a ≤ S12x8.size a
  inb_S12x8_S1x8_4_0 : ∀ a, (![4, 0] : Fin 2 → Nat) a + S1x8.size a ≤ S12x8.size a
  inb_S12x8_S1x8_5_0 : ∀ a, (![5, 0] : Fin 2 → Nat) a + S1x8.size a ≤ S12x8.size a
  inb_S12x8_S1x8_6_0 : ∀ a, (![6, 0] : Fin 2 → Nat) a + S1x8.size a ≤ S12x8.size a
  inb_S12x8_S1x8_7_0 : ∀ a, (![7, 0] : Fin 2 → Nat) a + S1x8.size a ≤ S12x8.size a
  inb_S12x8_S1x8_8_0 : ∀ a, (![8, 0] : Fin 2 → Nat) a + S1x8.size a ≤ S12x8.size a
  inb_S12x8_S1x8_9_0 : ∀ a, (![9, 0] : Fin 2 → Nat) a + S1x8.size a ≤ S12x8.size a
  inb_S12x8_S1x8_10_0 : ∀ a, (![10, 0] : Fin 2 → Nat) a + S1x8.size a ≤ S12x8.size a
  inb_S12x8_S1x8_11_0 : ∀ a, (![11, 0] : Fin 2 → Nat) a + S1x8.size a ≤ S12x8.size a
  inb_S1x32x512x8_S1x32x512x8_0_0_0_0 : ∀ a, (![0, 0, 0, 0] : Fin 4 → Nat) a + S1x32x512x8.size a ≤ S1x32x512x8.size a
  h_S1x32x512x8 : 0 < S1x32x512x8.numel
  shapeCasts_S1x32x512x8_S32x512x8 : S1x32x512x8.ShapeCasts S32x512x8
  shapeCasts_S32x512x8_S1x32x512x8 : S32x512x8.ShapeCasts S1x32x512x8
  dot_S512x512_S512x512_S512x512_1_0_0_1_n_n_wf : DotDims.WF S512x512 S512x512 S512x512 [1] [0] [0] [1] [] []
  hrank0 : 0 < grid0.rank
  k0_mult1_dvd : ∀ i : grid0.Coords, 32 ∣ (k0_mult1 i).toNat
  k0_off1_inb : ∀ i : grid0.Coords, ∀ a, (k0_off1 i) a + S32x512.size a ≤ S512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .f32 = 32 ∨ (Rect.block (s := S32x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x512x1.size a
  hwx0_2 : ∀ i : grid0.Coords, EltTy.bits .f32 = 32 ∨ (Rect.block (s := S32x512x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x8.size a ≤ S12x8.size a
  hwx0_3 : ∀ i : grid0.Coords, EltTy.bits .f32 = 32 ∨ (Rect.block (s := S12x8) S12x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512x8.size a ≤ S32x512x512x8.size a
  hwx0_4 : ∀ i : grid0.Coords, EltTy.bits .f32 = 32 ∨ (Rect.block (s := S32x512x512x8) S1x32x512x8.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S12x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x512x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x512 : Shape := ⟨2, ![32, 512]⟩
abbrev S12x8 : Shape := ⟨2, ![12, 8]⟩
abbrev S_ : Shape := ⟨0, ![]⟩
abbrev S32x512x1 : Shape := ⟨3, ![32, 512, 1]⟩
abbrev S32x1x512 : Shape := ⟨3, ![32, 1, 512]⟩
abbrev S512x512 : Shape := ⟨2, ![512, 512]⟩
abbrev S1x512x512 : Shape := ⟨3, ![1, 512, 512]⟩
abbrev S32x512x512x1 : Shape := ⟨4, ![32, 512, 512, 1]⟩
abbrev S32x512x512x8 : Shape := ⟨4, ![32, 512, 512, 8]⟩

abbrev nBuf : Space → Nat
  | .hbm => 153
  | .vmem => 0
  | .smem => 0
  | _ => 0

abbrev hbmTy0_0 (i : Nat) : BufTy := match i % 128 with
  | 0 => ⟨S32x512x512, .f32⟩
  | 1 => ⟨S32x512, .i1⟩
  | 2 => ⟨S12x8, .f32⟩
  | 3 => ⟨S_, .f32⟩
  | 4 => ⟨S32x512x512, .f32⟩
  | 5 => ⟨S32x512x512, .i1⟩
  | 6 => ⟨S32x512x512, .i1⟩
  | 7 => ⟨S32x512x512, .i1⟩
  | 8 => ⟨S32x512x1, .i1⟩
  | 9 => ⟨S32x1x512, .i1⟩
  | 10 => ⟨S32x512x512, .i1⟩
  | 11 => ⟨S32x512x512, .i1⟩
  | 12 => ⟨S32x512x512, .i1⟩
  | 13 => ⟨S32x512x512, .i1⟩
  | 14 => ⟨S32x512x512, .f32⟩
  | 15 => ⟨S512x512, .i32⟩
  | 16 => ⟨S512x512, .i32⟩
  | 17 => ⟨S_, .i32⟩
  | 18 => ⟨S512x512, .i32⟩
  | 19 => ⟨S512x512, .i32⟩
  | 20 => ⟨S512x512, .i1⟩
  | 21 => ⟨S1x512x512, .i1⟩
  | 22 => ⟨S_, .i32⟩
  | 23 => ⟨S_, .i32⟩
  | 24 => ⟨S1x512x512, .i32⟩
  | 25 => ⟨S1x512x512, .i32⟩
  | 26 => ⟨S1x512x512, .i32⟩
  | 27 => ⟨S1x512x512, .i32⟩
  | 28 => ⟨S32x512x512, .i1⟩
  | 29 => ⟨S32x512x512, .f32⟩
  | 30 => ⟨S32x512x512, .f32⟩
  | 31 => ⟨S_, .f32⟩
  | 32 => ⟨S32x512x512, .f32⟩
  | 33 => ⟨S32x512x512, .i1⟩
  | 34 => ⟨S32x512x512, .i1⟩
  | 35 => ⟨S32x512x512, .i1⟩
  | 36 => ⟨S32x512x512, .i1⟩
  | 37 => ⟨S_, .i32⟩
  | 38 => ⟨S32x512x512, .i32⟩
  | 39 => ⟨S32x512x512, .i32⟩
  | 40 => ⟨S32x512x512, .i32⟩
  | 41 => ⟨S32x512x512, .f32⟩
  | 42 => ⟨S32x512x512, .f32⟩
  | 43 => ⟨S_, .f32⟩
  | 44 => ⟨S32x512x512, .f32⟩
  | 45 => ⟨S32x512x512, .i1⟩
  | 46 => ⟨S32x512x512, .i1⟩
  | 47 => ⟨S32x512x512, .i1⟩
  | 48 => ⟨S32x512x512, .i1⟩
  | 49 => ⟨S_, .i32⟩
  | 50 => ⟨S32x512x512, .i32⟩
  | 51 => ⟨S32x512x512, .i32⟩
  | 52 => ⟨S32x512x512, .f32⟩
  | 53 => ⟨S32x512x512, .f32⟩
  | 54 => ⟨S_, .f32⟩
  | 55 => ⟨S32x512x512, .f32⟩
  | 56 => ⟨S32x512x512, .i1⟩
  | 57 => ⟨S32x512x512, .i1⟩
  | 58 => ⟨S32x512x512, .i1⟩
  | 59 => ⟨S32x512x512, .i1⟩
  | 60 => ⟨S_, .i32⟩
  | 61 => ⟨S32x512x512, .i32⟩
  | 62 => ⟨S32x512x512, .i32⟩
  | 63 => ⟨S32x512x512, .f32⟩
  | 64 => ⟨S32x512x512, .f32⟩
  | 65 => ⟨S_, .f32⟩
  | 66 => ⟨S32x512x512, .f32⟩
  | 67 => ⟨S32x512x512, .i1⟩
  | 68 => ⟨S32x512x512, .i1⟩
  | 69 => ⟨S32x512x512, .i1⟩
  | 70 => ⟨S32x512x512, .i1⟩
  | 71 => ⟨S_, .i32⟩
  | 72 => ⟨S32x512x512, .i32⟩
  | 73 => ⟨S32x512x512, .i32⟩
  | 74 => ⟨S32x512x512, .f32⟩
  | 75 => ⟨S32x512x512, .f32⟩
  | 76 => ⟨S_, .f32⟩
  | 77 => ⟨S32x512x512, .f32⟩
  | 78 => ⟨S32x512x512, .i1⟩
  | 79 => ⟨S32x512x512, .i1⟩
  | 80 => ⟨S32x512x512, .i1⟩
  | 81 => ⟨S32x512x512, .i1⟩
  | 82 => ⟨S_, .i32⟩
  | 83 => ⟨S32x512x512, .i32⟩
  | 84 => ⟨S32x512x512, .i32⟩
  | 85 => ⟨S32x512x512, .f32⟩
  | 86 => ⟨S32x512x512, .f32⟩
  | 87 => ⟨S_, .f32⟩
  | 88 => ⟨S32x512x512, .f32⟩
  | 89 => ⟨S32x512x512, .i1⟩
  | 90 => ⟨S32x512x512, .i1⟩
  | 91 => ⟨S32x512x512, .i1⟩
  | 92 => ⟨S32x512x512, .i1⟩
  | 93 => ⟨S_, .i32⟩
  | 94 => ⟨S32x512x512, .i32⟩
  | 95 => ⟨S32x512x512, .i32⟩
  | 96 => ⟨S32x512x512, .f32⟩
  | 97 => ⟨S32x512x512, .f32⟩
  | 98 => ⟨S_, .f32⟩
  | 99 => ⟨S32x512x512, .f32⟩
  | 100 => ⟨S32x512x512, .i1⟩
  | 101 => ⟨S32x512x512, .i1⟩
  | 102 => ⟨S32x512x512, .i1⟩
  | 103 => ⟨S32x512x512, .i1⟩
  | 104 => ⟨S_, .i32⟩
  | 105 => ⟨S32x512x512, .i32⟩
  | 106 => ⟨S32x512x512, .i32⟩
  | 107 => ⟨S32x512x512, .f32⟩
  | 108 => ⟨S32x512x512, .f32⟩
  | 109 => ⟨S_, .f32⟩
  | 110 => ⟨S32x512x512, .f32⟩
  | 111 => ⟨S32x512x512, .i1⟩
  | 112 => ⟨S32x512x512, .i1⟩
  | 113 => ⟨S32x512x512, .i1⟩
  | 114 => ⟨S32x512x512, .i1⟩
  | 115 => ⟨S_, .i32⟩
  | 116 => ⟨S32x512x512, .i32⟩
  | 117 => ⟨S32x512x512, .i32⟩
  | 118 => ⟨S32x512x512, .f32⟩
  | 119 => ⟨S32x512x512, .f32⟩
  | 120 => ⟨S_, .f32⟩
  | 121 => ⟨S32x512x512, .f32⟩
  | 122 => ⟨S32x512x512, .i1⟩
  | 123 => ⟨S32x512x512, .i1⟩
  | 124 => ⟨S32x512x512, .i1⟩
  | 125 => ⟨S32x512x512, .i1⟩
  | 126 => ⟨S_, .i32⟩
  | 127 => ⟨S32x512x512, .i32⟩
  | _ => ⟨S32x512x512, .f32⟩

abbrev hbmTy0_1 (i : Nat) : BufTy := match i % 128 with
  | 0 => ⟨S32x512x512, .i32⟩
  | 1 => ⟨S32x512x512, .f32⟩
  | 2 => ⟨S32x512x512, .f32⟩
  | 3 => ⟨S_, .f32⟩
  | 4 => ⟨S32x512x512, .f32⟩
  | 5 => ⟨S32x512x512, .i1⟩
  | 6 => ⟨S32x512x512, .i1⟩
  | 7 => ⟨S32x512x512, .i1⟩
  | 8 => ⟨S32x512x512, .i1⟩
  | 9 => ⟨S_, .i32⟩
  | 10 => ⟨S32x512x512, .i32⟩
  | 11 => ⟨S32x512x512, .i32⟩
  | 12 => ⟨S_, .i32⟩
  | 13 => ⟨S_, .i32⟩
  | 14 => ⟨S32x512x512, .i32⟩
  | 15 => ⟨S32x512x512, .i32⟩
  | 16 => ⟨S_, .i32⟩
  | 17 => ⟨S32x512x512, .i32⟩
  | 18 => ⟨S32x512x512, .i1⟩
  | 19 => ⟨S_, .i32⟩
  | 20 => ⟨S32x512x512, .i32⟩
  | 21 => ⟨S32x512x512, .i32⟩
  | 22 => ⟨S32x512x512, .i32⟩
  | 23 => ⟨S32x512x512x1, .i32⟩
  | 24 => ⟨S32x512x512x8, .f32⟩
  | _ => ⟨S32x512x512, .f32⟩

abbrev hbmTy (i : Nat) : BufTy := match i / 128 with
  | 0 => hbmTy0_0 i
  | 1 => hbmTy0_1 i
  | _ => ⟨S32x512x512, .f32⟩

abbrev bufTy : (tb : Table) → Fin (tcTables nBuf tb) → BufTy
  | .hbm, ⟨i, _⟩ => hbmTy i
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_call3_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_call4_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_call5_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_call6_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_call7_v0 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_call8_v0 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_call9_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_call10_v0 : Ref sig .tc := ⟨.hbm, 138, rfl⟩
abbrev main_v99 : Ref sig .tc := ⟨.hbm, 139, rfl⟩
abbrev main_c_22 : Ref sig .tc := ⟨.hbm, 140, rfl⟩
abbrev main_call11_v0 : Ref sig .tc := ⟨.hbm, 141, rfl⟩
abbrev main_call11_v1 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩

abbrev nD : Nat := 1
abbrev τ : Topo := Topo.v7x

variable {F : FTy → Type} [FloatOps F]

class Facts₀ : Prop where
  bcast_S_S32x512x512 : S_.BroadcastsInDim S32x512x512 (![] : Fin 0 → Fin S32x512x512.rank)
  transposes_S32x512x512_S32x512x512_0_2_1 : S32x512x512.Transposes [0, 2, 1] S32x512x512
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1x512x512_S32x512x512_0_1_2 : S1x512x512.BroadcastsInDim S32x512x512 (![0, 1, 2] : Fin 3 → Fin S32x512x512.rank)
  bcast_S32x512x512_S32x512x512x1_0_1_2 : S32x512x512.BroadcastsInDim S32x512x512x1 (![0, 1, 2] : Fin 3 → Fin S32x512x512x1.rank)
  dot_S32x512x512_S32x512x512_S32x512x512_2_1_1_2_0_0_wf : DotDims.WF S32x512x512 S32x512x512 S32x512x512 [2] [1] [1] [2] [0] [0]
  gather_S12x8_S32x512x512x1_S32x512x512x8_3_0_n_n_0_3_18_wf : GatherDims.WF S12x8 S32x512x512x1 S32x512x512x8 [3] [0] [] [0] [] 3 ![1, 8]

variable [Facts₀]

def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf
def gather_S12x8_S32x512x512x1_S32x512x512x8_3_0_n_n_0_3_18 : GatherDims S12x8 S32x512x512x1 S32x512x512x8 where
  offsetDims := [3]
  collapsedSliceDims := [0]
  operandBatchingDims := []
  startIndicesBatchingDims := []
  startIndexMap := [0]
  indexVectorDim := 3
  sliceSizes := ![1, 8]
  wf := gather_S12x8_S32x512x512x1_S32x512x512x8_3_0_n_n_0_3_18_wf

class Facts : Prop extends Facts₀ where

variable [Facts]
-- ==== Proof.Spec.lean ====
/-
  The common specification. A batch entry is a graph on 512 nodes: an edge joins p and q when either of the
  adjacency entries (p, q), (q, p) exceeds one half and both nodes are unmasked. Breadth-first search from every
  node at once: the reachability matrix starts as the identity and each of ten rounds adds the nodes one edge away
  (row p of the next matrix marks q when some reached j has an edge to q, or q was reached already); the distance
  matrix records the round in which a pair was first reached, 0 on the diagonal and 11 for a pair never reached or
  with a masked end. The result holds, for every pair, the row of the embedding table its distance selects.
  Bits are one-bit words, and a bit is read as the extended real 0 or 1 where the programs sum products of bits.
-/
import Idealize.ShloMosaic.PureOps.Ideal

noncomputable section

open scoped BigOperators

namespace Cert.Spec

open Idealize.ShloMosaic

/-- A bit as the extended real 0 or 1. -/
def b2r (b : BitVec 1) : EReal := ((b.toNat : ℝ) : EReal)

/-- The threshold one half and the zero the programs compare against, as the patterns they spell. -/
def half : EReal := Ideal.ofBits .f32 0x3F000000#32
def zeroF : EReal := Ideal.ofBits .f32 0x00000000#32

theorem half_eq : half = ((1 / 2 : ℝ) : EReal) := by
  unfold half; simp [Ideal.ofBits, Ideal.ieee, -EReal.coe_mul]; norm_num

theorem zeroF_eq : zeroF = 0 := by
  unfold zeroF; simp [Ideal.ofBits, Ideal.ieee]

/-- A 512 × 512 matrix. -/
abbrev Mat (α : Type) := Fin 512 → Fin 512 → α

/-- Is the entry above one half? -/
def big (x : EReal) : BitVec 1 := Ideal.cmp .ogt x half

/-- Both ends unmasked. -/
def both (M : Fin 512 → BitVec 1) : Mat (BitVec 1) := fun p q => M p &&& M q

/-- The edge bit of (p, q): either orientation's entry above one half, both ends unmasked. -/
def edge (A : Mat EReal) (M : Fin 512 → BitVec 1) : Mat (BitVec 1) := fun p q =>
  (big (A p q) ||| big (A q p)) &&& both M p q

/-- One round: q is reached from p when some reached j has an edge to q (the count of such j is positive),
    or it was reached before. -/
def grow (adj r : Mat (BitVec 1)) : Mat (BitVec 1) := fun p q =>
  Ideal.cmp .ogt (∑ j : Fin 512, b2r (r p j) * b2r (adj j q)) zeroF ||| r p q

/-- The pairs newly reached in a round (reached after it and not before) get the round's number. -/
def mark (k : BitVec 32) (r r' : Mat (BitVec 1)) (d : Mat (BitVec 32)) : Mat (BitVec 32) := fun p q =>
  if (r' p q &&& ~~~ r p q) = 1#1 then k else d p q

/-- The identity matrix, its indices compared as 32-bit words. -/
def eye : Mat (BitVec 1) := fun p q => BitVec.ofBool (BitVec.ofNat 32 p.val == BitVec.ofNat 32 q.val)

/-- Before the first round: distance 0 on the diagonal, 11 (unreached) elsewhere. -/
def dist0 : Mat (BitVec 32) := fun p q => if eye p q = 1#1 then 0#32 else 11#32

/-- Reachability after k rounds. -/
def reachAt (adj : Mat (BitVec 1)) : ℕ → Mat (BitVec 1)
  | 0 => eye
  | k + 1 => grow adj (reachAt adj k)

/-- Distances after k rounds. -/
def distAt (adj : Mat (BitVec 1)) : ℕ → Mat (BitVec 32)
  | 0 => dist0
  | k + 1 => mark (BitVec.ofNat 32 (k + 1)) (reachAt adj k) (reachAt adj (k + 1)) (distAt adj k)

theorem reachAt_zero (adj : Mat (BitVec 1)) : reachAt adj 0 = eye := rfl
theorem reachAt_succ (adj : Mat (BitVec 1)) (k : ℕ) : reachAt adj (k + 1) = grow adj (reachAt adj k) := rfl
theorem distAt_zero (adj : Mat (BitVec 1)) : distAt adj 0 = dist0 := rfl
theorem distAt_succ (adj : Mat (BitVec 1)) (k : ℕ) :
    distAt adj (k + 1) = mark (BitVec.ofNat 32 (k + 1)) (reachAt adj k) (reachAt adj (k + 1)) (distAt adj k) := rfl

/-- The distance matrix of one batch entry: ten rounds, then 11 wherever an end is masked. -/
def dist (A : Mat EReal) (M : Fin 512 → BitVec 1) : Mat (BitVec 32) := fun p q =>
  if both M p q = 1#1 then distAt (edge A M) 10 p q else 11#32

/-- The table row a distance word selects: the word read signed, clamped into 0 … 11. -/
def sel (d : BitVec 32) : Fin 12 := ⟨min d.toInt.toNat 11, by omega⟩

/-- The result: entry (b, p, q, e) is entry e of the table row the distance of (p, q) in batch entry b selects. -/
def out (A : Fin 32 → Mat EReal) (M : Fin 32 → Fin 512 → BitVec 1) (E : Fin 12 → Fin 8 → EReal)
    (b : Fin 32) (p q : Fin 512) (e : Fin 8) : EReal :=
  E (sel (dist (A b) (M b) p q)) e

/-! ## Distances stay in 0 … 11 -/

theorem distAt_le (adj : Mat (BitVec 1)) (k : ℕ) (hk : k ≤ 10) (p q : Fin 512) : (distAt adj k p q).toNat ≤ 11 := by
  induction k with
  | zero =>
    show (dist0 p q).toNat ≤ 11
    unfold dist0; split <;> decide
  | succ k ih =>
    rw [distAt_succ]; unfold mark
    split
    · rw [BitVec.toNat_ofNat]; exact le_trans (Nat.mod_le _ _) (by omega)
    · exact ih (by omega)

theorem dist_le (A : Mat EReal) (M : Fin 512 → BitVec 1) (p q : Fin 512) : (dist A M p q).toNat ≤ 11 := by
  unfold dist; split
  · exact distAt_le _ 10 le_rfl p q
  · decide

/-- A word in 0 … 11 selects the row of its own number. -/
theorem sel_val (d : BitVec 32) (h : d.toNat ≤ 11) : (sel d).val = d.toNat := by
  unfold sel
  have : d.toInt = (d.toNat : ℤ) := by
    rw [BitVec.toInt_eq_toNat_cond]; split
    · rfl
    · omega
  simp only [this, Int.toNat_natCast]; omega

end Cert.Spec

end
-- ==== Proof.SpecArr.lean ====
/-
  The specification over the programs' arrays: the adjacency array [32, 512, 512], the mask [32, 512] and the
  embedding table [12, 8] read by coordinates, and the result array [32, 512, 512, 8] whose entry (b, p, q, e)
  is entry e of the table row selected by the distance of (p, q) in batch entry b.
-/
import proofs.«127861_j44693429682446_1_alg».proof.Proof.Spec
import Idealize.ShloMosaic.Lib.ValueIdx

noncomputable section

namespace Cert.Spec

open Idealize.ShloMosaic Idealize.ShloMosaic.ValueIdx

abbrev SA : Shape := ⟨3, ![32, 512, 512]⟩
abbrev SM : Shape := ⟨2, ![32, 512]⟩
abbrev SE : Shape := ⟨2, ![12, 8]⟩
abbrev SO : Shape := ⟨4, ![32, 512, 512, 8]⟩

/-- Batch entry b of the adjacency array, as a matrix. -/
def adjOf (A : SA.Idx → EReal) (b : Fin 32) : Mat EReal := fun p q => A (ix3 b p q)

/-- Batch entry b of the mask. -/
def maskOf (M : SM.Idx → BitVec 1) (b : Fin 32) : Fin 512 → BitVec 1 := fun p => M (ix2 b p)

/-- The embedding table by row and column. -/
def tabOf (E : SE.Idx → EReal) : Fin 12 → Fin 8 → EReal := fun c e => E (ix2 c e)

/-- The result array. -/
def outArr (A : SA.Idx → EReal) (M : SM.Idx → BitVec 1) (E : SE.Idx → EReal) : SO.Idx → EReal :=
  fun i => out (adjOf A) (maskOf M) (tabOf E) (i 0) (i 1) (i 2) (i 3)

theorem outArr_apply (A : SA.Idx → EReal) (M : SM.Idx → BitVec 1) (E : SE.Idx → EReal)
    (b : Fin 32) (p q : Fin 512) (e : Fin 8) :
    outArr A M E (ix4 b p q e) = E (ix2 (sel (dist (adjOf A b) (maskOf M b) p q)) e) := rfl

end Cert.Spec

end
-- ==== Proof.KPay.lean ====
/-
  The kernel body's arithmetic as two functions of its input blocks.
  `distPay`: at a batch's first grid point the body forms the edge matrix from the adjacency block and the two mask
  blocks, stores it, and runs the ten rounds against it (each round reloads the stored matrix); what it stores in the
  distance scratch is this function of the three blocks. `outPay`: at every point the body takes 32 rows of the
  distance matrix and the twelve table rows and stores, for every pair and column, the sum over the twelve categories
  of (is the distance this category) times the category's table entry.
-/
import proofs.«127861_j44693429682446_1_alg».proof.Proof.Gen.KernelIdeal.Skeleton

noncomputable section

namespace Cert.KernelIdeal.Pay

open Cert.KernelIdeal Cert.KernelIdeal.Gen Idealize.ShloMosaic

variable {F : FTy → Type} [FloatOps F]

/-- The edge matrix the body stores, from the adjacency block `x0`, the mask row block `x1` and the mask column
    block `x2`. -/
def adjPay (x0 : Vec F S1x512x512 .f32) (x1 : Vec F S1x1x512 .f32) (x2 : Vec F S1x512x1 .f32) : FVec F S512x512 .bf16 :=
  k0_pay3 x0 x2 x1

/-- The distance matrix the body stores at a batch's first point. -/
def distPay (x0 : Vec F S1x512x512 .f32) (x1 : Vec F S1x1x512 .f32) (x2 : Vec F S1x512x1 .f32) : IVec S512x512 32 :=
  let a : FVec F S512x512 .bf16 := adjPay x0 x1 x2
  let v190 : FVec F S512x512 .f32 := k0_pay7 a
  let v229 : FVec F S512x512 .f32 := k0_pay11 v190 a a a
  let v235 : FVec F S512x512 .bf16 := k0_pay13 v190 a a a
  let v234 : IVec S512x512 32 := k0_pay12 k0_pay5 v190 (k0_pay8 a) 1#32 a a a
  let v268 : FVec F S512x512 .f32 := k0_pay16 v229 v235 a a a
  let v273 : IVec S512x512 32 := k0_pay17 v229 v234 v235 a a a
  let v274 : FVec F S512x512 .bf16 := k0_pay18 v229 v235 a a a
  k0_pay20 (k0_pay19 (k0_pay2 x2 x1) v268 v273 v274 a a a)

/-- The block the body stores in the result window, from 32 rows `v6` of the distance matrix and the twelve table
    rows `e0` … `e11`. -/
def outPay (v6 : Vec F S32x512 .i32) (e0 e1 e2 e3 e4 e5 e6 e7 e8 e9 e10 e11 : Vec F S1x8 .f32) : FVec F S1x32x512x8 .f32 :=
  let v31 : FVec F S32x512x8 .f32 := k0_pay21 v6 e0 e1
  let v42 : FVec F S32x512x8 .f32 := k0_pay22 v6 e2
  let v79 : FVec F S32x512x8 .f32 := k0_pay23 v6 v31 v42 e3 e4 e5
  let v90 : FVec F S32x512x8 .f32 := k0_pay24 v6 e6
  let v127 : FVec F S32x512x8 .f32 := k0_pay25 v6 v79 v90 e7 e8 e9
  let v138 : FVec F S32x512x8 .f32 := k0_pay26 v6 e10
  k0_pay1 v6 v127 v138 e11

end Cert.KernelIdeal.Pay

end
-- ==== Proof.KFound.lean ====
/-
  What the body's stores leave, as the payload functions of the input blocks. At a batch's first point the distance
  scratch ends at `distPay` of the three blocks and the result block at `outPay` of 32 rows of that very matrix (the
  rows are loaded back from the scratch just stored); at a later point of the batch the scratch is untouched and the
  result block is `outPay` of 32 rows of what the scratch held. The 32 rows start at row 32·r for the point's second
  grid coordinate r; the twelve table rows are loaded one by one from the table block.
-/
import proofs.«127861_j44693429682446_1_alg».proof.Proof.Gen.KernelIdeal.Frame
import proofs.«127861_j44693429682446_1_alg».proof.Proof.KPay
import Idealize.ShloMosaic.Lib.Pipeline.Value
import Idealize.ShloMosaic.Lib.Tactic

noncomputable section

namespace Cert.KernelIdeal.Found

open Idealize.ShloMosaic Idealize.ShloMosaic.TcCoe Idealize.SL.Sem
open Cert.KernelIdeal Cert.KernelIdeal.Gen Cert.KernelIdeal.Pay

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 32 rows of a 512 × 512 matrix that the point with grid coordinates `i` loads: rows 32·(i 1) … 32·(i 1) + 31. -/
def rowsOf (i : grid0.Coords) (D : Vec F S512x512 .i32) : Vec F S32x512 .i32 :=
  View.ld D (Rect.unit (s := S512x512) (k0_off1 i) S32x512.size (k0_off1_inb i))

/-- Row `c` of the table block, as the body loads it. -/
abbrev tabRow0 (x3 : Vec F S12x8 .f32) : Vec F S1x8 .f32 := View.ld x3 (Rect.unit (s := S12x8) ![0, 0] S1x8.size inb_S12x8_S1x8_0_0)
abbrev tabRow1 (x3 : Vec F S12x8 .f32) : Vec F S1x8 .f32 := View.ld x3 (Rect.unit (s := S12x8) ![1, 0] S1x8.size inb_S12x8_S1x8_1_0)
abbrev tabRow2 (x3 : Vec F S12x8 .f32) : Vec F S1x8 .f32 := View.ld x3 (Rect.unit (s := S12x8) ![2, 0] S1x8.size inb_S12x8_S1x8_2_0)
abbrev tabRow3 (x3 : Vec F S12x8 .f32) : Vec F S1x8 .f32 := View.ld x3 (Rect.unit (s := S12x8) ![3, 0] S1x8.size inb_S12x8_S1x8_3_0)
abbrev tabRow4 (x3 : Vec F S12x8 .f32) : Vec F S1x8 .f32 := View.ld x3 (Rect.unit (s := S12x8) ![4, 0] S1x8.size inb_S12x8_S1x8_4_0)
abbrev tabRow5 (x3 : Vec F S12x8 .f32) : Vec F S1x8 .f32 := View.ld x3 (Rect.unit (s := S12x8) ![5, 0] S1x8.size inb_S12x8_S1x8_5_0)
abbrev tabRow6 (x3 : Vec F S12x8 .f32) : Vec F S1x8 .f32 := View.ld x3 (Rect.unit (s := S12x8) ![6, 0] S1x8.size inb_S12x8_S1x8_6_0)
abbrev tabRow7 (x3 : Vec F S12x8 .f32) : Vec F S1x8 .f32 := View.ld x3 (Rect.unit (s := S12x8) ![7, 0] S1x8.size inb_S12x8_S1x8_7_0)
abbrev tabRow8 (x3 : Vec F S12x8 .f32) : Vec F S1x8 .f32 := View.ld x3 (Rect.unit (s := S12x8) ![8, 0] S1x8.size inb_S12x8_S1x8_8_0)
abbrev tabRow9 (x3 : Vec F S12x8 .f32) : Vec F S1x8 .f32 := View.ld x3 (Rect.unit (s := S12x8) ![9, 0] S1x8.size inb_S12x8_S1x8_9_0)
abbrev tabRow10 (x3 : Vec F S12x8 .f32) : Vec F S1x8 .f32 := View.ld x3 (Rect.unit (s := S12x8) ![10, 0] S1x8.size inb_S12x8_S1x8_10_0)
abbrev tabRow11 (x3 : Vec F S12x8 .f32) : Vec F S1x8 .f32 := View.ld x3 (Rect.unit (s := S12x8) ![11, 0] S1x8.size inb_S12x8_S1x8_11_0)

/-- The result block of the point with grid coordinates `i`, from a distance matrix `D` and the table block. -/
def outOf (i : grid0.Coords) (D : Vec F S512x512 .i32) (x3 : Vec F S12x8 .f32) : FVec F S1x32x512x8 .f32 :=
  outPay (rowsOf i D) (tabRow0 x3) (tabRow1 x3) (tabRow2 x3) (tabRow3 x3) (tabRow4 x3) (tabRow5 x3) (tabRow6 x3)
    (tabRow7 x3) (tabRow8 x3) (tabRow9 x3) (tabRow10 x3) (tabRow11 x3)

/-- Not a batch's first point: the result block is `outOf` of the matrix the scratch holds. -/
theorem out_B (c : Dev nD) (i : grid0.Coords) (arg2 : Memref sig .tc .vmem S1x512x512 .f32) (harg2 : arg2.IsWhole) (arg3 : Memref sig .tc .vmem S1x1x512 .f32) (harg3 : arg3.IsWhole) (arg4 : Memref sig .tc .vmem S1x512x1 .f32) (harg4 : arg4.IsWhole) (arg5 : Memref sig .tc .vmem S12x8 .f32) (harg5 : arg5.IsWhole) (arg6 : Memref sig .tc .vmem S1x32x512x8 .f32) (harg6 : arg6.IsWhole) (arg7 : Memref sig .tc .vmem S512x512 .bf16) (harg7 : arg7.IsWhole) (arg8 : Memref sig .tc .vmem S512x512 .i32) (harg8 : arg8.IsWhole) (hc0 : ¬cond0_0 i)
    (x0 : Vec F S1x512x512 .f32) (x1 : Vec F S1x1x512 .f32) (x2 : Vec F S1x512x1 .f32) (x3 : Vec F S12x8 .f32) (xs1 : Vec F S512x512 .i32) :
    out0_B_4 c i arg2 harg2 arg3 harg3 arg4 harg4 arg5 harg5 arg6 harg6 arg7 harg7 arg8 harg8 hc0 x0 x1 x2 x3 xs1 = outOf i xs1 x3 := by
  unfold out0_B_4
  rw [View.read_writes_eq_canon _ _ _ (cover0_B_4 c i arg2 harg2 arg3 harg3 arg4 harg4 arg5 harg5 arg6 harg6 arg7 harg7 arg8 harg8 hc0 x0 x1 x2 x3 xs1)]
  unfold kernelRun0_B
  dsimp only
  sl_unfold_words
  rw [View.canon_unit_zero hz4]
  simp only [View.readAt_eq_ld, harg5.read_unread, harg8.read_unread]
  rfl

/-- A batch's first point: the scratch ends at `distPay` of the three blocks (every round's reload of the stored edge
    matrix reads the payload just stored). -/
theorem sout_A (c : Dev nD) (i : grid0.Coords) (arg2 : Memref sig .tc .vmem S1x512x512 .f32) (harg2 : arg2.IsWhole) (arg3 : Memref sig .tc .vmem S1x1x512 .f32) (harg3 : arg3.IsWhole) (arg4 : Memref sig .tc .vmem S1x512x1 .f32) (harg4 : arg4.IsWhole) (arg5 : Memref sig .tc .vmem S12x8 .f32) (harg5 : arg5.IsWhole) (arg6 : Memref sig .tc .vmem S1x32x512x8 .f32) (harg6 : arg6.IsWhole) (arg7 : Memref sig .tc .vmem S512x512 .bf16) (harg7 : arg7.IsWhole) (arg8 : Memref sig .tc .vmem S512x512 .i32) (harg8 : arg8.IsWhole) (hc0 : cond0_0 i)
    (x0 : Vec F S1x512x512 .f32) (x1 : Vec F S1x1x512 .f32) (x2 : Vec F S1x512x1 .f32) (x3 : Vec F S12x8 .f32) :
    sout0_A_1 c i arg2 harg2 arg3 harg3 arg4 harg4 arg5 harg5 arg6 harg6 arg7 harg7 arg8 harg8 hc0 x0 x1 x2 x3 = distPay x0 x1 x2 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readCov_unit_zero (S := S512x512) _ hz2, View.readAt_eq_ld, harg2.read_unread, harg3.read_unread,
    harg4.read_unread, View.ld_unit_zero (S := S1x512x512) hz3, View.ld_unit_zero (S := S1x1x512) hz3,
    View.ld_unit_zero (S := S1x512x1) hz3]
  rfl

/-- A batch's first point: the result block is `outOf` of the matrix just stored. -/
theorem out_A (c : Dev nD) (i : grid0.Coords) (arg2 : Memref sig .tc .vmem S1x512x512 .f32) (harg2 : arg2.IsWhole) (arg3 : Memref sig .tc .vmem S1x1x512 .f32) (harg3 : arg3.IsWhole) (arg4 : Memref sig .tc .vmem S1x512x1 .f32) (harg4 : arg4.IsWhole) (arg5 : Memref sig .tc .vmem S12x8 .f32) (harg5 : arg5.IsWhole) (arg6 : Memref sig .tc .vmem S1x32x512x8 .f32) (harg6 : arg6.IsWhole) (arg7 : Memref sig .tc .vmem S512x512 .bf16) (harg7 : arg7.IsWhole) (arg8 : Memref sig .tc .vmem S512x512 .i32) (harg8 : arg8.IsWhole) (hc0 : cond0_0 i)
    (x0 : Vec F S1x512x512 .f32) (x1 : Vec F S1x1x512 .f32) (x2 : Vec F S1x512x1 .f32) (x3 : Vec F S12x8 .f32) :
    out0_A_4 c i arg2 harg2 arg3 harg3 arg4 harg4 arg5 harg5 arg6 harg6 arg7 harg7 arg8 harg8 hc0 x0 x1 x2 x3 = outOf i (distPay x0 x1 x2) x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz4]
  simp only [View.readAt_writes_junk_eq_canon, View.canon_unit_zero (S := S512x512) hz2,
    View.readCov_unit_zero (S := S512x512) _ hz2, View.readAt_eq_ld, harg2.read_unread, harg3.read_unread,
    harg4.read_unread, harg5.read_unread, View.ld_unit_zero (S := S1x512x512) hz3, View.ld_unit_zero (S := S1x1x512) hz3,
    View.ld_unit_zero (S := S1x512x1) hz3]
  rfl

end Cert.KernelIdeal.Found

end
-- ==== Proof.KPoints.lean ====
/-
  The grid, point by point. The 512 grid points are 32 batch entries of 16 points each: point t works on batch
  entry t / 16 and result rows 32·(t mod 16) … of it. The adjacency block, the two mask blocks and the table block
  do not move within a batch entry; the distance scratch is stored at the entry's first point and kept afterwards.
  So after every point the scratch holds the distance payload of the entry's first point's blocks, and the result
  block of every point is the result payload of 32 rows of that matrix.
-/
import proofs.«127861_j44693429682446_1_alg».proof.Proof.KFound
import Idealize.ShloMosaic.Lib.ValueIdx

noncomputable section

namespace Cert.KernelIdeal.Points

open Idealize.ShloMosaic Idealize.ShloMosaic.TcCoe Idealize.SL.Sem Idealize.ShloMosaic.ValueIdx
open Cert.KernelIdeal Cert.KernelIdeal.Gen Cert.KernelIdeal.Pay Cert.KernelIdeal.Found

variable {F : FTy → Type} [FloatOps F]
variable (m : (ℓ : Loc nD τ sig) → Buf (Elt F) ℓ)

/-- The first point of the batch entry that point `n` works on. -/
def first (n : ℕ) (h : n < cfg0.N) : Fin cfg0.N := ⟨16 * (n / 16), lt_of_le_of_lt (Nat.mul_div_le n 16) h⟩

theorem first_of_mod (n : ℕ) (h : n < cfg0.N) (h0 : n % 16 = 0) : first n h = ⟨n, h⟩ :=
  Fin.ext (by show 16 * (n / 16) = n; omega)

theorem first_pred (n : ℕ) (h : n < cfg0.N) (h0 : ¬n % 16 = 0) (h' : n - 1 < cfg0.N) : first (n - 1) h' = first n h :=
  Fin.ext (by show 16 * ((n - 1) / 16) = 16 * (n / 16); omega)

/-- The distance payload of the blocks at point `t`. -/
def Dmat (c : Dev nD) (t : Fin cfg0.N) : IVec S512x512 32 :=
  distPay (iblk m c 0 t) (iblk m c 1 t) (iblk m c 2 t)

/-- After every point the scratch holds the distance payload of the batch entry's first point. -/
theorem scratch_eq (c : Dev nD) : ∀ (n : ℕ) (h : n < cfg0.N), (outsAt0 m c n h).2 = Dmat m c (first n h) := by
  intro n
  induction n using Nat.strong_induction_on with
  | _ n ih =>
    intro h
    by_cases h0 : n % 16 = 0
    · rw [outsAt0_A m c ⟨n, h⟩ h0, sout_A, first_of_mod n h h0]
      rfl
    · have hN : cfg0.N = 512 := N_0
      have h' : n - 1 < cfg0.N := by omega
      rw [outsAt0_B m c ⟨n, h⟩ h0, ← first_pred n h h0 h']
      exact ih (n - 1) (by omega) h'

/-- The result block of every point: the result payload of 32 rows of the batch entry's distance matrix. -/
theorem out_eq (c : Dev nD) (t : Fin cfg0.N) :
    (outsAt0 m c t.val t.isLt).1 = outOf (grid0.coords t) (Dmat m c (first t.val t.isLt)) (iblk m c 3 t) := by
  by_cases h0 : t.val % 16 = 0
  · rw [outsAt0_A m c t h0, out_A, first_of_mod t.val t.isLt h0]
    rfl
  · have hN : cfg0.N = 512 := N_0
    have h' : t.val - 1 < cfg0.N := by have := t.isLt; omega
    rw [outsAt0_B m c t h0, out_B]
    show outOf (grid0.coords t) (outsAt0 m c (t.val - 1) _).2 (iblk m c 3 t) = _
    rw [scratch_eq m c (t.val - 1) h', first_pred t.val t.isLt h0 h']

end Cert.KernelIdeal.Points

end
-- ==== Proof.KOutLayout.lean ====
/-
  Four re-layings read at an index given by coordinates, over arbitrary extents: a matrix viewed as a stack of
  one-entry columns, such a stack repeated along its last axis, a vector viewed as a single row of a single
  plane, and that row repeated over every plane and row. Each reads one entry of its operand.
-/
import Idealize.ShloMosaic.Lib.ValueLayout

namespace Cert.KernelIdeal.OutValue

open Idealize.ShloMosaic Idealize.ShloMosaic.ValueIdx

variable {α : Type}

/-- An `[a, b]` array cast to `[a, b, 1]` reads, at `(i, j, u)`, the operand at `(i, j)`: both positions in
    row-major order are `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, e)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a]` array cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    simp only [Nat.zero_mul, Nat.zero_add])

/-- A `[1, 1, c]` array broadcast to `[a, b, c]` reads, at `(i, j, e)`, the operand at `(0, 0, e)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (e : Fin c) :
    broadcastTo ⟨3, ![a, b, c]⟩ v h (ix3 i j e) = v (ix3 (0 : Fin 1) (0 : Fin 1) e) := by
  refine broadcastTo_apply v h (ix3 i j e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

end Cert.KernelIdeal.OutValue
-- ==== Proof.KBlocks.lean ====
/-
  The kernel's input blocks, entry by entry. The grid has 32 × 16 points; point t works on batch entry t / 16. The
  adjacency window's block at t is batch entry t / 16 of the adjacency array, a 1 × 512 × 512 slab; the two mask
  windows' blocks are batch entry t / 16 of the mask laid out as a row (1 × 1 × 512) and as a column (1 × 512 × 1),
  where the mask's bits were first turned into the numbers 0 and 1 and re-laid by the host operations that precede
  the region; the table window's block is the whole 12 × 8 table at every point. An entry of a block sits in its
  array at block index × block extent + the coordinate inside the block, axis by axis.
-/
import proofs.«127861_j44693429682446_1_alg».proof.Proof.Gen.KernelIdeal.Frame.Runs
import proofs.«127861_j44693429682446_1_alg».proof.Proof.Spec
import proofs.«127861_j44693429682446_1_alg».proof.Proof.KOutLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem

/-- An `[a, b]` array re-laid as `[a, 1, b]` reads, at `(i, u, j)`, the operand at `(i, j)`: both positions in
    row-major order are `i * b + j`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The windows' block indices at every grid point: the batch entry on the leading axis of the three batched
    arrays, zero everywhere else. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

section AnyInstance
variable {F : FTy → Type} [FloatOps F]
variable (m : (ℓ : Loc nD τ sig) → Buf (Elt F) ℓ)

/-- The mask as a row per batch entry, as the region finds it: the bits as numbers, re-laid `[32, 512] → [32, 1, 512]`. -/
theorem V_main_v1 (c : Dev nD) : (V m c main_v1 : S32x1x512.Idx → Elt F .f32)
    = shapeCast S32x1x512 ((uitofp .f32 : (⟨S32x512, .i1⟩ : BufTy).Contents (Elt F) → (⟨S32x512, .f32⟩ : BufTy).Contents (Elt F))
        (m ((c : Thread nD τ).loc main_arg1))) shapeCasts_S32x512_S32x1x512 := by
  dsimp only [Gen.V, Gen.hostOps0]; after_results; rfl

/-- The mask as a column per batch entry, as the region finds it: the bits as numbers, re-laid `[32, 512] → [32, 512, 1]`. -/
theorem V_main_v3 (c : Dev nD) : (V m c main_v3 : S32x512x1.Idx → Elt F .f32)
    = shapeCast S32x512x1 ((uitofp .f32 : (⟨S32x512, .i1⟩ : BufTy).Contents (Elt F) → (⟨S32x512, .f32⟩ : BufTy).Contents (Elt F))
        (m ((c : Thread nD τ).loc main_arg1))) shapeCasts_S32x512_S32x512x1 := by
  dsimp only [Gen.V, Gen.hostOps0]; after_results; rfl

/-- The adjacency block at point `t` is batch entry `t / 16` of the adjacency array. -/
theorem iblk0_apply (c : Dev nD) (t : Fin cfg0.N) (b : Fin 32) (hb : b.val = t.val / 16) (p q : Fin 512) :
    (iblk m c 0 t : Vec F S1x512x512 .f32) (ix3 (0 : Fin 1) p q) = m ((c : Thread nD τ).loc main_arg0) (ix3 b p q) := by
  obtain ⟨e0, e1, e2, -⟩ := idx_facts t
  refine Eq.trans ?_ (congrFun (V_main_arg0 m c) (ix3 b p q))
  show V m c main_arg0 (((cfg0.win 0).blk t).view.emb (ix3 (0 : Fin 1) p q)) = V m c main_arg0 (ix3 b p q)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * p.val = p.val; omega
  | ⟨2, _⟩ => show win0_0.index t (2 : Fin 3) * 512 + 1 * q.val = q.val; omega

/-- The table block at every point is the whole table. -/
theorem iblk3_apply (c : Dev nD) (t : Fin cfg0.N) (k : Fin 12) (e : Fin 8) :
    (iblk m c 3 t : Vec F S12x8 .f32) (ix2 k e) = m ((c : Thread nD τ).loc main_arg2) (ix2 k e) := by
  obtain ⟨-, -, -, -, -, -, -, -, -, e0, e1⟩ := idx_facts t
  refine Eq.trans ?_ (congrFun (V_main_arg2 m c) (ix2 k e))
  show V m c main_arg2 (((cfg0.win 3).blk t).view.emb (ix2 k e)) = V m c main_arg2 (ix2 k e)
  refine congrArg (V m c main_arg2) (funext fun a => Fin.ext ?_)
  match a with
  | ⟨0, _⟩ => show win0_3.index t (0 : Fin 2) * 12 + 1 * k.val = k.val; omega
  | ⟨1, _⟩ => show win0_3.index t (1 : Fin 2) * 8 + 1 * e.val = e.val; omega

end AnyInstance

section AtIdeal
variable (m : (ℓ : Loc nD τ sig) → Buf (Elt Ideal) ℓ)

/-- The mask row block at point `t` holds, at `q`, the mask bit of node `q` in batch entry `t / 16` as 0 or 1. -/
theorem iblk1_apply (c : Dev nD) (t : Fin cfg0.N) (b : Fin 32) (hb : b.val = t.val / 16) (q : Fin 512) :
    (iblk m c 1 t : Vec Ideal S1x1x512 .f32) (ix3 (0 : Fin 1) (0 : Fin 1) q)
      = Cert.Spec.b2r (m ((c : Thread nD τ).loc main_arg1) (ix2 b q)) := by
  obtain ⟨-, -, -, e0, e1, e2, -⟩ := idx_facts t
  have h1 : (iblk m c 1 t : Vec Ideal S1x1x512 .f32) (ix3 (0 : Fin 1) (0 : Fin 1) q)
      = V m c main_v1 (ix3 b (0 : Fin 1) q) := by
    show V m c main_v1 (((cfg0.win 1).blk t).view.emb (ix3 (0 : Fin 1) (0 : Fin 1) q)) = V m c main_v1 (ix3 b (0 : Fin 1) q)
    refine congrArg (V m c main_v1) (funext fun a => Fin.ext ?_)
    match a with
    | ⟨0, _⟩ => show win0_1.index t (0 : Fin 3) * 1 + 1 * 0 = b.val; omega
    | ⟨1, _⟩ => show win0_1.index t (1 : Fin 3) * 1 + 1 * 0 = 0; omega
    | ⟨2, _⟩ => show win0_1.index t (2 : Fin 3) * 512 + 1 * q.val = q.val; omega
  refine h1.trans ((congrFun (V_main_v1 m c) (ix3 b (0 : Fin 1) q)).trans ?_)
  exact (shapeCast_ab_a1b_apply _ _ b 0 q).trans rfl

/-- The mask column block at point `t` holds, at `p`, the mask bit of node `p` in batch entry `t / 16` as 0 or 1. -/
theorem iblk2_apply (c : Dev nD) (t : Fin cfg0.N) (b : Fin 32) (hb : b.val = t.val / 16) (p : Fin 512) :
    (iblk m c 2 t : Vec Ideal S1x512x1 .f32) (ix3 (0 : Fin 1) p (0 : Fin 1))
      = Cert.Spec.b2r (m ((c : Thread nD τ).loc main_arg1) (ix2 b p)) := by
  obtain ⟨-, -, -, -, -, -, e0, e1, e2, -⟩ := idx_facts t
  have h1 : (iblk m c 2 t : Vec Ideal S1x512x1 .f32) (ix3 (0 : Fin 1) p (0 : Fin 1))
      = V m c main_v3 (ix3 b p (0 : Fin 1)) := by
    show V m c main_v3 (((cfg0.win 2).blk t).view.emb (ix3 (0 : Fin 1) p (0 : Fin 1))) = V m c main_v3 (ix3 b p (0 : Fin 1))
    refine congrArg (V m c main_v3) (funext fun a => Fin.ext ?_)
    match a with
    | ⟨0, _⟩ => show win0_2.index t (0 : Fin 3) * 1 + 1 * 0 = b.val; omega
    | ⟨1, _⟩ => show win0_2.index t (1 : Fin 3) * 512 + 1 * p.val = p.val; omega
    | ⟨2, _⟩ => show win0_2.index t (2 : Fin 3) * 1 + 1 * 0 = 0; omega
  refine h1.trans ((congrFun (V_main_v3 m c) (ix3 b p (0 : Fin 1))).trans ?_)
  exact (Cert.KernelIdeal.OutValue.shapeCast_ab_ab1_apply _ _ b p 0).trans rfl

end AtIdeal

end Cert.KernelIdeal.Blocks

end
-- ==== Proof.KCover.lean ====
/-
  The result array is covered by the grid's result blocks.
  The grid has 32 × 16 points; point t, with coordinates (t / 16, t % 16), writes back the block of the result array
  [32, 512, 512, 8] made of batch entry t / 16, the 32 rows from 32 · (t % 16) on, every column and every table
  column. The 32 distance rows the body loads at that point start at the same row 32 · (t % 16). An index
  (b, p, q, e) of the result lies in the block of the point 16 · b + p / 32, so every index is covered.
-/
import proofs.«127861_j44693429682446_1_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- The result window's block index at point t: (t / 16, t % 16, 0, 0), decided over the 512 points. -/
theorem idx_facts4 : ∀ t : Fin cfg0.N, win0_4.index t (0 : Fin 4) = t.val / 16 ∧ win0_4.index t (1 : Fin 4) = t.val % 16
    ∧ win0_4.index t (2 : Fin 4) = 0 ∧ win0_4.index t (3 : Fin 4) = 0 :=
  (by decide +kernel : ∀ t : Fin grid0.N, _)

/-- The row offset of the body's load of 32 distance rows at point t: 32 · (t % 16), column offset 0 (the product
    does not wrap), decided over the 512 points. -/
theorem off_facts : ∀ t : Fin cfg0.N, k0_off1 (grid0.coords t) (0 : Fin 2) = 32 * (t.val % 16)
    ∧ k0_off1 (grid0.coords t) (1 : Fin 2) = 0 :=
  (by decide +kernel : ∀ t : Fin grid0.N, _)

/-- An index of the result array is in point t's block iff each coordinate is in the block's range on its axis. -/
theorem mem_blk4 (t : Fin cfg0.N) (i : S32x512x512x8.Idx) :
    i ∈ ((cfg0.win 4).blk t).view.set ↔ ∀ a : Fin 4, win0_4.index t a * S1x32x512x8.size a ≤ (i a).val
      ∧ (i a).val < win0_4.index t a * S1x32x512x8.size a + S1x32x512x8.size a := by
  show i ∈ ((View.whole main_v4).slice (win0_4.rect t)).set ↔ _
  rw [View.set_slice_whole, Rect.mem_set_unit]
  exact Iff.rfl

/-- Every index of the result array lies in the block some point writes back: the point 16 · (i 0) + (i 1) / 32. -/
theorem cover4 (i : S32x512x512x8.Idx) :
    ∃ t : Fin cfg0.N, (cfg0.win 4).flush t = true ∧ i ∈ ((cfg0.win 4).blk t).view.set := by
  have hN : cfg0.N = 512 := N_0
  have h0 : (i 0).val < 32 := (i 0).isLt
  have h1 : (i 1).val < 512 := (i 1).isLt
  have h2 : (i 2).val < 512 := (i 2).isLt
  have h3 : (i 3).val < 8 := (i 3).isLt
  obtain ⟨t, ht⟩ : ∃ t : Fin cfg0.N, t.val = (i 0).val * 16 + (i 1).val / 32 :=
    ⟨⟨(i 0).val * 16 + (i 1).val / 32, by omega⟩, rfl⟩
  obtain ⟨e0, e1, e2, e3⟩ := idx_facts4 t
  refine ⟨t, flush0_4 t, ?_⟩
  rw [mem_blk4]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 32 ≤ (i 1).val ∧ (i 1).val < win0_4.index t (1 : Fin 4) * 32 + 32
    omega
  | ⟨2, _⟩ =>
    show win0_4.index t (2 : Fin 4) * 512 ≤ (i 2).val ∧ (i 2).val < win0_4.index t (2 : Fin 4) * 512 + 512
    omega
  | ⟨3, _⟩ =>
    show win0_4.index t (3 : Fin 4) * 8 ≤ (i 3).val ∧ (i 3).val < win0_4.index t (3 : Fin 4) * 8 + 8
    omega

end Cert.KernelIdeal.Cover

end
-- ==== Proof.KRows.lean ====
/-
  The loads of the result payload read at an entry. A load through a unit-stride rectangle reads, at an index, the
  source at the rectangle's offset plus the index on every axis. The 32 rows a grid point loads from the distance
  matrix start at the row its offset names and span every column, so entry (r, q) of the load is entry
  (offset + r, q) of the matrix; the load of table row K is a one-row rectangle at row K, so its entry (0, e) is the
  table's entry (K, e).
-/
import proofs.«127861_j44693429682446_1_alg».proof.Proof.KFound
import Idealize.ShloMosaic.Lib.ValueIdx

noncomputable section

namespace Cert.KernelIdeal.Rows

open Idealize.ShloMosaic Idealize.ShloMosaic.ValueIdx
open Cert.KernelIdeal Cert.KernelIdeal.Gen Cert.KernelIdeal.Found

variable {F : FTy → Type} [FloatOps F]

/-- Entry (r, q) of the 32 loaded rows is entry (o + r, q) of the matrix, o the row offset of the grid point. -/
theorem rowsOf_apply (i : grid0.Coords) (D : Vec F S512x512 .i32) (o : ℕ) (ho : k0_off1 i (0 : Fin 2) = o)
    (ho1 : k0_off1 i (1 : Fin 2) = 0) (r : Fin 32) (q : Fin 512) (r' : Fin 512) (hr : r'.val = o + r.val) :
    rowsOf i D (ix2 r q) = D (ix2 r' q) := by
  unfold rowsOf
  refine congrArg D (funext fun a => Fin.ext ?_)
  match a with
  | ⟨0, _⟩ =>
    show k0_off1 i (0 : Fin 2) + 1 * r.val = r'.val
    rw [ho, hr]; omega
  | ⟨1, _⟩ =>
    show k0_off1 i (1 : Fin 2) + 1 * q.val = q.val
    rw [ho1]; omega

theorem tabRow0_apply (x3 : Vec F S12x8 .f32) (e : Fin 8) : tabRow0 x3 (ix2 (0 : Fin 1) e) = x3 (ix2 (0 : Fin 12) e) := by
  refine congrArg x3 (funext fun a => Fin.ext ?_)
  match a with
  | ⟨0, _⟩ => show 0 + 1 * 0 = 0; rfl
  | ⟨1, _⟩ => show 0 + 1 * e.val = e.val; omega
theorem tabRow1_apply (x3 : Vec F S12x8 .f32) (e : Fin 8) : tabRow1 x3 (ix2 (0 : Fin 1) e) = x3 (ix2 (1 : Fin 12) e) := by
  refine congrArg x3 (funext fun a => Fin.ext ?_)
  match a with
  | ⟨0, _⟩ => show 1 + 1 * 0 = 1; rfl
  | ⟨1, _⟩ => show 0 + 1 * e.val = e.val; omega
theorem tabRow2_apply (x3 : Vec F S12x8 .f32) (e : Fin 8) : tabRow2 x3 (ix2 (0 : Fin 1) e) = x3 (ix2 (2 : Fin 12) e) := by
  refine congrArg x3 (funext fun a => Fin.ext ?_)
  match a with
  | ⟨0, _⟩ => show 2 + 1 * 0 = 2; rfl
  | ⟨1, _⟩ => show 0 + 1 * e.val = e.val; omega
theorem tabRow3_apply (x3 : Vec F S12x8 .f32) (e : Fin 8) : tabRow3 x3 (ix2 (0 : Fin 1) e) = x3 (ix2 (3 : Fin 12) e) := by
  refine congrArg x3 (funext fun a => Fin.ext ?_)
  match a with
  | ⟨0, _⟩ => show 3 + 1 * 0 = 3; rfl
  | ⟨1, _⟩ => show 0 + 1 * e.val = e.val; omega
theorem tabRow4_apply (x3 : Vec F S12x8 .f32) (e : Fin 8) : tabRow4 x3 (ix2 (0 : Fin 1) e) = x3 (ix2 (4 : Fin 12) e) := by
  refine congrArg x3 (funext fun a => Fin.ext ?_)
  match a with
  | ⟨0, _⟩ => show 4 + 1 * 0 = 4; rfl
  | ⟨1, _⟩ => show 0 + 1 * e.val = e.val; omega
theorem tabRow5_apply (x3 : Vec F S12x8 .f32) (e : Fin 8) : tabRow5 x3 (ix2 (0 : Fin 1) e) = x3 (ix2 (5 : Fin 12) e) := by
  refine congrArg x3 (funext fun a => Fin.ext ?_)
  match a with
  | ⟨0, _⟩ => show 5 + 1 * 0 = 5; rfl
  | ⟨1, _⟩ => show 0 + 1 * e.val = e.val; omega
theorem tabRow6_apply (x3 : Vec F S12x8 .f32) (e : Fin 8) : tabRow6 x3 (ix2 (0 : Fin 1) e) = x3 (ix2 (6 : Fin 12) e) := by
  refine congrArg x3 (funext fun a => Fin.ext ?_)
  match a with
  | ⟨0, _⟩ => show 6 + 1 * 0 = 6; rfl
  | ⟨1, _⟩ => show 0 + 1 * e.val = e.val; omega
theorem tabRow7_apply (x3 : Vec F S12x8 .f32) (e : Fin 8) : tabRow7 x3 (ix2 (0 : Fin 1) e) = x3 (ix2 (7 : Fin 12) e) := by
  refine congrArg x3 (funext fun a => Fin.ext ?_)
  match a with
  | ⟨0, _⟩ => show 7 + 1 * 0 = 7; rfl
  | ⟨1, _⟩ => show 0 + 1 * e.val = e.val; omega
theorem tabRow8_apply (x3 : Vec F S12x8 .f32) (e : Fin 8) : tabRow8 x3 (ix2 (0 : Fin 1) e) = x3 (ix2 (8 : Fin 12) e) := by
  refine congrArg x3 (funext fun a => Fin.ext ?_)
  match a with
  | ⟨0, _⟩ => show 8 + 1 * 0 = 8; rfl
  | ⟨1, _⟩ => show 0 + 1 * e.val = e.val; omega
theorem tabRow9_apply (x3 : Vec F S12x8 .f32) (e : Fin 8) : tabRow9 x3 (ix2 (0 : Fin 1) e) = x3 (ix2 (9 : Fin 12) e) := by
  refine congrArg x3 (funext fun a => Fin.ext ?_)
  match a with
  | ⟨0, _⟩ => show 9 + 1 * 0 = 9; rfl
  | ⟨1, _⟩ => show 0 + 1 * e.val = e.val; omega
theorem tabRow10_apply (x3 : Vec F S12x8 .f32) (e : Fin 8) : tabRow10 x3 (ix2 (0 : Fin 1) e) = x3 (ix2 (10 : Fin 12) e) := by
  refine congrArg x3 (funext fun a => Fin.ext ?_)
  match a with
  | ⟨0, _⟩ => show 10 + 1 * 0 = 10; rfl
  | ⟨1, _⟩ => show 0 + 1 * e.val = e.val; omega
theorem tabRow11_apply (x3 : Vec F S12x8 .f32) (e : Fin 8) : tabRow11 x3 (ix2 (0 : Fin 1) e) = x3 (ix2 (11 : Fin 12) e) := by
  refine congrArg x3 (funext fun a => Fin.ext ?_)
  match a with
  | ⟨0, _⟩ => show 11 + 1 * 0 = 11; rfl
  | ⟨1, _⟩ => show 0 + 1 * e.val = e.val; omega

end Cert.KernelIdeal.Rows

end
-- ==== Proof.KDistBits.lean ====
/-
  Bits read as extended reals. A one-bit word b is read as the extended real 0 or 1 (Spec.b2r). On such values the
  programs' float arithmetic is Boolean algebra: the maximum is the disjunction, the product the conjunction, a
  difference exceeds one half exactly when the first bit is set and the second is not, and a value exceeds one half
  exactly when its bit is set. The conversion of a zero-extended bit to a float is the same reading.
-/
import proofs.«127861_j44693429682446_1_alg».proof.Proof.Spec

noncomputable section

namespace Cert.KernelIdeal.PayValue

open Idealize.ShloMosaic Cert.Spec

theorem b2r_zero : b2r 0#1 = 0 := by simp [b2r]
theorem b2r_one : b2r 1#1 = 1 := by simp [b2r]

/-- A bit is the word 0 or the word 1. -/
theorem bit_cases (a : BitVec 1) : a = 0#1 ∨ a = 1#1 := BitVec.eq_zero_or_eq_one a

/-- The float conversion of a bit widened to 32 bits reads the bit. -/
theorem sitofp_setWidth (a : BitVec 1) : (((a.setWidth 32).toInt : ℝ) : EReal) = b2r a := by
  rcases bit_cases a with rfl | rfl
  · have h : (BitVec.setWidth 32 0#1).toInt = 0 := by decide
    rw [h, b2r_zero]; simp
  · have h : (BitVec.setWidth 32 1#1).toInt = 1 := by decide
    rw [h, b2r_one]; simp

/-- The maximum of two bits is their disjunction. -/
theorem max_b2r (a b : BitVec 1) : max (b2r a) (b2r b) = b2r (a ||| b) := by
  rcases bit_cases a with rfl | rfl <;> rcases bit_cases b with rfl | rfl <;>
    simp [b2r_zero, b2r_one]

/-- The product of two bits is their conjunction. -/
theorem mul_b2r (a b : BitVec 1) : b2r a * b2r b = b2r (a &&& b) := by
  rcases bit_cases a with rfl | rfl <;> rcases bit_cases b with rfl | rfl <;>
    simp [b2r_zero, b2r_one]

theorem half_lt_one : half < (1 : EReal) := by
  rw [half_eq, ← EReal.coe_one]; exact EReal.coe_lt_coe_iff.mpr (by norm_num)
theorem not_half_lt_zero : ¬ half < (0 : EReal) := by
  rw [half_eq, ← EReal.coe_zero]; exact fun h => absurd (EReal.coe_lt_coe_iff.mp h) (by norm_num)
theorem not_half_lt_neg_one : ¬ half < (-1 : EReal) := by
  rw [half_eq, ← EReal.coe_one, ← EReal.coe_neg]; exact fun h => absurd (EReal.coe_lt_coe_iff.mp h) (by norm_num)

theorem cmp_one_half : Ideal.cmp .ogt (1 : EReal) half = 1#1 := by
  unfold Ideal.cmp; simp [half_lt_one]
theorem cmp_zero_half : Ideal.cmp .ogt (0 : EReal) half = 0#1 := by
  unfold Ideal.cmp; simp [not_half_lt_zero]
theorem cmp_neg_one_half : Ideal.cmp .ogt (-1 : EReal) half = 0#1 := by
  unfold Ideal.cmp; simp [not_half_lt_neg_one]

/-- A bit exceeds one half exactly when it is set. -/
theorem cmp_b2r_half (a : BitVec 1) : Ideal.cmp .ogt (b2r a) half = a := by
  rcases bit_cases a with rfl | rfl
  · rw [b2r_zero, cmp_zero_half]
  · rw [b2r_one, cmp_one_half]

/-- A difference of bits exceeds one half exactly when the first is set and the second is not. -/
theorem cmp_sub_half (a b : BitVec 1) : Ideal.cmp .ogt (b2r a - b2r b) half = a &&& ~~~ b := by
  rcases bit_cases a with rfl | rfl <;> rcases bit_cases b with rfl | rfl
  · rw [b2r_zero, sub_zero, cmp_zero_half]; decide
  · rw [b2r_zero, b2r_one, zero_sub, cmp_neg_one_half]; decide
  · rw [b2r_zero, b2r_one, sub_zero, cmp_one_half]; decide
  · rw [b2r_one]
    have h : (1 : EReal) - 1 = 0 := by
      rw [← EReal.coe_one, ← EReal.coe_sub]; simp
    rw [h, cmp_zero_half]; decide

end Cert.KernelIdeal.PayValue

end
-- ==== Proof.KDistOps.lean ====
/-
  The two steps every round of the search repeats, read at one matrix entry.
  A float matrix whose entries are bits read as 0 or 1 stands for the bit matrix. The product of two such matrices
  into a zero accumulator is, at (p, q), the sum over j of the products of the entries (p, j) and (j, q): the number
  of j reached from p with an edge to q. One round compares that count with zero, reads the comparison as 0 or 1 and
  takes the maximum with the old entry: the entry of Spec.grow. The distance update selects the round's number where
  the new entry minus the old exceeds one half: Spec.mark's condition "reached now and not before".
  Also here: a column [512, 1] spread over the columns of a [512, 512] matrix reads its row's entry.
-/
import proofs.«127861_j44693429682446_1_alg».proof.Proof.Gen.KernelIdeal.Skeleton
import proofs.«127861_j44693429682446_1_alg».proof.Proof.KDistBits
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Spec

/-! ## The matrix product at an entry -/

theorem dot_lhs0 (i : S512x512.Idx) (k : dot_S512x512_S512x512_S512x512_1_0_0_1_n_n.contr.Idx) :
    (dot_S512x512_S512x512_S512x512_1_0_0_1_n_n.lhsIdx i k 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem dot_lhs1 (i : S512x512.Idx) (k : dot_S512x512_S512x512_S512x512_1_0_0_1_n_n.contr.Idx) :
    (dot_S512x512_S512x512_S512x512_1_0_0_1_n_n.lhsIdx i k 1).val = (k ⟨0, by decide⟩).val :=
  dot_S512x512_S512x512_S512x512_1_0_0_1_n_n.lhsIdx_val_of_single rfl i k
theorem dot_rhs0 (i : S512x512.Idx) (k : dot_S512x512_S512x512_S512x512_1_0_0_1_n_n.contr.Idx) :
    (dot_S512x512_S512x512_S512x512_1_0_0_1_n_n.rhsIdx i k 0).val = (k ⟨0, by decide⟩).val :=
  dot_S512x512_S512x512_S512x512_1_0_0_1_n_n.rhsIdx_val_of_single rfl i k
theorem dot_rhs1 (i : S512x512.Idx) (k : dot_S512x512_S512x512_S512x512_1_0_0_1_n_n.contr.Idx) :
    (dot_S512x512_S512x512_S512x512_1_0_0_1_n_n.rhsIdx i k 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product of two 512 × 512 matrices into the zero accumulator, at (p, q): the sum over j of the entries
    (p, j) and (j, q) multiplied. -/
theorem matmul_entry (L a : FVec Ideal S512x512 .bf16) (p q : Fin 512) :
    matmul dot_S512x512_S512x512_S512x512_1_0_0_1_n_n none L a (constant (F := Ideal) S512x512 .f32 0x00000000#32) (ix2 p q)
      = ∑ j : Fin 512, L (ix2 p j) * a (ix2 j q) := by
  show FloatOps.matmul dot_S512x512_S512x512_S512x512_1_0_0_1_n_n none L a (constant (F := Ideal) S512x512 .f32 0x00000000#32) (ix2 p q) = _
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q)
      ((contrEquiv1 dot_S512x512_S512x512_S512x512_1_0_0_1_n_n 512 rfl rfl).symm k) = ix2 p k :=
    funext fun c => Fin.ext (by
      match c with
      | ⟨0, _⟩ => exact dot_lhs0 _ _
      | ⟨1, _⟩ => exact (dot_lhs1 _ _).trans hk)
  have er : dot_S512x512_S512x512_S512x512_1_0_0_1_n_n.rhsIdx (ix2 p q)
      ((contrEquiv1 dot_S512x512_S512x512_S512x512_1_0_0_1_n_n 512 rfl rfl).symm k) = ix2 k q :=
    funext fun c => Fin.ext (by
      match c with
      | ⟨0, _⟩ => exact (dot_rhs0 _ _).trans hk
      | ⟨1, _⟩ => exact dot_rhs1 _ _)
  rw [el, er]

/-! ## One round's reachability update -/

/-- One round's new reachability matrix from the old one R, its copy L passed to the product, and the edge matrix a. -/
def kgrow (L a : FVec Ideal S512x512 .bf16) (R : FVec Ideal S512x512 .f32) : FVec Ideal S512x512 .f32 :=
  maximumf (sitofp .f32 (extui 32 (cmpf .ogt
    (matmul dot_S512x512_S512x512_S512x512_1_0_0_1_n_n none L a (constant (F := Ideal) S512x512 .f32 0x00000000#32))
    (broadcast S512x512 (Scalar.ofBits (F := Ideal) .f32 0x00000000#32))) natLt_1_32)) R

/-- If L and R both stand for the bit matrix r and a stands for adj, the round's result stands for Spec.grow adj r. -/
theorem kgrow_apply (L a : FVec Ideal S512x512 .bf16) (R : FVec Ideal S512x512 .f32) (adj r : Mat (BitVec 1))
    (hL : ∀ p j : Fin 512, L (ix2 p j) = b2r (r p j)) (ha : ∀ j q : Fin 512, a (ix2 j q) = b2r (adj j q))
    (hR : ∀ p q : Fin 512, R (ix2 p q) = b2r (r p q)) (p q : Fin 512) :
    kgrow L a R (ix2 p q) = b2r (grow adj r p q) := by
  show max (((((Ideal.cmp .ogt
      (matmul dot_S512x512_S512x512_S512x512_1_0_0_1_n_n none L a (constant (F := Ideal) S512x512 .f32 0x00000000#32) (ix2 p q))
      zeroF).setWidth 32).toInt : ℝ) : EReal)) (R (ix2 p q)) = _
  rw [matmul_entry, sitofp_setWidth, hR, max_b2r]
  unfold grow
  have hs : ∑ j : Fin 512, L (ix2 p j) * a (ix2 j q) = ∑ j : Fin 512, b2r (r p j) * b2r (adj j q) :=
    Finset.sum_congr rfl fun j _ => by rw [hL, ha]
  rw [hs]

/-! ## One round's distance update -/

/-- One round's distance matrix: the round's number k where the new reachability entry minus the old exceeds one
    half, the old distance elsewhere. -/
def kmark (R' R : FVec Ideal S512x512 .f32) (k : BitVec 32) (d : IVec S512x512 32) : IVec S512x512 32 :=
  select (cmpf .ogt (subf R' R) (broadcast S512x512 (Scalar.ofBits (F := Ideal) .f32 0x3F000000#32))) (broadcast S512x512 k) d

/-- At an entry where the new and old reachability are the bits b' and b and the old distance is dm. -/
theorem kmark_apply (R' R : FVec Ideal S512x512 .f32) (k : BitVec 32) (d : IVec S512x512 32) (b' b : BitVec 1) (dm : BitVec 32)
    (i : S512x512.Idx) (hR' : R' i = b2r b') (hR : R i = b2r b) (hd : d i = dm) :
    kmark R' R k d i = if (b' &&& ~~~ b) = 1#1 then k else dm := by
  show Scalar.select (Ideal.cmp .ogt (R' i - R i) half) k (d i) = _
  rw [hR', hR, hd, cmp_sub_half]
  rfl

/-- The same with a condition bit already computed. -/
theorem select_bit_apply (c : IVec S512x512 1) (k : BitVec 32) (d : IVec S512x512 32) (b : BitVec 1) (dm : BitVec 32)
    (i : S512x512.Idx) (hc : c i = b) (hd : d i = dm) :
    select c (broadcast S512x512 k) d i = if b = 1#1 then k else dm := by
  show Scalar.select (c i) k (d i) = _
  rw [hc, hd]
  rfl

/-! ## A column spread over the columns -/

/-- A [512, 1] column broadcast to [512, 512] reads, at (p, q), the column's entry p. -/
theorem broadcastTo_a1_ab_apply {α : Type} (v : (⟨2, ![512, 1]⟩ : Shape).Idx → α)
    (h : (⟨2, ![512, 1]⟩ : Shape).Broadcasts ⟨2, ![512, 512]⟩) (p q : Fin 512) :
    broadcastTo ⟨2, ![512, 512]⟩ v h (ix2 p q) = v (ix2 p (0 : Fin 1)) := by
  refine broadcastTo_apply v h (ix2 p q) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else q.val
    rw [if_pos rfl]

end Cert.KernelIdeal.PayValue

end
-- ==== Proof.KDistAdj.lean ====
/-
  The matrices the body forms before the first round, read at an entry.
  The pair mask is the column mask times the row mask: at (p, q) the product of the mask bits of p and q, the bit
  "both ends unmasked". The stored edge matrix compares the adjacency block with one half, takes the maximum with its
  own transpose (either orientation) and multiplies by the pair mask: at (p, q) the edge bit of Spec.edge.
-/
import proofs.«127861_j44693429682446_1_alg».proof.Proof.KDistOps
import proofs.«127861_j44693429682446_1_alg».proof.Proof.KPay

noncomputable section

namespace Cert.KernelIdeal.PayValue

open Cert.KernelIdeal Cert.KernelIdeal.Gen Cert.KernelIdeal.Pay Idealize.ShloMosaic Idealize.ShloMosaic.ValueIdx Cert.Spec

/-- The pair mask at (p, q): both ends unmasked. -/
theorem pay2_apply (x2 : Vec Ideal S1x512x1 .f32) (x1 : Vec Ideal S1x1x512 .f32) (Mk : Fin 512 → BitVec 1)
    (h1 : ∀ q : Fin 512, x1 (ix3 0 0 q) = b2r (Mk q)) (h2 : ∀ p : Fin 512, x2 (ix3 0 p 0) = b2r (Mk p))
    (p q : Fin 512) : k0_pay2 x2 x1 (ix2 p q) = b2r (both Mk p q) := by
  unfold k0_pay2
  show broadcastTo S512x512 (shapeCast S512x1 x2 shapeCasts_S1x512x1_S512x1) broadcasts_S512x1_S512x512 (ix2 p q)
      * broadcastTo S512x512 (shapeCast S1x512 x1 shapeCasts_S1x1x512_S1x512) broadcasts_S1x512_S512x512 (ix2 p q) = _
  rw [broadcastTo_a1_ab_apply, broadcastTo_1b_ab_apply, shapeCast_1ab_ab_apply, shapeCast_1ab_ab_apply, h2, h1, mul_b2r]
  rfl

/-- The adjacency block compared with one half, as a 0/1 matrix. -/
def bigMat (x0 : Vec Ideal S1x512x512 .f32) : FVec Ideal S512x512 .f32 :=
  sitofp .f32 (extui 32 (cmpf .ogt (shapeCast S512x512 x0 shapeCasts_S1x512x512_S512x512)
    (broadcast S512x512 (Scalar.ofBits (F := Ideal) .f32 0x3F000000#32))) natLt_1_32)

theorem bigMat_apply (x0 : Vec Ideal S1x512x512 .f32) (p q : Fin 512) :
    bigMat x0 (ix2 p q) = b2r (big (x0 (ix3 0 p q))) := by
  show ((((Ideal.cmp .ogt (shapeCast S512x512 x0 shapeCasts_S1x512x512_S512x512 (ix2 p q)) half).setWidth 32).toInt : ℝ) : EReal) = _
  rw [sitofp_setWidth, shapeCast_1ab_ab_apply]
  rfl

/-- The stored edge matrix at (p, q): the edge bit. -/
theorem adjPay_apply (x0 : Vec Ideal S1x512x512 .f32) (x1 : Vec Ideal S1x1x512 .f32) (x2 : Vec Ideal S1x512x1 .f32)
    (Mk : Fin 512 → BitVec 1)
    (h1 : ∀ q : Fin 512, x1 (ix3 0 0 q) = b2r (Mk q)) (h2 : ∀ p : Fin 512, x2 (ix3 0 p 0) = b2r (Mk p))
    (p q : Fin 512) :
    adjPay x0 x1 x2 (ix2 p q) = b2r (edge (fun p q => x0 (ix3 0 p q)) Mk p q) := by
  have e : adjPay x0 x1 x2 = shapeCast S512x512 (truncf .bf16 (mulf (maximumf (bigMat x0)
      (transpose S512x512 [1, 0] (bigMat x0) transposes_S512x512_p1_0_S512x512)) (k0_pay2 x2 x1)) bitsLt_bf16_f32)
      shapeCasts_S512x512_S512x512 := rfl
  rw [e, shapeCast_self]
  show max (bigMat x0 (ix2 p q)) (transpose S512x512 [1, 0] (bigMat x0) transposes_S512x512_p1_0_S512x512 (ix2 p q))
      * k0_pay2 x2 x1 (ix2 p q) = _
  rw [transpose_ix2_apply, bigMat_apply, bigMat_apply, pay2_apply x2 x1 Mk h1 h2, max_b2r, mul_b2r]
  rfl

end Cert.KernelIdeal.PayValue

end
-- ==== Proof.KDistEye.lean ====
/-
  The state before the first round, read at an entry. The comparison of the row number with the column number is
  the identity matrix, the first reachability matrix; the first distance matrix has 0 on the diagonal and 11
  elsewhere.
-/
import proofs.«127861_j44693429682446_1_alg».proof.Proof.KDistOps

noncomputable section

namespace Cert.KernelIdeal.PayValue

open Cert.KernelIdeal Cert.KernelIdeal.Gen Idealize.ShloMosaic Idealize.ShloMosaic.ValueIdx Cert.Spec

/-- Row number equal to column number: the identity matrix. -/
theorem pay4_apply (p q : Fin 512) : k0_pay4 (ix2 p q) = eye p q := by
  unfold k0_pay4
  show IntOp.cmpi .eq (iota .tc S512x512 32 [0] iota_S512x512_d0_w32 (ix2 p q))
      (iota .tc S512x512 32 [1] iota_S512x512_d1_w32 (ix2 p q)) = _
  rw [iota_single_apply, iota_single_apply]
  rfl

/-- The first distance matrix. -/
theorem pay5_apply (p q : Fin 512) : k0_pay5 (ix2 p q) = dist0 p q := by
  unfold k0_pay5
  exact select_bit_apply k0_pay4 0#32 (broadcast S512x512 11#32) (eye p q) 11#32 (ix2 p q) (pay4_apply p q) rfl

/-- The first reachability matrix as floats. -/
theorem pay6_apply (p q : Fin 512) : k0_pay6 (F := Ideal) (ix2 p q) = b2r (eye p q) := by
  show ((((k0_pay4 (ix2 p q)).setWidth 32).toInt : ℝ) : EReal) = _
  rw [pay4_apply, sitofp_setWidth]

end Cert.KernelIdeal.PayValue

end
-- ==== Proof.KDistRounds.lean ====
/-
  The ten rounds, payload by payload. Every reachability payload is one round (KDistOps' kgrow) applied to the
  payload before it, and every distance payload is a stack of distance updates (kmark), so each reads at an entry
  as the specification's grow and mark applied to whatever bit matrix and distance matrix its inputs stand for.
  Throughout, a is the stored edge matrix standing for the bit matrix adj.
-/
import proofs.«127861_j44693429682446_1_alg».proof.Proof.KDistEye

noncomputable section

namespace Cert.KernelIdeal.PayValue

open Cert.KernelIdeal Cert.KernelIdeal.Gen Idealize.ShloMosaic Idealize.ShloMosaic.ValueIdx Cert.Spec

/-! ## The payloads as rounds and updates -/

theorem pay7_eq (a : FVec Ideal S512x512 .bf16) :
    k0_pay7 (F := Ideal) a = kgrow (truncf .bf16 (k0_pay6 (F := Ideal)) bitsLt_bf16_f32) a (k0_pay6 (F := Ideal)) := rfl
theorem pay8_eq (a : FVec Ideal S512x512 .bf16) :
    k0_pay8 (F := Ideal) a = cmpf .ogt (subf (k0_pay7 (F := Ideal) a) (k0_pay6 (F := Ideal)))
      (broadcast S512x512 (Scalar.ofBits (F := Ideal) .f32 0x3F000000#32)) := rfl
theorem pay9_eq (v190 : FVec Ideal S512x512 .f32) (a : FVec Ideal S512x512 .bf16) :
    k0_pay9 v190 a = kgrow (truncf .bf16 v190 bitsLt_bf16_f32) a v190 := rfl
theorem pay10_eq (v190 : FVec Ideal S512x512 .f32) (a1 a2 : FVec Ideal S512x512 .bf16) :
    k0_pay10 v190 a1 a2 = kgrow (truncf .bf16 (k0_pay9 v190 a1) bitsLt_bf16_f32) a2 (k0_pay9 v190 a1) := rfl
theorem pay11_eq (v190 : FVec Ideal S512x512 .f32) (a1 a2 a3 : FVec Ideal S512x512 .bf16) :
    k0_pay11 v190 a1 a2 a3 = kgrow (truncf .bf16 (k0_pay10 v190 a1 a2) bitsLt_bf16_f32) a3 (k0_pay10 v190 a1 a2) := rfl
theorem pay12_eq (v180 : IVec S512x512 32) (v190 : FVec Ideal S512x512 .f32) (v193 : IVec S512x512 1) (c : BitVec 32)
    (a1 a2 a3 : FVec Ideal S512x512 .bf16) :
    k0_pay12 v180 v190 v193 c a1 a2 a3
      = kmark (k0_pay11 v190 a1 a2 a3) (k0_pay10 v190 a1 a2) 4#32
          (kmark (k0_pay10 v190 a1 a2) (k0_pay9 v190 a1) 3#32
            (kmark (k0_pay9 v190 a1) v190 2#32 (select v193 (broadcast S512x512 c) v180))) := rfl
theorem pay13_eq (v190 : FVec Ideal S512x512 .f32) (a1 a2 a3 : FVec Ideal S512x512 .bf16) :
    k0_pay13 v190 a1 a2 a3 = truncf .bf16 (k0_pay11 v190 a1 a2 a3) bitsLt_bf16_f32 := rfl
theorem pay14_eq (v229 : FVec Ideal S512x512 .f32) (v235 a : FVec Ideal S512x512 .bf16) :
    k0_pay14 v229 v235 a = kgrow v235 a v229 := rfl
theorem pay15_eq (v229 : FVec Ideal S512x512 .f32) (v235 a1 a2 : FVec Ideal S512x512 .bf16) :
    k0_pay15 v229 v235 a1 a2 = kgrow (truncf .bf16 (k0_pay14 v229 v235 a1) bitsLt_bf16_f32) a2 (k0_pay14 v229 v235 a1) := rfl
theorem pay16_eq (v229 : FVec Ideal S512x512 .f32) (v235 a1 a2 a3 : FVec Ideal S512x512 .bf16) :
    k0_pay16 v229 v235 a1 a2 a3
      = kgrow (truncf .bf16 (k0_pay15 v229 v235 a1 a2) bitsLt_bf16_f32) a3 (k0_pay15 v229 v235 a1 a2) := rfl
theorem pay17_eq (v229 : FVec Ideal S512x512 .f32) (v234 : IVec S512x512 32) (v235 a1 a2 a3 : FVec Ideal S512x512 .bf16) :
    k0_pay17 v229 v234 v235 a1 a2 a3
      = kmark (k0_pay16 v229 v235 a1 a2 a3) (k0_pay15 v229 v235 a1 a2) 7#32
          (kmark (k0_pay15 v229 v235 a1 a2) (k0_pay14 v229 v235 a1) 6#32
            (kmark (k0_pay14 v229 v235 a1) v229 5#32 v234)) := rfl
theorem pay18_eq (v229 : FVec Ideal S512x512 .f32) (v235 a1 a2 a3 : FVec Ideal S512x512 .bf16) :
    k0_pay18 v229 v235 a1 a2 a3 = truncf .bf16 (k0_pay16 v229 v235 a1 a2 a3) bitsLt_bf16_f32 := rfl

/-- Rounds eight, nine and ten, as the last distance payload forms them. -/
def r8 (v268 : FVec Ideal S512x512 .f32) (v274 a1 : FVec Ideal S512x512 .bf16) : FVec Ideal S512x512 .f32 :=
  kgrow v274 a1 v268
def r9 (v268 : FVec Ideal S512x512 .f32) (v274 a1 a2 : FVec Ideal S512x512 .bf16) : FVec Ideal S512x512 .f32 :=
  kgrow (truncf .bf16 (r8 v268 v274 a1) bitsLt_bf16_f32) a2 (r8 v268 v274 a1)
def r10 (v268 : FVec Ideal S512x512 .f32) (v274 a1 a2 a3 : FVec Ideal S512x512 .bf16) : FVec Ideal S512x512 .f32 :=
  kgrow (truncf .bf16 (r9 v268 v274 a1 a2) bitsLt_bf16_f32) a3 (r9 v268 v274 a1 a2)

theorem pay19_eq (v169 v268 : FVec Ideal S512x512 .f32) (v273 : IVec S512x512 32) (v274 a1 a2 a3 : FVec Ideal S512x512 .bf16) :
    k0_pay19 v169 v268 v273 v274 a1 a2 a3
      = select (cmpf .ogt v169 (broadcast S512x512 (Scalar.ofBits (F := Ideal) .f32 0x3F000000#32)))
          (kmark (r10 v268 v274 a1 a2 a3) (r9 v268 v274 a1 a2) 10#32
            (kmark (r9 v268 v274 a1 a2) (r8 v268 v274 a1) 9#32
              (kmark (r8 v268 v274 a1) v268 8#32 v273)))
          (broadcast S512x512 11#32) := rfl
theorem pay20_eq (v316 : IVec S512x512 32) : k0_pay20 v316 = v316 := by
  unfold k0_pay20
  exact shapeCast_self v316 shapeCasts_S512x512_S512x512

/-! ## Read at an entry -/

section
variable (a : FVec Ideal S512x512 .bf16) (adj : Mat (BitVec 1)) (ha : ∀ j q : Fin 512, a (ix2 j q) = b2r (adj j q))
include ha

/-- A round whose product operand is the old matrix itself (a change of float format is the identity). -/
theorem kgrow_self_apply (R : FVec Ideal S512x512 .f32) (r : Mat (BitVec 1))
    (hR : ∀ p q : Fin 512, R (ix2 p q) = b2r (r p q)) (p q : Fin 512) :
    kgrow (truncf .bf16 R bitsLt_bf16_f32) a R (ix2 p q) = b2r (grow adj r p q) :=
  kgrow_apply (truncf .bf16 R bitsLt_bf16_f32) a R adj r hR ha hR p q

/-- Round one. -/
theorem pay7_apply (p q : Fin 512) : k0_pay7 (F := Ideal) a (ix2 p q) = b2r (grow adj eye p q) := by
  rw [pay7_eq]
  exact kgrow_self_apply a adj ha (k0_pay6 (F := Ideal)) eye pay6_apply p q

/-- The pairs first reached in round one. -/
theorem pay8_apply (p q : Fin 512) : k0_pay8 (F := Ideal) a (ix2 p q) = grow adj eye p q &&& ~~~ eye p q := by
  rw [pay8_eq]
  show Ideal.cmp .ogt (k0_pay7 (F := Ideal) a (ix2 p q) - k0_pay6 (F := Ideal) (ix2 p q)) half = _
  rw [pay7_apply a adj ha, pay6_apply, cmp_sub_half]

section
variable (v190 : FVec Ideal S512x512 .f32) (r : Mat (BitVec 1)) (h190 : ∀ p q : Fin 512, v190 (ix2 p q) = b2r (r p q))
include h190

theorem pay9_apply (p q : Fin 512) : k0_pay9 v190 a (ix2 p q) = b2r (grow adj r p q) := by
  rw [pay9_eq]
  exact kgrow_self_apply a adj ha v190 r h190 p q
theorem pay10_apply (p q : Fin 512) : k0_pay10 v190 a a (ix2 p q) = b2r (grow adj (grow adj r) p q) := by
  rw [pay10_eq]
  exact kgrow_self_apply a adj ha _ _ (pay9_apply a adj ha v190 r h190) p q
theorem pay11_apply (p q : Fin 512) :
    k0_pay11 v190 a a a (ix2 p q) = b2r (grow adj (grow adj (grow adj r)) p q) := by
  rw [pay11_eq]
  exact kgrow_self_apply a adj ha _ _ (pay10_apply a adj ha v190 r h190) p q
theorem pay13_apply (p q : Fin 512) :
    k0_pay13 v190 a a a (ix2 p q) = b2r (grow adj (grow adj (grow adj r)) p q) := by
  rw [pay13_eq]
  exact pay11_apply a adj ha v190 r h190 p q

/-- Rounds two to four of the distances, over the distance matrix d1 that round one left in v195. -/
theorem pay12_apply (v180 : IVec S512x512 32) (v193 : IVec S512x512 1) (c : BitVec 32) (d1 : Mat (BitVec 32))
    (h1 : ∀ p q : Fin 512, select v193 (broadcast S512x512 c) v180 (ix2 p q) = d1 p q) (p q : Fin 512) :
    k0_pay12 v180 v190 v193 c a a a (ix2 p q)
      = mark 4#32 (grow adj (grow adj r)) (grow adj (grow adj (grow adj r)))
          (mark 3#32 (grow adj r) (grow adj (grow adj r)) (mark 2#32 r (grow adj r) d1)) p q := by
  rw [pay12_eq]
  exact kmark_apply _ _ 4#32 _ (grow adj (grow adj (grow adj r)) p q) (grow adj (grow adj r) p q) _ (ix2 p q)
    (pay11_apply a adj ha v190 r h190 p q) (pay10_apply a adj ha v190 r h190 p q)
    (kmark_apply _ _ 3#32 _ (grow adj (grow adj r) p q) (grow adj r p q) _ (ix2 p q)
      (pay10_apply a adj ha v190 r h190 p q) (pay9_apply a adj ha v190 r h190 p q)
      (kmark_apply _ _ 2#32 _ (grow adj r p q) (r p q) _ (ix2 p q)
        (pay9_apply a adj ha v190 r h190 p q) (h190 p q) (h1 p q)))

end

section
variable (v229 : FVec Ideal S512x512 .f32) (v235 : FVec Ideal S512x512 .bf16) (r : Mat (BitVec 1))
  (h229 : ∀ p q : Fin 512, v229 (ix2 p q) = b2r (r p q)) (h235 : ∀ p q : Fin 512, v235 (ix2 p q) = b2r (r p q))
include h229 h235

theorem pay14_apply (p q : Fin 512) : k0_pay14 v229 v235 a (ix2 p q) = b2r (grow adj r p q) := by
  rw [pay14_eq]
  exact kgrow_apply v235 a v229 adj r h235 ha h229 p q
theorem pay15_apply (p q : Fin 512) : k0_pay15 v229 v235 a a (ix2 p q) = b2r (grow adj (grow adj r) p q) := by
  rw [pay15_eq]
  exact kgrow_self_apply a adj ha _ _ (pay14_apply a adj ha v229 v235 r h229 h235) p q
theorem pay16_apply (p q : Fin 512) :
    k0_pay16 v229 v235 a a a (ix2 p q) = b2r (grow adj (grow adj (grow adj r)) p q) := by
  rw [pay16_eq]
  exact kgrow_self_apply a adj ha _ _ (pay15_apply a adj ha v229 v235 r h229 h235) p q
theorem pay18_apply (p q : Fin 512) :
    k0_pay18 v229 v235 a a a (ix2 p q) = b2r (grow adj (grow adj (grow adj r)) p q) := by
  rw [pay18_eq]
  exact pay16_apply a adj ha v229 v235 r h229 h235 p q

/-- Rounds five to seven of the distances, over the distance matrix d that v234 stands for. -/
theorem pay17_apply (v234 : IVec S512x512 32) (d : Mat (BitVec 32))
    (h234 : ∀ p q : Fin 512, v234 (ix2 p q) = d p q) (p q : Fin 512) :
    k0_pay17 v229 v234 v235 a a a (ix2 p q)
      = mark 7#32 (grow adj (grow adj r)) (grow adj (grow adj (grow adj r)))
          (mark 6#32 (grow adj r) (grow adj (grow adj r)) (mark 5#32 r (grow adj r) d)) p q := by
  rw [pay17_eq]
  exact kmark_apply _ _ 7#32 _ (grow adj (grow adj (grow adj r)) p q) (grow adj (grow adj r) p q) _ (ix2 p q)
    (pay16_apply a adj ha v229 v235 r h229 h235 p q) (pay15_apply a adj ha v229 v235 r h229 h235 p q)
    (kmark_apply _ _ 6#32 _ (grow adj (grow adj r) p q) (grow adj r p q) _ (ix2 p q)
      (pay15_apply a adj ha v229 v235 r h229 h235 p q) (pay14_apply a adj ha v229 v235 r h229 h235 p q)
      (kmark_apply _ _ 5#32 _ (grow adj r p q) (r p q) _ (ix2 p q)
        (pay14_apply a adj ha v229 v235 r h229 h235 p q) (h229 p q) (h234 p q)))

end

section
variable (v268 : FVec Ideal S512x512 .f32) (v274 : FVec Ideal S512x512 .bf16) (r : Mat (BitVec 1))
  (h268 : ∀ p q : Fin 512, v268 (ix2 p q) = b2r (r p q)) (h274 : ∀ p q : Fin 512, v274 (ix2 p q) = b2r (r p q))
include h268 h274

theorem r8_apply (p q : Fin 512) : r8 v268 v274 a (ix2 p q) = b2r (grow adj r p q) :=
  kgrow_apply v274 a v268 adj r h274 ha h268 p q
theorem r9_apply (p q : Fin 512) : r9 v268 v274 a a (ix2 p q) = b2r (grow adj (grow adj r) p q) :=
  kgrow_self_apply a adj ha _ _ (r8_apply a adj ha v268 v274 r h268 h274) p q
theorem r10_apply (p q : Fin 512) :
    r10 v268 v274 a a a (ix2 p q) = b2r (grow adj (grow adj (grow adj r)) p q) :=
  kgrow_self_apply a adj ha _ _ (r9_apply a adj ha v268 v274 r h268 h274) p q

/-- Rounds eight to ten of the distances over the distance matrix d that v273 stands for, then 11 wherever the
    pair mask (standing for the bit matrix bm) is not set. -/
theorem pay19_apply (v169 : FVec Ideal S512x512 .f32) (bm : Mat (BitVec 1))
    (h169 : ∀ p q : Fin 512, v169 (ix2 p q) = b2r (bm p q))
    (v273 : IVec S512x512 32) (d : Mat (BitVec 32)) (h273 : ∀ p q : Fin 512, v273 (ix2 p q) = d p q) (p q : Fin 512) :
    k0_pay19 v169 v268 v273 v274 a a a (ix2 p q)
      = if bm p q = 1#1 then
          mark 10#32 (grow adj (grow adj r)) (grow adj (grow adj (grow adj r)))
            (mark 9#32 (grow adj r) (grow adj (grow adj r)) (mark 8#32 r (grow adj r) d)) p q
        else 11#32 := by
  rw [pay19_eq]
  have hm : kmark (r10 v268 v274 a a a) (r9 v268 v274 a a) 10#32
      (kmark (r9 v268 v274 a a) (r8 v268 v274 a) 9#32 (kmark (r8 v268 v274 a) v268 8#32 v273)) (ix2 p q)
      = mark 10#32 (grow adj (grow adj r)) (grow adj (grow adj (grow adj r)))
          (mark 9#32 (grow adj r) (grow adj (grow adj r)) (mark 8#32 r (grow adj r) d)) p q :=
    kmark_apply _ _ 10#32 _ (grow adj (grow adj (grow adj r)) p q) (grow adj (grow adj r) p q) _ (ix2 p q)
      (r10_apply a adj ha v268 v274 r h268 h274 p q) (r9_apply a adj ha v268 v274 r h268 h274 p q)
      (kmark_apply _ _ 9#32 _ (grow adj (grow adj r) p q) (grow adj r p q) _ (ix2 p q)
        (r9_apply a adj ha v268 v274 r h268 h274 p q) (r8_apply a adj ha v268 v274 r h268 h274 p q)
        (kmark_apply _ _ 8#32 _ (grow adj r p q) (r p q) _ (ix2 p q)
          (r8_apply a adj ha v268 v274 r h268 h274 p q) (h268 p q) (h273 p q)))
  show Scalar.select (Ideal.cmp .ogt (v169 (ix2 p q)) half) _ 11#32 = _
  rw [hm, h169, cmp_b2r_half]
  rfl

end

end

end Cert.KernelIdeal.PayValue

end
-- ==== Proof.KDist.lean ====
/-
  The distance matrix the body stores at a batch's first grid point is the specification's.
  The stored edge matrix stands for Spec.edge of the adjacency block and the mask. The reachability matrices after
  rounds 1, 4 and 7 and the distance matrices after rounds 4 and 7 are the values the body carries from one part to
  the next; each stands for the specification's matrix of the same round, by the payload lemmas one part at a time.
  The last part runs rounds 8 to 10 and writes 11 wherever an end is masked: Spec.dist.
-/
import proofs.«127861_j44693429682446_1_alg».proof.Proof.KDistAdj
import proofs.«127861_j44693429682446_1_alg».proof.Proof.KDistRounds

noncomputable section

namespace Cert.KernelIdeal.PayValue

open Cert.KernelIdeal Cert.KernelIdeal.Gen Cert.KernelIdeal.Pay Idealize.ShloMosaic Idealize.ShloMosaic.ValueIdx Cert.Spec

/-- The ten rounds over an edge matrix a standing for adj, then the pair mask v169 standing for bm. -/
theorem rounds_apply (a : FVec Ideal S512x512 .bf16) (adj : Mat (BitVec 1))
    (ha : ∀ j q : Fin 512, a (ix2 j q) = b2r (adj j q))
    (v169 : FVec Ideal S512x512 .f32) (bm : Mat (BitVec 1)) (h169 : ∀ p q : Fin 512, v169 (ix2 p q) = b2r (bm p q))
    (p q : Fin 512) :
    k0_pay20 (k0_pay19 v169
        (k0_pay16 (k0_pay11 (k0_pay7 (F := Ideal) a) a a a) (k0_pay13 (k0_pay7 (F := Ideal) a) a a a) a a a)
        (k0_pay17 (k0_pay11 (k0_pay7 (F := Ideal) a) a a a) (k0_pay12 k0_pay5 (k0_pay7 (F := Ideal) a) (k0_pay8 (F := Ideal) a) 1#32 a a a)
          (k0_pay13 (k0_pay7 (F := Ideal) a) a a a) a a a)
        (k0_pay18 (k0_pay11 (k0_pay7 (F := Ideal) a) a a a) (k0_pay13 (k0_pay7 (F := Ideal) a) a a a) a a a) a a a) (ix2 p q)
      = if bm p q = 1#1 then distAt adj 10 p q else 11#32 := by
  have hR1 : ∀ p q : Fin 512, k0_pay7 (F := Ideal) a (ix2 p q) = b2r (reachAt adj 1 p q) := pay7_apply a adj ha
  have hR4 : ∀ p q : Fin 512, k0_pay11 (k0_pay7 (F := Ideal) a) a a a (ix2 p q) = b2r (reachAt adj 4 p q) :=
    pay11_apply a adj ha (k0_pay7 (F := Ideal) a) (reachAt adj 1) hR1
  have hT4 : ∀ p q : Fin 512, k0_pay13 (k0_pay7 (F := Ideal) a) a a a (ix2 p q) = b2r (reachAt adj 4 p q) :=
    pay13_apply a adj ha (k0_pay7 (F := Ideal) a) (reachAt adj 1) hR1
  have hD1 : ∀ p q : Fin 512, select (k0_pay8 (F := Ideal) a) (broadcast S512x512 1#32) k0_pay5 (ix2 p q) = distAt adj 1 p q :=
    fun p q => select_bit_apply (k0_pay8 (F := Ideal) a) 1#32 k0_pay5 (reachAt adj 1 p q &&& ~~~ eye p q) (dist0 p q) (ix2 p q)
      (pay8_apply a adj ha p q) (pay5_apply p q)
  have hD4 : ∀ p q : Fin 512,
      k0_pay12 k0_pay5 (k0_pay7 (F := Ideal) a) (k0_pay8 (F := Ideal) a) 1#32 a a a (ix2 p q) = distAt adj 4 p q :=
    pay12_apply a adj ha (k0_pay7 (F := Ideal) a) (reachAt adj 1) hR1 k0_pay5 (k0_pay8 (F := Ideal) a) 1#32 (distAt adj 1) hD1
  have hR7 : ∀ p q : Fin 512,
      k0_pay16 (k0_pay11 (k0_pay7 (F := Ideal) a) a a a) (k0_pay13 (k0_pay7 (F := Ideal) a) a a a) a a a (ix2 p q) = b2r (reachAt adj 7 p q) :=
    pay16_apply a adj ha _ _ (reachAt adj 4) hR4 hT4
  have hT7 : ∀ p q : Fin 512,
      k0_pay18 (k0_pay11 (k0_pay7 (F := Ideal) a) a a a) (k0_pay13 (k0_pay7 (F := Ideal) a) a a a) a a a (ix2 p q) = b2r (reachAt adj 7 p q) :=
    pay18_apply a adj ha _ _ (reachAt adj 4) hR4 hT4
  have hD7 : ∀ p q : Fin 512,
      k0_pay17 (k0_pay11 (k0_pay7 (F := Ideal) a) a a a) (k0_pay12 k0_pay5 (k0_pay7 (F := Ideal) a) (k0_pay8 (F := Ideal) a) 1#32 a a a)
        (k0_pay13 (k0_pay7 (F := Ideal) a) a a a) a a a (ix2 p q) = distAt adj 7 p q :=
    pay17_apply a adj ha _ _ (reachAt adj 4) hR4 hT4 _ (distAt adj 4) hD4
  rw [pay20_eq]
  exact pay19_apply a adj ha _ _ (reachAt adj 7) hR7 hT7 v169 bm h169 _ (distAt adj 7) hD7 p q

/-- What the body stores in the distance scratch at a batch's first grid point, entry by entry. -/
theorem distPay_apply (x0 : Vec Ideal S1x512x512 .f32) (x1 : Vec Ideal S1x1x512 .f32) (x2 : Vec Ideal S1x512x1 .f32)
    (Mk : Fin 512 → BitVec 1)
    (h1 : ∀ q : Fin 512, x1 (ix3 0 0 q) = Cert.Spec.b2r (Mk q)) (h2 : ∀ p : Fin 512, x2 (ix3 0 p 0) = Cert.Spec.b2r (Mk p))
    (p q : Fin 512) :
    Cert.KernelIdeal.Pay.distPay x0 x1 x2 (ix2 p q) = Cert.Spec.dist (fun p q => x0 (ix3 0 p q)) Mk p q :=
  rounds_apply (adjPay x0 x1 x2) (edge (fun p q => x0 (ix3 0 p q)) Mk) (adjPay_apply x0 x1 x2 Mk h1 h2)
    (k0_pay2 x2 x1) (both Mk) (pay2_apply x2 x1 Mk h1 h2) p q

end Cert.KernelIdeal.PayValue

end
-- ==== Proof.KOutWord.lean ====
/-
  The selection as a sum. For every category c = 0 … 11 the body multiplies the category's table entry by the
  indicator "the distance word is c" — the comparison's bit, widened to a word and read as a signed integer, so the
  extended real 1 or 0 — and adds the twelve products to zero, one after the other. A distance word in 0 … 11
  equals exactly one category, so eleven products are 0 · x and one is 1 · x. On the extended reals 0 · x = 0 for
  every x, the infinities included, and 0 + x = x, so the sum is the entry of the distance's own category: the
  table row the specification selects. No entry needs to be finite.
-/
import proofs.«127861_j44693429682446_1_alg».proof.Proof.Spec

noncomputable section

namespace Cert.KernelIdeal.OutValue

open Idealize.ShloMosaic

/-- The indicator of "the word d is the category c" as the body forms it: the comparison's bit, widened to 32 bits
    and converted as a signed integer. -/
def ind (d c : BitVec 32) : EReal := ((((IntOp.cmpi .eq d c).setWidth 32).toInt : ℝ) : EReal)

/-- It is 1 where the words agree and 0 elsewhere. -/
theorem ind_eq (d c : BitVec 32) : ind d c = if d = c then 1 else 0 := by
  by_cases h : d = c
  · subst h; simp [ind, IntOp.cmpi]
  · have hb : (d == c) = false := by simp [h]
    simp [ind, IntOp.cmpi, hb, h]

/-- The twelve products added to zero in the order the body adds them. -/
def catSum (d : BitVec 32) (t : Fin 12 → EReal) : EReal :=
  0 + ind d 0#32 * t 0 + ind d 1#32 * t 1 + ind d 2#32 * t 2 + ind d 3#32 * t 3 + ind d 4#32 * t 4
    + ind d 5#32 * t 5 + ind d 6#32 * t 6 + ind d 7#32 * t 7 + ind d 8#32 * t 8 + ind d 9#32 * t 9
    + ind d 10#32 * t 10 + ind d 11#32 * t 11

/-- The word of a number below twelve selects the row of that number. -/
theorem sel_ofNat : ∀ n : Fin 12, Cert.Spec.sel (BitVec.ofNat 32 n.val) = n := by decide

/-- For a distance word in 0 … 11 the sum is the entry of the selected row. -/
theorem catSum_eq (d : BitVec 32) (hd : d.toNat ≤ 11) (t : Fin 12 → EReal) :
    catSum d t = t (Cert.Spec.sel d) := by
  obtain ⟨n, hn⟩ : ∃ n : Fin 12, d = BitVec.ofNat 32 n.val :=
    ⟨⟨d.toNat, by omega⟩, BitVec.eq_of_toNat_eq (by
      rw [BitVec.toNat_ofNat]; show d.toNat = d.toNat % 2 ^ 32; omega)⟩
  subst hn
  rw [sel_ofNat]
  unfold catSum
  fin_cases n <;> simp [ind, IntOp.cmpi]

end Cert.KernelIdeal.OutValue

end
-- ==== Proof.KOutTerm.lean ====
/-
  One category's product, and the stored payloads as sums of such products.
  For a category c the body compares the 32 × 512 block of distance words with c, turns the bit into the number
  0 or 1, lays it out as a 32 × 512 × 1 stack and repeats it along the last axis; it lays the category's table row
  (eight entries) out as 1 × 1 × 8 and repeats it over all pairs; the product of the two 32 × 512 × 8 arrays is the
  category's term. At the pair (r, q) and the column e the term is the indicator of "the distance of (r, q) is c"
  times entry e of the row.
-/
import proofs.«127861_j44693429682446_1_alg».proof.Proof.Gen.KernelIdeal.Skeleton
import proofs.«127861_j44693429682446_1_alg».proof.Proof.KOutLayout
import proofs.«127861_j44693429682446_1_alg».proof.Proof.KOutWord

noncomputable section

namespace Cert.KernelIdeal.OutValue

open Cert.KernelIdeal Cert.KernelIdeal.Gen Idealize.ShloMosaic Idealize.ShloMosaic.ValueIdx

section AnyInstance
variable {F : FTy → Type} [FloatOps F]

/-- The term of category `c` with table row `ec`, over the block `v6` of distance words. -/
def term (v6 : Vec F S32x512 .i32) (c : BitVec 32) (ec : Vec F S1x8 .f32) : FVec F S32x512x8 .f32 :=
  mulf
    (broadcastTo S32x512x8
      (shapeCast S32x512x1 (sitofp .f32 (extui 32 (cmpi .eq v6 (broadcast S32x512 c)) natLt_1_32))
        shapeCasts_S32x512_S32x512x1)
      broadcasts_S32x512x1_S32x512x8)
    (broadcastTo S32x512x8
      (shapeCast S1x1x8 (shapeCast S8 ec shapeCasts_S1x8_S8) shapeCasts_S8_S1x1x8)
      broadcasts_S1x1x8_S32x512x8)

/-- The array of zeros the sum starts from. -/
def zeros : FVec F S32x512x8 .f32 := broadcast S32x512x8 (Scalar.ofBits .f32 0x00000000#32)

/-! The stored payloads, each as the terms it adds. -/

theorem pay21_eq (v6 : Vec F S32x512 .i32) (e0 e1 : Vec F S1x8 .f32) :
    k0_pay21 v6 e0 e1 = addf (addf zeros (term v6 0#32 e0)) (term v6 1#32 e1) := rfl

theorem pay22_eq (v6 : Vec F S32x512 .i32) (e2 : Vec F S1x8 .f32) : k0_pay22 v6 e2 = term v6 2#32 e2 := rfl

theorem pay23_eq (v6 : Vec F S32x512 .i32) (a b : FVec F S32x512x8 .f32) (e3 e4 e5 : Vec F S1x8 .f32) :
    k0_pay23 v6 a b e3 e4 e5
      = addf (addf (addf (addf a b) (term v6 3#32 e3)) (term v6 4#32 e4)) (term v6 5#32 e5) := rfl

theorem pay24_eq (v6 : Vec F S32x512 .i32) (e6 : Vec F S1x8 .f32) : k0_pay24 v6 e6 = term v6 6#32 e6 := rfl

theorem pay25_eq (v6 : Vec F S32x512 .i32) (a b : FVec F S32x512x8 .f32) (e7 e8 e9 : Vec F S1x8 .f32) :
    k0_pay25 v6 a b e7 e8 e9
      = addf (addf (addf (addf a b) (term v6 7#32 e7)) (term v6 8#32 e8)) (term v6 9#32 e9) := rfl

theorem pay26_eq (v6 : Vec F S32x512 .i32) (e10 : Vec F S1x8 .f32) : k0_pay26 v6 e10 = term v6 10#32 e10 := rfl

theorem pay1_eq (v6 : Vec F S32x512 .i32) (a b : FVec F S32x512x8 .f32) (e11 : Vec F S1x8 .f32) :
    k0_pay1 v6 a b e11
      = shapeCast S1x32x512x8 (addf (addf a b) (term v6 11#32 e11)) shapeCasts_S32x512x8_S1x32x512x8 := rfl

end AnyInstance

/-- The term at a pair and a column, on the extended reals: the indicator times the row's entry. -/
theorem term_apply (v6 : Vec Ideal S32x512 .i32) (c : BitVec 32) (ec : Vec Ideal S1x8 .f32)
    (r : Fin 32) (q : Fin 512) (e : Fin 8) :
    term v6 c ec (ix3 r q e) = ind (v6 (ix2 r q)) c * ec (ix2 (0 : Fin 1) e) := by
  have hA : broadcastTo S32x512x8
      (shapeCast S32x512x1 (sitofp (F := Ideal) .f32 (extui 32 (cmpi .eq v6 (broadcast S32x512 c)) natLt_1_32))
        shapeCasts_S32x512_S32x512x1)
      broadcasts_S32x512x1_S32x512x8 (ix3 r q e) = ind (v6 (ix2 r q)) c :=
    (broadcastTo_ab1_abc_apply _ _ r q e).trans ((shapeCast_ab_ab1_apply _ _ r q 0).trans rfl)
  have hB : broadcastTo S32x512x8
      (shapeCast S1x1x8 (shapeCast S8 ec shapeCasts_S1x8_S8) shapeCasts_S8_S1x1x8)
      broadcasts_S1x1x8_S32x512x8 (ix3 r q e) = ec (ix2 (0 : Fin 1) e) :=
    (broadcastTo_11c_abc_apply _ _ r q e).trans
      ((shapeCast_a_11a_apply _ _ 0 0 e).trans (shapeCast_1a_a_apply _ _ e))
  exact congrArg₂ (· * ·) hA hB

/-- The zeros at an index. -/
theorem zeros_apply (i : S32x512x8.Idx) : (zeros (F := Ideal)) i = 0 := Cert.Spec.zeroF_eq

end Cert.KernelIdeal.OutValue

end
-- ==== Proof.KOut.lean ====
/-
  The block the body stores in the result window, entry by entry. The body starts from zeros and adds the twelve
  categories' terms one after the other; the stored block is that sum with a leading unit axis. At the pair (r, q)
  and the column e every term is an indicator times a table entry, so the sum is the selection sum, and for a
  distance word in 0 … 11 it is entry e of the table row the distance selects.
-/
import proofs.«127861_j44693429682446_1_alg».proof.Proof.KPay
import proofs.«127861_j44693429682446_1_alg».proof.Proof.KOutTerm

noncomputable section

namespace Cert.KernelIdeal.OutValue

open Cert.KernelIdeal Cert.KernelIdeal.Gen Idealize.ShloMosaic Idealize.ShloMosaic.ValueIdx

section AnyInstance
variable {F : FTy → Type} [FloatOps F]

/-- Zeros plus the twelve terms, added in the body's order. -/
def total (v6 : Vec F S32x512 .i32) (e0 e1 e2 e3 e4 e5 e6 e7 e8 e9 e10 e11 : Vec F S1x8 .f32) : FVec F S32x512x8 .f32 :=
  addf (addf (addf (addf (addf (addf (addf (addf (addf (addf (addf (addf (zeros) (term v6 0#32 e0)) (term v6 1#32 e1)) (term v6 2#32 e2)) (term v6 3#32 e3)) (term v6 4#32 e4)) (term v6 5#32 e5)) (term v6 6#32 e6)) (term v6 7#32 e7)) (term v6 8#32 e8)) (term v6 9#32 e9)) (term v6 10#32 e10)) (term v6 11#32 e11)

/-- The stored block is the total with a leading unit axis. -/
theorem outPay_eq (v6 : Vec F S32x512 .i32) (e0 e1 e2 e3 e4 e5 e6 e7 e8 e9 e10 e11 : Vec F S1x8 .f32) :
    Cert.KernelIdeal.Pay.outPay v6 e0 e1 e2 e3 e4 e5 e6 e7 e8 e9 e10 e11
      = shapeCast S1x32x512x8 (total v6 e0 e1 e2 e3 e4 e5 e6 e7 e8 e9 e10 e11) shapeCasts_S32x512x8_S1x32x512x8 := rfl

end AnyInstance

/-- The total at a pair and a column is the selection sum over the rows' entries. -/
theorem total_apply (v6 : Vec Ideal S32x512 .i32) (e0 e1 e2 e3 e4 e5 e6 e7 e8 e9 e10 e11 : Vec Ideal S1x8 .f32)
    (tab : Fin 12 → Fin 8 → EReal)
    (h0 : ∀ e : Fin 8, e0 (ix2 (0 : Fin 1) e) = tab 0 e) (h1 : ∀ e : Fin 8, e1 (ix2 (0 : Fin 1) e) = tab 1 e) (h2 : ∀ e : Fin 8, e2 (ix2 (0 : Fin 1) e) = tab 2 e) (h3 : ∀ e : Fin 8, e3 (ix2 (0 : Fin 1) e) = tab 3 e)
    (h4 : ∀ e : Fin 8, e4 (ix2 (0 : Fin 1) e) = tab 4 e) (h5 : ∀ e : Fin 8, e5 (ix2 (0 : Fin 1) e) = tab 5 e) (h6 : ∀ e : Fin 8, e6 (ix2 (0 : Fin 1) e) = tab 6 e) (h7 : ∀ e : Fin 8, e7 (ix2 (0 : Fin 1) e) = tab 7 e)
    (h8 : ∀ e : Fin 8, e8 (ix2 (0 : Fin 1) e) = tab 8 e) (h9 : ∀ e : Fin 8, e9 (ix2 (0 : Fin 1) e) = tab 9 e) (h10 : ∀ e : Fin 8, e10 (ix2 (0 : Fin 1) e) = tab 10 e) (h11 : ∀ e : Fin 8, e11 (ix2 (0 : Fin 1) e) = tab 11 e)
    (r : Fin 32) (q : Fin 512) (e : Fin 8) :
    total v6 e0 e1 e2 e3 e4 e5 e6 e7 e8 e9 e10 e11 (ix3 r q e) = catSum (v6 (ix2 r q)) (fun c => tab c e) := by
  unfold total catSum
  simp only [addf_apply, zeros_apply, term_apply, h0 e, h1 e, h2 e, h3 e, h4 e, h5 e, h6 e, h7 e, h8 e, h9 e, h10 e, h11 e]

/-- THE RESULT PAYLOAD AT AN INDEX: where the distance word of the pair (r, q) is in 0 … 11, entry (0, r, q, e) of the
    stored block is entry e of the table row that word selects. -/
theorem outPay_apply (v6 : Vec Ideal S32x512 .i32) (e0 e1 e2 e3 e4 e5 e6 e7 e8 e9 e10 e11 : Vec Ideal S1x8 .f32)
    (tab : Fin 12 → Fin 8 → EReal)
    (h0 : ∀ e : Fin 8, e0 (ix2 (0 : Fin 1) e) = tab 0 e) (h1 : ∀ e : Fin 8, e1 (ix2 (0 : Fin 1) e) = tab 1 e) (h2 : ∀ e : Fin 8, e2 (ix2 (0 : Fin 1) e) = tab 2 e) (h3 : ∀ e : Fin 8, e3 (ix2 (0 : Fin 1) e) = tab 3 e)
    (h4 : ∀ e : Fin 8, e4 (ix2 (0 : Fin 1) e) = tab 4 e) (h5 : ∀ e : Fin 8, e5 (ix2 (0 : Fin 1) e) = tab 5 e) (h6 : ∀ e : Fin 8, e6 (ix2 (0 : Fin 1) e) = tab 6 e) (h7 : ∀ e : Fin 8, e7 (ix2 (0 : Fin 1) e) = tab 7 e)
    (h8 : ∀ e : Fin 8, e8 (ix2 (0 : Fin 1) e) = tab 8 e) (h9 : ∀ e : Fin 8, e9 (ix2 (0 : Fin 1) e) = tab 9 e) (h10 : ∀ e : Fin 8, e10 (ix2 (0 : Fin 1) e) = tab 10 e) (h11 : ∀ e : Fin 8, e11 (ix2 (0 : Fin 1) e) = tab 11 e)
    (r : Fin 32) (q : Fin 512) (e : Fin 8) (hd : (v6 (ix2 r q)).toNat ≤ 11) :
    Cert.KernelIdeal.Pay.outPay v6 e0 e1 e2 e3 e4 e5 e6 e7 e8 e9 e10 e11 (ix4 (0 : Fin 1) r q e)
      = tab (Cert.Spec.sel (v6 (ix2 r q))) e := by
  rw [outPay_eq]
  refine (shapeCast_abc_1abc_apply _ _ 0 r q e).trans ?_
  rw [total_apply v6 e0 e1 e2 e3 e4 e5 e6 e7 e8 e9 e10 e11 tab h0 h1 h2 h3 h4 h5 h6 h7 h8 h9 h10 h11 r q e]
  exact catSum_eq (v6 (ix2 r q)) hd (fun c => tab c e)

end Cert.KernelIdeal.OutValue

end
-- ==== Proof.KValue.lean ====
/-
  The kernel's result array. Point t writes back block (t / 16, t mod 16) of the result array; its entry (0, r, q, e)
  is entry e of the table row selected by the distance of the pair (32·(t mod 16) + r, q) in batch entry t / 16 —
  the distance payload of the entry's blocks is the specification's distance matrix, and the result payload selects
  the table row. The 512 blocks tile the array, so after the run the array is the specification's result.
-/
import proofs.«127861_j44693429682446_1_alg».proof.Proof.Gen.KernelIdeal.Value
import proofs.«127861_j44693429682446_1_alg».proof.Proof.SpecArr
import proofs.«127861_j44693429682446_1_alg».proof.Proof.KPoints
import proofs.«127861_j44693429682446_1_alg».proof.Proof.KBlocks
import proofs.«127861_j44693429682446_1_alg».proof.Proof.KCover
import proofs.«127861_j44693429682446_1_alg».proof.Proof.KRows
import proofs.«127861_j44693429682446_1_alg».proof.Proof.KDist
import proofs.«127861_j44693429682446_1_alg».proof.Proof.KOut
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.KernelIdeal.Found Cert.KernelIdeal.Points

variable (m : (ℓ : Loc nD τ sig) → Buf (Elt Ideal) ℓ) (ρ : Dev nD → PrngReg)

/-- The specification's result array of the three argument arrays as launched. -/
abbrev G (c : Dev nD) : Buf (Elt Ideal) ((c : Thread nD τ).loc main_v4) :=
  Cert.Spec.outArr (m ((c : Thread nD τ).loc main_arg0)) (m ((c : Thread nD τ).loc main_arg1)) (m ((c : Thread nD τ).loc main_arg2))

/-- The distance payload of the blocks at a point of batch entry b is the specification's distance matrix of that
    entry: the adjacency block is the entry's slab, the two mask blocks are the entry's mask as 0/1 numbers. -/
theorem dmat_apply (c : Dev nD) (t0 : Fin cfg0.N) (b : Fin 32) (hb : b.val = t0.val / 16) (p q : Fin 512) :
    Dmat m c t0 (ix2 p q)
      = Cert.Spec.dist (Cert.Spec.adjOf (m ((c : Thread nD τ).loc main_arg0)) b) (Cert.Spec.maskOf (m ((c : Thread nD τ).loc main_arg1)) b) p q := by
  unfold Dmat
  refine (PayValue.distPay_apply _ _ _ (Cert.Spec.maskOf (m ((c : Thread nD τ).loc main_arg1)) b)
    (fun q => Blocks.iblk1_apply m c t0 b hb q) (fun p => Blocks.iblk2_apply m c t0 b hb p) p q).trans ?_
  have hA : (fun p q : Fin 512 => (iblk m c 0 t0 : Vec Ideal S1x512x512 .f32) (ix3 (0 : Fin 1) p q))
      = Cert.Spec.adjOf (m ((c : Thread nD τ).loc main_arg0)) b :=
    funext fun p => funext fun q => Blocks.iblk0_apply m c t0 b hb p q
  rw [hA]

/-- What point t writes back is block t of the specification's result array. -/
theorem flushed_eq (c : Dev nD) (t : Fin cfg0.N) :
    (dats m 0 c).flushed 4 t = ((cfg0.win 4).blk t).view.read (Elt Ideal) (G m c) := by
  have hN : cfg0.N = 512 := N_0
  have htN : t.val < 512 := lt_of_lt_of_eq t.isLt hN
  obtain ⟨f0, f1, f2, f3⟩ := Cover.idx_facts4 t
  obtain ⟨o0, o1⟩ := Cover.off_facts t
  rw [Value.flushed4, Points.out_eq]
  funext y
  have hy0 : (y 0).val < 1 := (y 0).isLt
  have hy1 : (y 1).val < 32 := (y 1).isLt
  have hy2 : (y 2).val < 512 := (y 2).isLt
  have hy3 : (y 3).val < 8 := (y 3).isLt
  obtain ⟨b, hb⟩ : ∃ b : Fin 32, b.val = t.val / 16 := ⟨⟨t.val / 16, by omega⟩, rfl⟩
  obtain ⟨r, hr⟩ : ∃ r : Fin 32, r.val = (y 1).val := ⟨⟨(y 1).val, hy1⟩, rfl⟩
  obtain ⟨q, hq⟩ : ∃ q : Fin 512, q.val = (y 2).val := ⟨⟨(y 2).val, hy2⟩, rfl⟩
  obtain ⟨e, he⟩ : ∃ e : Fin 8, e.val = (y 3).val := ⟨⟨(y 3).val, hy3⟩, rfl⟩
  obtain ⟨r', hr'⟩ : ∃ r' : Fin 512, r'.val = 32 * (t.val % 16) + r.val := ⟨⟨32 * (t.val % 16) + r.val, by omega⟩, rfl⟩
  have ey : (win0_4.xinj (grid0.coords t) y : S1x32x512x8.Idx) = ix4 (0 : Fin 1) r q e := by
    funext a; apply Fin.ext
    match a with
    | ⟨0, _⟩ => show (y 0).val = 0; omega
    | ⟨1, _⟩ => show (y 1).val = r.val; omega
    | ⟨2, _⟩ => show (y 2).val = q.val; omega
    | ⟨3, _⟩ => show (y 3).val = e.val; omega
  have ez : (((cfg0.win 4).blk t).view.emb y : S32x512x512x8.Idx) = ix4 b r' q e := by
    funext a; apply Fin.ext
    match a with
    | ⟨0, _⟩ => show win0_4.index t (0 : Fin 4) * 1 + 1 * (y 0).val = b.val; omega
    | ⟨1, _⟩ => show win0_4.index t (1 : Fin 4) * 32 + 1 * (y 1).val = r'.val; omega
    | ⟨2, _⟩ => show win0_4.index t (2 : Fin 4) * 512 + 1 * (y 2).val = q.val; omega
    | ⟨3, _⟩ => show win0_4.index t (3 : Fin 4) * 8 + 1 * (y 3).val = e.val; omega
  show outOf (grid0.coords t) (Dmat m c (first t.val t.isLt)) (iblk m c 3 t) (win0_4.xinj (grid0.coords t) y)
    = G m c (((cfg0.win 4).blk t).view.emb y)
  rw [ey, ez]
  have hb0 : b.val = (first t.val t.isLt).val / 16 := by
    show b.val = 16 * (t.val / 16) / 16; omega
  have hv6 : rowsOf (F := Ideal) (grid0.coords t) (Dmat m c (first t.val t.isLt)) (ix2 r q)
      = Cert.Spec.dist (Cert.Spec.adjOf (m ((c : Thread nD τ).loc main_arg0)) b) (Cert.Spec.maskOf (m ((c : Thread nD τ).loc main_arg1)) b) r' q :=
    (Rows.rowsOf_apply (F := Ideal) (grid0.coords t) (Dmat m c (first t.val t.isLt)) (32 * (t.val % 16)) o0 o1 r q r' hr').trans
      (dmat_apply m c (first t.val t.isLt) b hb0 r' q)
  have hd : (rowsOf (F := Ideal) (grid0.coords t) (Dmat m c (first t.val t.isLt)) (ix2 r q)).toNat ≤ 11 := by
    rw [hv6]; exact Cert.Spec.dist_le _ _ _ _
  unfold outOf
  refine (OutValue.outPay_apply (rowsOf (F := Ideal) (grid0.coords t) (Dmat m c (first t.val t.isLt)))
    (tabRow0 (iblk m c 3 t)) (tabRow1 (iblk m c 3 t)) (tabRow2 (iblk m c 3 t)) (tabRow3 (iblk m c 3 t)) (tabRow4 (iblk m c 3 t)) (tabRow5 (iblk m c 3 t)) (tabRow6 (iblk m c 3 t)) (tabRow7 (iblk m c 3 t)) (tabRow8 (iblk m c 3 t)) (tabRow9 (iblk m c 3 t)) (tabRow10 (iblk m c 3 t)) (tabRow11 (iblk m c 3 t))
    (Cert.Spec.tabOf (m ((c : Thread nD τ).loc main_arg2)))
    (fun e => (Rows.tabRow0_apply (iblk m c 3 t) e).trans (Blocks.iblk3_apply m c t (0 : Fin 12) e))
    (fun e => (Rows.tabRow1_apply (iblk m c 3 t) e).trans (Blocks.iblk3_apply m c t (1 : Fin 12) e))
    (fun e => (Rows.tabRow2_apply (iblk m c 3 t) e).trans (Blocks.iblk3_apply m c t (2 : Fin 12) e))
    (fun e => (Rows.tabRow3_apply (iblk m c 3 t) e).trans (Blocks.iblk3_apply m c t (3 : Fin 12) e))
    (fun e => (Rows.tabRow4_apply (iblk m c 3 t) e).trans (Blocks.iblk3_apply m c t (4 : Fin 12) e))
    (fun e => (Rows.tabRow5_apply (iblk m c 3 t) e).trans (Blocks.iblk3_apply m c t (5 : Fin 12) e))
    (fun e => (Rows.tabRow6_apply (iblk m c 3 t) e).trans (Blocks.iblk3_apply m c t (6 : Fin 12) e))
    (fun e => (Rows.tabRow7_apply (iblk m c 3 t) e).trans (Blocks.iblk3_apply m c t (7 : Fin 12) e))
    (fun e => (Rows.tabRow8_apply (iblk m c 3 t) e).trans (Blocks.iblk3_apply m c t (8 : Fin 12) e))
    (fun e => (Rows.tabRow9_apply (iblk m c 3 t) e).trans (Blocks.iblk3_apply m c t (9 : Fin 12) e))
    (fun e => (Rows.tabRow10_apply (iblk m c 3 t) e).trans (Blocks.iblk3_apply m c t (10 : Fin 12) e))
    (fun e => (Rows.tabRow11_apply (iblk m c 3 t) e).trans (Blocks.iblk3_apply m c t (11 : Fin 12) e))
    r q e hd).trans ?_
  rw [hv6]
  rfl

/-- So the result array ends at the specification's result: the 512 blocks tile it. -/
theorem final (c : Dev nD) : (dats m 0 c).arrAt 4 cfg0.N = G m c :=
  (dats m 0 c).arrAt_eq_of_cover 4 (G m c) (fun t _ => flushed_eq m c t) Cover.cover4

/-- The run, read: the result array at the specification's result of the arguments, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Final

end
-- ==== Proof.RefRunA.lean ====
/- The reference program's run, part A: what the buffers hold after each of these stretches of consecutive operations — the first 26 operations, round 1, round 2, round 3 —, from any contents before it: each operation's value read off in turn, and the result named by the stages of the read-at-an-index module (a stretch's lemma assumes the stages it reads and gives the stages it writes). -/
import proofs.«127861_j44693429682446_1_alg».proof.Proof.Gen.ReferenceIdeal
import Idealize.ShloMosaic.Lib.StableHlo.Run
import proofs.«127861_j44693429682446_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The first 26 operations: the adjacency (thresholded, symmetrized, masked, as 0/1 floats), the mask of pairs of unmasked nodes, the identity as the starting reachability, and the starting distances (0 on the diagonal, 11 elsewhere). -/
def chunkP : List (HloOp τ sig (Elt F)) :=
  [ nullary main_cst (constant S_ .f32 0x3F000000#32),
    unary main_cst main_v0 (broadcastInDim S32x512x512 ![] bcast_S_S32x512x512 : (⟨S_, .f32⟩ : BufTy).Contents (Elt F) → (⟨S32x512x512, .f32⟩ : BufTy).Contents (Elt F)),
    binary main_arg0 main_v0 main_v1 (cmpf .ogt : (⟨S32x512x512, .f32⟩ : BufTy).Contents (Elt F) → (⟨S32x512x512, .f32⟩ : BufTy).Contents (Elt F) → (⟨S32x512x512, .i1⟩ : BufTy).Contents (Elt F)),
    unary main_v1 main_v2 ((transpose S32x512x512 [0, 2, 1] · transposes_S32x512x512_S32x512x512_0_2_1) : (⟨S32x512x512, .i1⟩ : BufTy).Contents (Elt F) → (⟨S32x512x512, .i1⟩ : BufTy).Contents (Elt F)),
    binary main_v1 main_v2 main_v3 (ori : (⟨S32x512x512, .i1⟩ : BufTy).Contents (Elt F) → (⟨S32x512x512, .i1⟩ : BufTy).Contents (Elt F) → (⟨S32x512x512, .i1⟩ : BufTy).Contents (Elt F)),
    unary main_arg1 main_v4 (broadcastInDim S32x512x1 ![0, 1] bcast_S32x512_S32x512x1_0_1 : (⟨S32x512, .i1⟩ : BufTy).Contents (Elt F) → (⟨S32x512x1, .i1⟩ : BufTy).Contents (Elt F)),
    unary main_arg1 main_v5 (broadcastInDim S32x1x512 ![0, 2] bcast_S32x512_S32x1x512_0_2 : (⟨S32x512, .i1⟩ : BufTy).Contents (Elt F) → (⟨S32x1x512, .i1⟩ : BufTy).Contents (Elt F)),
    unary main_v4 main_v6 (broadcastInDim S32x512x512 ![0, 1, 2] bcast_S32x512x1_S32x512x512_0_1_2 : (⟨S32x512x1, .i1⟩ : BufTy).Contents (Elt F) → (⟨S32x512x512, .i1⟩ : BufTy).Contents (Elt F)),
    unary main_v5 main_v7 (broadcastInDim S32x512x512 ![0, 1, 2] bcast_S32x1x512_S32x512x512_0_1_2 : (⟨S32x1x512, .i1⟩ : BufTy).Contents (Elt F) → (⟨S32x512x512, .i1⟩ : BufTy).Contents (Elt F)),
    binary main_v6 main_v7 main_v8 (andi : (⟨S32x512x512, .i1⟩ : BufTy).Contents (Elt F) → (⟨S32x512x512, .i1⟩ : BufTy).Contents (Elt F) → (⟨S32x512x512, .i1⟩ : BufTy).Contents (Elt F)),
    binary main_v3 main_v8 main_v9 (andi : (⟨S32x512x512, .i1⟩ : BufTy).Contents (Elt F) → (⟨S32x512x512, .i1⟩ : BufTy).Contents (Elt F) → (⟨S32x512x512, .i1⟩ : BufTy).Contents (Elt F)),
    unary main_v9 main_v10 (uitofp .f32 : (⟨S32x512x512, .i1⟩ : BufTy).Contents (Elt F) → (⟨S32x512x512, .f32⟩ : BufTy).Contents (Elt F)),
    nullary main_v11 (iotaInDim S512x512 32 0),
    nullary main_v12 (iotaInDim S512x512 32 1),
    nullary main_c (constantI S_ 32 0#32),
    unary main_c main_v13 (broadcastInDim S512x512 ![] bcast_S_S512x512 : (⟨S_, .i32⟩ : BufTy).Contents (Elt F) → (⟨S512x512, .i32⟩ : BufTy).Contents (Elt F)),
    binary main_v11 main_v13 main_v14 (addi : (⟨S512x512, .i32⟩ : BufTy).Contents (Elt F) → (⟨S512x512, .i32⟩ : BufTy).Contents (Elt F) → (⟨S512x512, .i32⟩ : BufTy).Contents (Elt F)),
    binary main_v14 main_v12 main_v15 (cmpi .eq : (⟨S512x512, .i32⟩ : BufTy).Contents (Elt F) → (⟨S512x512, .i32⟩ : BufTy).Contents (Elt F) → (⟨S512x512, .i1⟩ : BufTy).Contents (Elt F)),
    unary main_v15 main_v16 (broadcastInDim S1x512x512 ![1, 2] bcast_S512x512_S1x512x512_1_2 : (⟨S512x512, .i1⟩ : BufTy).Contents (Elt F) → (⟨S1x512x512, .i1⟩ : BufTy).Contents (Elt F)),
    nullary main_c_0 (constantI S_ 32 0#32),
    nullary main_c_1 (constantI S_ 32 11#32),
    TRef.unary (TRef.of (T := ⟨S_, .i32⟩) main_c_0) (TRef.of (T := ⟨S1x512x512, .i32⟩) main_call0_v0) (broadcastInDim S1x512x512 ![] bcast_S_S1x512x512),
    TRef.unary (TRef.of (T := ⟨S_, .i32⟩) main_c_1) (TRef.of (T := ⟨S1x512x512, .i32⟩) main_call0_v1) (broadcastInDim S1x512x512 ![] bcast_S_S1x512x512),
    TRef.ternary (TRef.of (T := ⟨S1x512x512, .i1⟩) main_v16) (TRef.of (T := ⟨S1x512x512, .i32⟩) main_call0_v0) (TRef.of (T := ⟨S1x512x512, .i32⟩) main_call0_v1) (TRef.of (T := ⟨S1x512x512, .i32⟩) main_v17) select,
    unary main_v17 main_v18 (id : (⟨S1x512x512, .i32⟩ : BufTy).Contents (Elt F) → (⟨S1x512x512, .i32⟩ : BufTy).Contents (Elt F)),
    unary main_v16 main_v19 (broadcastInDim S32x512x512 ![0, 1, 2] bcast_S1x512x512_S32x512x512_0_1_2 : (⟨S1x512x512, .i1⟩ : BufTy).Contents (Elt F) → (⟨S32x512x512, .i1⟩ : BufTy).Contents (Elt F))]

set_option maxRecDepth 8192 in
set_option maxHeartbeats 4000000 in
/-- After them the five buffers later operations read hold the named stages of the arguments. -/
theorem after_chunkP (V : Valuation τ sig (Elt F)) :
    after chunkP V (Proc.devRef .tc main_v19) = Cert.ReferenceIdeal.ReadP.val_main_v19 (F := F)
    ∧ after chunkP V (Proc.devRef .tc main_v18) = Cert.ReferenceIdeal.ReadP.val_main_v18 (F := F)
    ∧ after chunkP V (Proc.devRef .tc main_v10) = Cert.ReferenceIdeal.ReadP.val_main_v10 (F := F) (V (Proc.devRef .tc main_arg0)) (V (Proc.devRef .tc main_arg1))
    ∧ after chunkP V (Proc.devRef .tc main_v8) = Cert.ReferenceIdeal.ReadP.val_main_v8 (F := F) (V (Proc.devRef .tc main_arg1))
    ∧ after chunkP V (Proc.devRef .tc main_arg2) = V (Proc.devRef .tc main_arg2) := by
  refine ⟨?_, ?_, ?_, ?_, ?_⟩ <;> unfold chunkP <;> after_results_simp <;> first | rfl | fail "prologue: a stage is not the operations' value"

/-- Round 1 of the search: the reachability matrix times the adjacency, thresholded at zero and joined with the old reachability; the pairs reached for the first time get distance 1. -/
def chunkR1 : List (HloOp τ sig (Elt F)) :=
  [ unary main_v19 main_v20 (uitofp .f32 : (⟨S32x512x512, .i1⟩ : BufTy).Contents (Elt F) → (⟨S32x512x512, .f32⟩ : BufTy).Contents (Elt F)),
    binary main_v20 main_v10 main_v21 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_2 (constant S_ .f32 0x00000000#32),
    unary main_cst_2 main_v22 (broadcastInDim S32x512x512 ![] bcast_S_S32x512x512 : (⟨S_, .f32⟩ : BufTy).Contents (Elt F) → (⟨S32x512x512, .f32⟩ : BufTy).Contents (Elt F)),
    binary main_v21 main_v22 main_v23 (cmpf .ogt : (⟨S32x512x512, .f32⟩ : BufTy).Contents (Elt F) → (⟨S32x512x512, .f32⟩ : BufTy).Contents (Elt F) → (⟨S32x512x512, .i1⟩ : BufTy).Contents (Elt F)),
    binary main_v23 main_v19 main_v24 (ori : (⟨S32x512x512, .i1⟩ : BufTy).Contents (Elt F) → (⟨S32x512x512, .i1⟩ : BufTy).Contents (Elt F) → (⟨S32x512x512, .i1⟩ : BufTy).Contents (Elt F)),
    unary main_v19 main_v25 (noti : (⟨S32x512x512, .i1⟩ : BufTy).Contents (Elt F) → (⟨S32x512x512, .i1⟩ : BufTy).Contents (Elt F)),
    binary main_v24 main_v25 main_v26 (andi : (⟨S32x512x512, .i1⟩ : BufTy).Contents (Elt F) → (⟨S32x512x512, .i1⟩ : BufTy).Contents (Elt F) → (⟨S32x512x512, .i1⟩ : BufTy).Contents (Elt F)),
    nullary main_c_3 (constantI S_ 32 1#32),
    TRef.unary (TRef.of (T := ⟨S_, .i32⟩) main_c_3) (TRef.of (T := ⟨S32x512x512, .i32⟩) main_call1_v0) (broadcastInDim S32x512x512 ![] bcast_S_S32x512x512),
    TRef.unary (TRef.of (T := ⟨S1x512x512, .i32⟩) main_v18) (TRef.of (T := ⟨S32x512x512, .i32⟩) main_call1_v1) (broadcastInDim S32x512x512 ![0, 1, 2] bcast_S1x512x512_S32x512x512_0_1_2),
    TRef.ternary (TRef.of (T := ⟨S32x512x512, .i1⟩) main_v26) (TRef.of (T := ⟨S32x512x512, .i32⟩) main_call1_v0) (TRef.of (T := ⟨S32x512x512, .i32⟩) main_call1_v1) (TRef.of (T := ⟨S32x512x512, .i32⟩) main_v27) select]

set_option maxRecDepth 8192 in
set_option maxHeartbeats 4000000 in
/-- From a state whose reachability, distance and adjacency buffers hold the stages before round 1, the round leaves the stages after it, and the adjacency, the mask and the table as they were. -/
theorem after_chunkR1 (V : Valuation τ sig (Elt F)) (x0 : (⟨S32x512x512, .f32⟩ : BufTy).Contents (Elt F)) (x1 : (⟨S32x512, .i1⟩ : BufTy).Contents (Elt F))
    (hr : V (Proc.devRef .tc main_v19) = Cert.ReferenceIdeal.ReadP.val_main_v19 (F := F))
    (hd : V (Proc.devRef .tc main_v18) = Cert.ReferenceIdeal.ReadP.val_main_v18 (F := F))
    (ha : V (Proc.devRef .tc main_v10) = Cert.ReferenceIdeal.ReadP.val_main_v10 (F := F) x0 x1) :
    after chunkR1 V (Proc.devRef .tc main_v24) = Cert.ReferenceIdeal.ReadP.val_main_v24 (F := F) x0 x1
    ∧ after chunkR1 V (Proc.devRef .tc main_v27) = Cert.ReferenceIdeal.ReadP.val_main_v27 (F := F) x0 x1
    ∧ after chunkR1 V (Proc.devRef .tc main_v10) = V (Proc.devRef .tc main_v10)
    ∧ after chunkR1 V (Proc.devRef .tc main_v8) = V (Proc.devRef .tc main_v8)
    ∧ after chunkR1 V (Proc.devRef .tc main_arg2) = V (Proc.devRef .tc main_arg2) := by
  refine ⟨?_, ?_, ?_, ?_, ?_⟩ <;> unfold chunkR1 <;> after_results_simp
  · rw [hr, ha]; first | rfl | fail "round 1: reachability stage"
  · rw [hr, hd, ha]; first | rfl | fail "round 1: distance stage"

/-- Round 2 of the search: the reachability matrix times the adjacency, thresholded at zero and joined with the old reachability; the pairs reached for the first time get distance 2. -/
def chunkR2 : List (HloOp τ sig (Elt F)) :=
  [ unary main_v24 main_v28 (uitofp .f32 : (⟨S32x512x512, .i1⟩ : BufTy).Contents (Elt F) → (⟨S32x512x512, .f32⟩ : BufTy).Contents (Elt F)),
    binary main_v28 main_v10 main_v29 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_4 (constant S_ .f32 0x00000000#32),
    unary main_cst_4 main_v30 (broadcastInDim S32x512x512 ![] bcast_S_S32x512x512 : (⟨S_, .f32⟩ : BufTy).Contents (Elt F) → (⟨S32x512x512, .f32⟩ : BufTy).Contents (Elt F)),
    binary main_v29 main_v30 main_v31 (cmpf .ogt : (⟨S32x512x512, .f32⟩ : BufTy).Contents (Elt F) → (⟨S32x512x512, .f32⟩ : BufTy).Contents (Elt F) → (⟨S32x512x512, .i1⟩ : BufTy).Contents (Elt F)),
    binary main_v31 main_v24 main_v32 (ori : (⟨S32x512x512, .i1⟩ : BufTy).Contents (Elt F) → (⟨S32x512x512, .i1⟩ : BufTy).Contents (Elt F) → (⟨S32x512x512, .i1⟩ : BufTy).Contents (Elt F)),
    unary main_v24 main_v33 (noti : (⟨S32x512x512, .i1⟩ : BufTy).Contents (Elt F) → (⟨S32x512x512, .i1⟩ : BufTy).Contents (Elt F)),
    binary main_v32 main_v33 main_v34 (andi : (⟨S32x512x512, .i1⟩ : BufTy).Contents (Elt F) → (⟨S32x512x512, .i1⟩ : BufTy).Contents (Elt F) → (⟨S32x512x512, .i1⟩ : BufTy).Contents (Elt F)),
    nullary main_c_5 (constantI S_ 32 2#32),
    TRef.unary (TRef.of (T := ⟨S_, .i32⟩) main_c_5) (TRef.of (T := ⟨S32x512x512, .i32⟩) main_call2_v0) (broadcastInDim S32x512x512 ![] bcast_S_S32x512x512),
    TRef.ternary (TRef.of (T := ⟨S32x512x512, .i1⟩) main_v34) (TRef.of (T := ⟨S32x512x512, .i32⟩) main_call2_v0) (TRef.of (T := ⟨S32x512x512, .i32⟩) main_v27) (TRef.of (T := ⟨S32x512x512, .i32⟩) main_v35) select]

set_option maxRecDepth 8192 in
set_option maxHeartbeats 4000000 in
/-- From a state whose reachability, distance and adjacency buffers hold the stages before round 2, the round leaves the stages after it, and the adjacency, the mask and the table as they were. -/
theorem after_chunkR2 (V : Valuation τ sig (Elt F)) (x0 : (⟨S32x512x512, .f32⟩ : BufTy).Contents (Elt F)) (x1 : (⟨S32x512, .i1⟩ : BufTy).Contents (Elt F))
    (hr : V (Proc.devRef .tc main_v24) = Cert.ReferenceIdeal.ReadP.val_main_v24 (F := F) x0 x1)
    (hd : V (Proc.devRef .tc main_v27) = Cert.ReferenceIdeal.ReadP.val_main_v27 (F := F) x0 x1)
    (ha : V (Proc.devRef .tc main_v10) = Cert.ReferenceIdeal.ReadP.val_main_v10 (F := F) x0 x1) :
    after chunkR2 V (Proc.devRef .tc main_v32) = Cert.ReferenceIdeal.ReadP.val_main_v32 (F := F) x0 x1
    ∧ after chunkR2 V (Proc.devRef .tc main_v35) = Cert.ReferenceIdeal.ReadP.val_main_v35 (F := F) x0 x1
    ∧ after chunkR2 V (Proc.devRef .tc main_v10) = V (Proc.devRef .tc main_v10)
    ∧ after chunkR2 V (Proc.devRef .tc main_v8) = V (Proc.devRef .tc main_v8)
    ∧ after chunkR2 V (Proc.devRef .tc main_arg2) = V (Proc.devRef .tc main_arg2) := by
  refine ⟨?_, ?_, ?_, ?_, ?_⟩ <;> unfold chunkR2 <;> after_results_simp
  · rw [hr, ha]; first | rfl | fail "round 2: reachability stage"
  · rw [hr, hd, ha]; first | rfl | fail "round 2: distance stage"

/-- Round 3 of the search: the reachability matrix times the adjacency, thresholded at zero and joined with the old reachability; the pairs reached for the first time get distance 3. -/
def chunkR3 : List (HloOp τ sig (Elt F)) :=
  [ unary main_v32 main_v36 (uitofp .f32 : (⟨S32x512x512, .i1⟩ : BufTy).Contents (Elt F) → (⟨S32x512x512, .f32⟩ : BufTy).Contents (Elt F)),
    binary main_v36 main_v10 main_v37 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_6 (constant S_ .f32 0x00000000#32),
    unary main_cst_6 main_v38 (broadcastInDim S32x512x512 ![] bcast_S_S32x512x512 : (⟨S_, .f32⟩ : BufTy).Contents (Elt F) → (⟨S32x512x512, .f32⟩ : BufTy).Contents (Elt F)),
    binary main_v37 main_v38 main_v39 (cmpf .ogt : (⟨S32x512x512, .f32⟩ : BufTy).Contents (Elt F) → (⟨S32x512x512, .f32⟩ : BufTy).Contents (Elt F) → (⟨S32x512x512, .i1⟩ : BufTy).Contents (Elt F)),
    binary main_v39 main_v32 main_v40 (ori : (⟨S32x512x512, .i1⟩ : BufTy).Contents (Elt F) → (⟨S32x512x512, .i1⟩ : BufTy).Contents (Elt F) → (⟨S32x512x512, .i1⟩ : BufTy).Contents (Elt F)),
    unary main_v32 main_v41 (noti : (⟨S32x512x512, .i1⟩ : BufTy).Contents (Elt F) → (⟨S32x512x512, .i1⟩ : BufTy).Contents (Elt F)),
    binary main_v40 main_v41 main_v42 (andi : (⟨S32x512x512, .i1⟩ : BufTy).Contents (Elt F) → (⟨S32x512x512, .i1⟩ : BufTy).Contents (Elt F) → (⟨S32x512x512, .i1⟩ : BufTy).Contents (Elt F)),
    nullary main_c_7 (constantI S_ 32 3#32),
    TRef.unary (TRef.of (T := ⟨S_, .i32⟩) main_c_7) (TRef.of (T := ⟨S32x512x512, .i32⟩) main_call3_v0) (broadcastInDim S32x512x512 ![] bcast_S_S32x512x512),
    TRef.ternary (TRef.of (T := ⟨S32x512x512, .i1⟩) main_v42) (TRef.of (T := ⟨S32x512x512, .i32⟩) main_call3_v0) (TRef.of (T := ⟨S32x512x512, .i32⟩) main_v35) (TRef.of (T := ⟨S32x512x512, .i32⟩) main_v43) select]

set_option maxRecDepth 8192 in
set_option maxHeartbeats 4000000 in
/-- From a state whose reachability, distance and adjacency buffers hold the stages before round 3, the round leaves the stages after it, and the adjacency, the mask and the table as they were. -/
theorem after_chunkR3 (V : Valuation τ sig (Elt F)) (x0 : (⟨S32x512x512, .f32⟩ : BufTy).Contents (Elt F)) (x1 : (⟨S32x512, .i1⟩ : BufTy).Contents (Elt F))
    (hr : V (Proc.devRef .tc main_v32) = Cert.ReferenceIdeal.ReadP.val_main_v32 (F := F) x0 x1)
    (hd : V (Proc.devRef .tc main_v35) = Cert.ReferenceIdeal.ReadP.val_main_v35 (F := F) x0 x1)
    (ha : V (Proc.devRef .tc main_v10) = Cert.ReferenceIdeal.ReadP.val_main_v10 (F := F) x0 x1) :
    after chunkR3 V (Proc.devRef .tc main_v40) = Cert.ReferenceIdeal.ReadP.val_main_v40 (F := F) x0 x1
    ∧ after chunkR3 V (Proc.devRef .tc main_v43) = Cert.ReferenceIdeal.ReadP.val_main_v43 (F := F) x0 x1
    ∧ after chunkR3 V (Proc.devRef .tc main_v10) = V (Proc.devRef .tc main_v10)
    ∧ after chunkR3 V (Proc.devRef .tc main_v8) = V (Proc.devRef .tc main_v8)
    ∧ after chunkR3 V (Proc.devRef .tc main_arg2) = V (Proc.devRef .tc main_arg2) := by
  refine ⟨?_, ?_, ?_, ?_, ?_⟩ <;> unfold chunkR3 <;> after_results_simp
  · rw [hr, ha]; first | rfl | fail "round 3: reachability stage"
  · rw [hr, hd, ha]; first | rfl | fail "round 3: distance stage"

end Cert.ReferenceIdeal.ValueP

end
-- ==== Proof.RefRunB.lean ====
/- The reference program's run, part B: what the buffers hold after each of these stretches of consecutive operations — round 4, round 5, round 6, round 7 —, from any contents before it: each operation's value read off in turn, and the result named by the stages of the read-at-an-index module (a stretch's lemma assumes the stages it reads and gives the stages it writes). -/
import proofs.«127861_j44693429682446_1_alg».proof.Proof.Gen.ReferenceIdeal
import Idealize.ShloMosaic.Lib.StableHlo.Run
import proofs.«127861_j44693429682446_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Round 4 of the search: the reachability matrix times the adjacency, thresholded at zero and joined with the old reachability; the pairs reached for the first time get distance 4. -/
def chunkR4 : List (HloOp τ sig (Elt F)) :=
  [ unary main_v40 main_v44 (uitofp .f32 : (⟨S32x512x512, .i1⟩ : BufTy).Contents (Elt F) → (⟨S32x512x512, .f32⟩ : BufTy).Contents (Elt F)),
    binary main_v44 main_v10 main_v45 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_8 (constant S_ .f32 0x00000000#32),
    unary main_cst_8 main_v46 (broadcastInDim S32x512x512 ![] bcast_S_S32x512x512 : (⟨S_, .f32⟩ : BufTy).Contents (Elt F) → (⟨S32x512x512, .f32⟩ : BufTy).Contents (Elt F)),
    binary main_v45 main_v46 main_v47 (cmpf .ogt : (⟨S32x512x512, .f32⟩ : BufTy).Contents (Elt F) → (⟨S32x512x512, .f32⟩ : BufTy).Contents (Elt F) → (⟨S32x512x512, .i1⟩ : BufTy).Contents (Elt F)),
    binary main_v47 main_v40 main_v48 (ori : (⟨S32x512x512, .i1⟩ : BufTy).Contents (Elt F) → (⟨S32x512x512, .i1⟩ : BufTy).Contents (Elt F) → (⟨S32x512x512, .i1⟩ : BufTy).Contents (Elt F)),
    unary main_v40 main_v49 (noti : (⟨S32x512x512, .i1⟩ : BufTy).Contents (Elt F) → (⟨S32x512x512, .i1⟩ : BufTy).Contents (Elt F)),
    binary main_v48 main_v49 main_v50 (andi : (⟨S32x512x512, .i1⟩ : BufTy).Contents (Elt F) → (⟨S32x512x512, .i1⟩ : BufTy).Contents (Elt F) → (⟨S32x512x512, .i1⟩ : BufTy).Contents (Elt F)),
    nullary main_c_9 (constantI S_ 32 4#32),
    TRef.unary (TRef.of (T := ⟨S_, .i32⟩) main_c_9) (TRef.of (T := ⟨S32x512x512, .i32⟩) main_call4_v0) (broadcastInDim S32x512x512 ![] bcast_S_S32x512x512),
    TRef.ternary (TRef.of (T := ⟨S32x512x512, .i1⟩) main_v50) (TRef.of (T := ⟨S32x512x512, .i32⟩) main_call4_v0) (TRef.of (T := ⟨S32x512x512, .i32⟩) main_v43) (TRef.of (T := ⟨S32x512x512, .i32⟩) main_v51) select]

set_option maxRecDepth 8192 in
set_option maxHeartbeats 4000000 in
/-- From a state whose reachability, distance and adjacency buffers hold the stages before round 4, the round leaves the stages after it, and the adjacency, the mask and the table as they were. -/
theorem after_chunkR4 (V : Valuation τ sig (Elt F)) (x0 : (⟨S32x512x512, .f32⟩ : BufTy).Contents (Elt F)) (x1 : (⟨S32x512, .i1⟩ : BufTy).Contents (Elt F))
    (hr : V (Proc.devRef .tc main_v40) = Cert.ReferenceIdeal.ReadP.val_main_v40 (F := F) x0 x1)
    (hd : V (Proc.devRef .tc main_v43) = Cert.ReferenceIdeal.ReadP.val_main_v43 (F := F) x0 x1)
    (ha : V (Proc.devRef .tc main_v10) = Cert.ReferenceIdeal.ReadP.val_main_v10 (F := F) x0 x1) :
    after chunkR4 V (Proc.devRef .tc main_v48) = Cert.ReferenceIdeal.ReadP.val_main_v48 (F := F) x0 x1
    ∧ after chunkR4 V (Proc.devRef .tc main_v51) = Cert.ReferenceIdeal.ReadP.val_main_v51 (F := F) x0 x1
    ∧ after chunkR4 V (Proc.devRef .tc main_v10) = V (Proc.devRef .tc main_v10)
    ∧ after chunkR4 V (Proc.devRef .tc main_v8) = V (Proc.devRef .tc main_v8)
    ∧ after chunkR4 V (Proc.devRef .tc main_arg2) = V (Proc.devRef .tc main_arg2) := by
  refine ⟨?_, ?_, ?_, ?_, ?_⟩ <;> unfold chunkR4 <;> after_results_simp
  · rw [hr, ha]; first | rfl | fail "round 4: reachability stage"
  · rw [hr, hd, ha]; first | rfl | fail "round 4: distance stage"

/-- Round 5 of the search: the reachability matrix times the adjacency, thresholded at zero and joined with the old reachability; the pairs reached for the first time get distance 5. -/
def chunkR5 : List (HloOp τ sig (Elt F)) :=
  [ unary main_v48 main_v52 (uitofp .f32 : (⟨S32x512x512, .i1⟩ : BufTy).Contents (Elt F) → (⟨S32x512x512, .f32⟩ : BufTy).Contents (Elt F)),
    binary main_v52 main_v10 main_v53 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_10 (constant S_ .f32 0x00000000#32),
    unary main_cst_10 main_v54 (broadcastInDim S32x512x512 ![] bcast_S_S32x512x512 : (⟨S_, .f32⟩ : BufTy).Contents (Elt F) → (⟨S32x512x512, .f32⟩ : BufTy).Contents (Elt F)),
    binary main_v53 main_v54 main_v55 (cmpf .ogt : (⟨S32x512x512, .f32⟩ : BufTy).Contents (Elt F) → (⟨S32x512x512, .f32⟩ : BufTy).Contents (Elt F) → (⟨S32x512x512, .i1⟩ : BufTy).Contents (Elt F)),
    binary main_v55 main_v48 main_v56 (ori : (⟨S32x512x512, .i1⟩ : BufTy).Contents (Elt F) → (⟨S32x512x512, .i1⟩ : BufTy).Contents (Elt F) → (⟨S32x512x512, .i1⟩ : BufTy).Contents (Elt F)),
    unary main_v48 main_v57 (noti : (⟨S32x512x512, .i1⟩ : BufTy).Contents (Elt F) → (⟨S32x512x512, .i1⟩ : BufTy).Contents (Elt F)),
    binary main_v56 main_v57 main_v58 (andi : (⟨S32x512x512, .i1⟩ : BufTy).Contents (Elt F) → (⟨S32x512x512, .i1⟩ : BufTy).Contents (Elt F) → (⟨S32x512x512, .i1⟩ : BufTy).Contents (Elt F)),
    nullary main_c_11 (constantI S_ 32 5#32),
    TRef.unary (TRef.of (T := ⟨S_, .i32⟩) main_c_11) (TRef.of (T := ⟨S32x512x512, .i32⟩) main_call5_v0) (broadcastInDim S32x512x512 ![] bcast_S_S32x512x512),
    TRef.ternary (TRef.of (T := ⟨S32x512x512, .i1⟩) main_v58) (TRef.of (T := ⟨S32x512x512, .i32⟩) main_call5_v0) (TRef.of (T := ⟨S32x512x512, .i32⟩) main_v51) (TRef.of (T := ⟨S32x512x512, .i32⟩) main_v59) select]

set_option maxRecDepth 8192 in
set_option maxHeartbeats 4000000 in
/-- From a state whose reachability, distance and adjacency buffers hold the stages before round 5, the round leaves the stages after it, and the adjacency, the mask and the table as they were. -/
theorem after_chunkR5 (V : Valuation τ sig (Elt F)) (x0 : (⟨S32x512x512, .f32⟩ : BufTy).Contents (Elt F)) (x1 : (⟨S32x512, .i1⟩ : BufTy).Contents (Elt F))
    (hr : V (Proc.devRef .tc main_v48) = Cert.ReferenceIdeal.ReadP.val_main_v48 (F := F) x0 x1)
    (hd : V (Proc.devRef .tc main_v51) = Cert.ReferenceIdeal.ReadP.val_main_v51 (F := F) x0 x1)
    (ha : V (Proc.devRef .tc main_v10) = Cert.ReferenceIdeal.ReadP.val_main_v10 (F := F) x0 x1) :
    after chunkR5 V (Proc.devRef .tc main_v56) = Cert.ReferenceIdeal.ReadP.val_main_v56 (F := F) x0 x1
    ∧ after chunkR5 V (Proc.devRef .tc main_v59) = Cert.ReferenceIdeal.ReadP.val_main_v59 (F := F) x0 x1
    ∧ after chunkR5 V (Proc.devRef .tc main_v10) = V (Proc.devRef .tc main_v10)
    ∧ after chunkR5 V (Proc.devRef .tc main_v8) = V (Proc.devRef .tc main_v8)
    ∧ after chunkR5 V (Proc.devRef .tc main_arg2) = V (Proc.devRef .tc main_arg2) := by
  refine ⟨?_, ?_, ?_, ?_, ?_⟩ <;> unfold chunkR5 <;> after_results_simp
  · rw [hr, ha]; first | rfl | fail "round 5: reachability stage"
  · rw [hr, hd, ha]; first | rfl | fail "round 5: distance stage"

/-- Round 6 of the search: the reachability matrix times the adjacency, thresholded at zero and joined with the old reachability; the pairs reached for the first time get distance 6. -/
def chunkR6 : List (HloOp τ sig (Elt F)) :=
  [ unary main_v56 main_v60 (uitofp .f32 : (⟨S32x512x512, .i1⟩ : BufTy).Contents (Elt F) → (⟨S32x512x512, .f32⟩ : BufTy).Contents (Elt F)),
    binary main_v60 main_v10 main_v61 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_12 (constant S_ .f32 0x00000000#32),
    unary main_cst_12 main_v62 (broadcastInDim S32x512x512 ![] bcast_S_S32x512x512 : (⟨S_, .f32⟩ : BufTy).Contents (Elt F) → (⟨S32x512x512, .f32⟩ : BufTy).Contents (Elt F)),
    binary main_v61 main_v62 main_v63 (cmpf .ogt : (⟨S32x512x512, .f32⟩ : BufTy).Contents (Elt F) → (⟨S32x512x512, .f32⟩ : BufTy).Contents (Elt F) → (⟨S32x512x512, .i1⟩ : BufTy).Contents (Elt F)),
    binary main_v63 main_v56 main_v64 (ori : (⟨S32x512x512, .i1⟩ : BufTy).Contents (Elt F) → (⟨S32x512x512, .i1⟩ : BufTy).Contents (Elt F) → (⟨S32x512x512, .i1⟩ : BufTy).Contents (Elt F)),
    unary main_v56 main_v65 (noti : (⟨S32x512x512, .i1⟩ : BufTy).Contents (Elt F) → (⟨S32x512x512, .i1⟩ : BufTy).Contents (Elt F)),
    binary main_v64 main_v65 main_v66 (andi : (⟨S32x512x512, .i1⟩ : BufTy).Contents (Elt F) → (⟨S32x512x512, .i1⟩ : BufTy).Contents (Elt F) → (⟨S32x512x512, .i1⟩ : BufTy).Contents (Elt F)),
    nullary main_c_13 (constantI S_ 32 6#32),
    TRef.unary (TRef.of (T := ⟨S_, .i32⟩) main_c_13) (TRef.of (T := ⟨S32x512x512, .i32⟩) main_call6_v0) (broadcastInDim S32x512x512 ![] bcast_S_S32x512x512),
    TRef.ternary (TRef.of (T := ⟨S32x512x512, .i1⟩) main_v66) (TRef.of (T := ⟨S32x512x512, .i32⟩) main_call6_v0) (TRef.of (T := ⟨S32x512x512, .i32⟩) main_v59) (TRef.of (T := ⟨S32x512x512, .i32⟩) main_v67) select]

set_option maxRecDepth 8192 in
set_option maxHeartbeats 4000000 in
/-- From a state whose reachability, distance and adjacency buffers hold the stages before round 6, the round leaves the stages after it, and the adjacency, the mask and the table as they were. -/
theorem after_chunkR6 (V : Valuation τ sig (Elt F)) (x0 : (⟨S32x512x512, .f32⟩ : BufTy).Contents (Elt F)) (x1 : (⟨S32x512, .i1⟩ : BufTy).Contents (Elt F))
    (hr : V (Proc.devRef .tc main_v56) = Cert.ReferenceIdeal.ReadP.val_main_v56 (F := F) x0 x1)
    (hd : V (Proc.devRef .tc main_v59) = Cert.ReferenceIdeal.ReadP.val_main_v59 (F := F) x0 x1)
    (ha : V (Proc.devRef .tc main_v10) = Cert.ReferenceIdeal.ReadP.val_main_v10 (F := F) x0 x1) :
    after chunkR6 V (Proc.devRef .tc main_v64) = Cert.ReferenceIdeal.ReadP.val_main_v64 (F := F) x0 x1
    ∧ after chunkR6 V (Proc.devRef .tc main_v67) = Cert.ReferenceIdeal.ReadP.val_main_v67 (F := F) x0 x1
    ∧ after chunkR6 V (Proc.devRef .tc main_v10) = V (Proc.devRef .tc main_v10)
    ∧ after chunkR6 V (Proc.devRef .tc main_v8) = V (Proc.devRef .tc main_v8)
    ∧ after chunkR6 V (Proc.devRef .tc main_arg2) = V (Proc.devRef .tc main_arg2) := by
  refine ⟨?_, ?_, ?_, ?_, ?_⟩ <;> unfold chunkR6 <;> after_results_simp
  · rw [hr, ha]; first | rfl | fail "round 6: reachability stage"
  · rw [hr, hd, ha]; first | rfl | fail "round 6: distance stage"

/-- Round 7 of the search: the reachability matrix times the adjacency, thresholded at zero and joined with the old reachability; the pairs reached for the first time get distance 7. -/
def chunkR7 : List (HloOp τ sig (Elt F)) :=
  [ unary main_v64 main_v68 (uitofp .f32 : (⟨S32x512x512, .i1⟩ : BufTy).Contents (Elt F) → (⟨S32x512x512, .f32⟩ : BufTy).Contents (Elt F)),
    binary main_v68 main_v10 main_v69 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_14 (constant S_ .f32 0x00000000#32),
    unary main_cst_14 main_v70 (broadcastInDim S32x512x512 ![] bcast_S_S32x512x512 : (⟨S_, .f32⟩ : BufTy).Contents (Elt F) → (⟨S32x512x512, .f32⟩ : BufTy).Contents (Elt F)),
    binary main_v69 main_v70 main_v71 (cmpf .ogt : (⟨S32x512x512, .f32⟩ : BufTy).Contents (Elt F) → (⟨S32x512x512, .f32⟩ : BufTy).Contents (Elt F) → (⟨S32x512x512, .i1⟩ : BufTy).Contents (Elt F)),
    binary main_v71 main_v64 main_v72 (ori : (⟨S32x512x512, .i1⟩ : BufTy).Contents (Elt F) → (⟨S32x512x512, .i1⟩ : BufTy).Contents (Elt F) → (⟨S32x512x512, .i1⟩ : BufTy).Contents (Elt F)),
    unary main_v64 main_v73 (noti : (⟨S32x512x512, .i1⟩ : BufTy).Contents (Elt F) → (⟨S32x512x512, .i1⟩ : BufTy).Contents (Elt F)),
    binary main_v72 main_v73 main_v74 (andi : (⟨S32x512x512, .i1⟩ : BufTy).Contents (Elt F) → (⟨S32x512x512, .i1⟩ : BufTy).Contents (Elt F) → (⟨S32x512x512, .i1⟩ : BufTy).Contents (Elt F)),
    nullary main_c_15 (constantI S_ 32 7#32),
    TRef.unary (TRef.of (T := ⟨S_, .i32⟩) main_c_15) (TRef.of (T := ⟨S32x512x512, .i32⟩) main_call7_v0) (broadcastInDim S32x512x512 ![] bcast_S_S32x512x512),
    TRef.ternary (TRef.of (T := ⟨S32x512x512, .i1⟩) main_v74) (TRef.of (T := ⟨S32x512x512, .i32⟩) main_call7_v0) (TRef.of (T := ⟨S32x512x512, .i32⟩) main_v67) (TRef.of (T := ⟨S32x512x512, .i32⟩) main_v75) select]

set_option maxRecDepth 8192 in
set_option maxHeartbeats 4000000 in
/-- From a state whose reachability, distance and adjacency buffers hold the stages before round 7, the round leaves the stages after it, and the adjacency, the mask and the table as they were. -/
theorem after_chunkR7 (V : Valuation τ sig (Elt F)) (x0 : (⟨S32x512x512, .f32⟩ : BufTy).Contents (Elt F)) (x1 : (⟨S32x512, .i1⟩ : BufTy).Contents (Elt F))
    (hr : V (Proc.devRef .tc main_v64) = Cert.ReferenceIdeal.ReadP.val_main_v64 (F := F) x0 x1)
    (hd : V (Proc.devRef .tc main_v67) = Cert.ReferenceIdeal.ReadP.val_main_v67 (F := F) x0 x1)
    (ha : V (Proc.devRef .tc main_v10) = Cert.ReferenceIdeal.ReadP.val_main_v10 (F := F) x0 x1) :
    after chunkR7 V (Proc.devRef .tc main_v72) = Cert.ReferenceIdeal.ReadP.val_main_v72 (F := F) x0 x1
    ∧ after chunkR7 V (Proc.devRef .tc main_v75) = Cert.ReferenceIdeal.ReadP.val_main_v75 (F := F) x0 x1
    ∧ after chunkR7 V (Proc.devRef .tc main_v10) = V (Proc.devRef .tc main_v10)
    ∧ after chunkR7 V (Proc.devRef .tc main_v8) = V (Proc.devRef .tc main_v8)
    ∧ after chunkR7 V (Proc.devRef .tc main_arg2) = V (Proc.devRef .tc main_arg2) := by
  refine ⟨?_, ?_, ?_, ?_, ?_⟩ <;> unfold chunkR7 <;> after_results_simp
  · rw [hr, ha]; first | rfl | fail "round 7: reachability stage"
  · rw [hr, hd, ha]; first | rfl | fail "round 7: distance stage"

end Cert.ReferenceIdeal.ValueP

end
-- ==== Proof.RefRunC.lean ====
/- The reference program's run, part C: what the buffers hold after each of these stretches of consecutive operations — round 8, round 9, round 10, the last 13 operations —, from any contents before it: each operation's value read off in turn, and the result named by the stages of the read-at-an-index module (a stretch's lemma assumes the stages it reads and gives the stages it writes). -/
import proofs.«127861_j44693429682446_1_alg».proof.Proof.Gen.ReferenceIdeal
import Idealize.ShloMosaic.Lib.StableHlo.Run
import proofs.«127861_j44693429682446_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Round 8 of the search: the reachability matrix times the adjacency, thresholded at zero and joined with the old reachability; the pairs reached for the first time get distance 8. -/
def chunkR8 : List (HloOp τ sig (Elt F)) :=
  [ unary main_v72 main_v76 (uitofp .f32 : (⟨S32x512x512, .i1⟩ : BufTy).Contents (Elt F) → (⟨S32x512x512, .f32⟩ : BufTy).Contents (Elt F)),
    binary main_v76 main_v10 main_v77 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_16 (constant S_ .f32 0x00000000#32),
    unary main_cst_16 main_v78 (broadcastInDim S32x512x512 ![] bcast_S_S32x512x512 : (⟨S_, .f32⟩ : BufTy).Contents (Elt F) → (⟨S32x512x512, .f32⟩ : BufTy).Contents (Elt F)),
    binary main_v77 main_v78 main_v79 (cmpf .ogt : (⟨S32x512x512, .f32⟩ : BufTy).Contents (Elt F) → (⟨S32x512x512, .f32⟩ : BufTy).Contents (Elt F) → (⟨S32x512x512, .i1⟩ : BufTy).Contents (Elt F)),
    binary main_v79 main_v72 main_v80 (ori : (⟨S32x512x512, .i1⟩ : BufTy).Contents (Elt F) → (⟨S32x512x512, .i1⟩ : BufTy).Contents (Elt F) → (⟨S32x512x512, .i1⟩ : BufTy).Contents (Elt F)),
    unary main_v72 main_v81 (noti : (⟨S32x512x512, .i1⟩ : BufTy).Contents (Elt F) → (⟨S32x512x512, .i1⟩ : BufTy).Contents (Elt F)),
    binary main_v80 main_v81 main_v82 (andi : (⟨S32x512x512, .i1⟩ : BufTy).Contents (Elt F) → (⟨S32x512x512, .i1⟩ : BufTy).Contents (Elt F) → (⟨S32x512x512, .i1⟩ : BufTy).Contents (Elt F)),
    nullary main_c_17 (constantI S_ 32 8#32),
    TRef.unary (TRef.of (T := ⟨S_, .i32⟩) main_c_17) (TRef.of (T := ⟨S32x512x512, .i32⟩) main_call8_v0) (broadcastInDim S32x512x512 ![] bcast_S_S32x512x512),
    TRef.ternary (TRef.of (T := ⟨S32x512x512, .i1⟩) main_v82) (TRef.of (T := ⟨S32x512x512, .i32⟩) main_call8_v0) (TRef.of (T := ⟨S32x512x512, .i32⟩) main_v75) (TRef.of (T := ⟨S32x512x512, .i32⟩) main_v83) select]

set_option maxRecDepth 8192 in
set_option maxHeartbeats 4000000 in
/-- From a state whose reachability, distance and adjacency buffers hold the stages before round 8, the round leaves the stages after it, and the adjacency, the mask and the table as they were. -/
theorem after_chunkR8 (V : Valuation τ sig (Elt F)) (x0 : (⟨S32x512x512, .f32⟩ : BufTy).Contents (Elt F)) (x1 : (⟨S32x512, .i1⟩ : BufTy).Contents (Elt F))
    (hr : V (Proc.devRef .tc main_v72) = Cert.ReferenceIdeal.ReadP.val_main_v72 (F := F) x0 x1)
    (hd : V (Proc.devRef .tc main_v75) = Cert.ReferenceIdeal.ReadP.val_main_v75 (F := F) x0 x1)
    (ha : V (Proc.devRef .tc main_v10) = Cert.ReferenceIdeal.ReadP.val_main_v10 (F := F) x0 x1) :
    after chunkR8 V (Proc.devRef .tc main_v80) = Cert.ReferenceIdeal.ReadP.val_main_v80 (F := F) x0 x1
    ∧ after chunkR8 V (Proc.devRef .tc main_v83) = Cert.ReferenceIdeal.ReadP.val_main_v83 (F := F) x0 x1
    ∧ after chunkR8 V (Proc.devRef .tc main_v10) = V (Proc.devRef .tc main_v10)
    ∧ after chunkR8 V (Proc.devRef .tc main_v8) = V (Proc.devRef .tc main_v8)
    ∧ after chunkR8 V (Proc.devRef .tc main_arg2) = V (Proc.devRef .tc main_arg2) := by
  refine ⟨?_, ?_, ?_, ?_, ?_⟩ <;> unfold chunkR8 <;> after_results_simp
  · rw [hr, ha]; first | rfl | fail "round 8: reachability stage"
  · rw [hr, hd, ha]; first | rfl | fail "round 8: distance stage"

/-- Round 9 of the search: the reachability matrix times the adjacency, thresholded at zero and joined with the old reachability; the pairs reached for the first time get distance 9. -/
def chunkR9 : List (HloOp τ sig (Elt F)) :=
  [ unary main_v80 main_v84 (uitofp .f32 : (⟨S32x512x512, .i1⟩ : BufTy).Contents (Elt F) → (⟨S32x512x512, .f32⟩ : BufTy).Contents (Elt F)),
    binary main_v84 main_v10 main_v85 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_18 (constant S_ .f32 0x00000000#32),
    unary main_cst_18 main_v86 (broadcastInDim S32x512x512 ![] bcast_S_S32x512x512 : (⟨S_, .f32⟩ : BufTy).Contents (Elt F) → (⟨S32x512x512, .f32⟩ : BufTy).Contents (Elt F)),
    binary main_v85 main_v86 main_v87 (cmpf .ogt : (⟨S32x512x512, .f32⟩ : BufTy).Contents (Elt F) → (⟨S32x512x512, .f32⟩ : BufTy).Contents (Elt F) → (⟨S32x512x512, .i1⟩ : BufTy).Contents (Elt F)),
    binary main_v87 main_v80 main_v88 (ori : (⟨S32x512x512, .i1⟩ : BufTy).Contents (Elt F) → (⟨S32x512x512, .i1⟩ : BufTy).Contents (Elt F) → (⟨S32x512x512, .i1⟩ : BufTy).Contents (Elt F)),
    unary main_v80 main_v89 (noti : (⟨S32x512x512, .i1⟩ : BufTy).Contents (Elt F) → (⟨S32x512x512, .i1⟩ : BufTy).Contents (Elt F)),
    binary main_v88 main_v89 main_v90 (andi : (⟨S32x512x512, .i1⟩ : BufTy).Contents (Elt F) → (⟨S32x512x512, .i1⟩ : BufTy).Contents (Elt F) → (⟨S32x512x512, .i1⟩ : BufTy).Contents (Elt F)),
    nullary main_c_19 (constantI S_ 32 9#32),
    TRef.unary (TRef.of (T := ⟨S_, .i32⟩) main_c_19) (TRef.of (T := ⟨S32x512x512, .i32⟩) main_call9_v0) (broadcastInDim S32x512x512 ![] bcast_S_S32x512x512),
    TRef.ternary (TRef.of (T := ⟨S32x512x512, .i1⟩) main_v90) (TRef.of (T := ⟨S32x512x512, .i32⟩) main_call9_v0) (TRef.of (T := ⟨S32x512x512, .i32⟩) main_v83) (TRef.of (T := ⟨S32x512x512, .i32⟩) main_v91) select]

set_option maxRecDepth 8192 in
set_option maxHeartbeats 4000000 in
/-- From a state whose reachability, distance and adjacency buffers hold the stages before round 9, the round leaves the stages after it, and the adjacency, the mask and the table as they were. -/
theorem after_chunkR9 (V : Valuation τ sig (Elt F)) (x0 : (⟨S32x512x512, .f32⟩ : BufTy).Contents (Elt F)) (x1 : (⟨S32x512, .i1⟩ : BufTy).Contents (Elt F))
    (hr : V (Proc.devRef .tc main_v80) = Cert.ReferenceIdeal.ReadP.val_main_v80 (F := F) x0 x1)
    (hd : V (Proc.devRef .tc main_v83) = Cert.ReferenceIdeal.ReadP.val_main_v83 (F := F) x0 x1)
    (ha : V (Proc.devRef .tc main_v10) = Cert.ReferenceIdeal.ReadP.val_main_v10 (F := F) x0 x1) :
    after chunkR9 V (Proc.devRef .tc main_v88) = Cert.ReferenceIdeal.ReadP.val_main_v88 (F := F) x0 x1
    ∧ after chunkR9 V (Proc.devRef .tc main_v91) = Cert.ReferenceIdeal.ReadP.val_main_v91 (F := F) x0 x1
    ∧ after chunkR9 V (Proc.devRef .tc main_v10) = V (Proc.devRef .tc main_v10)
    ∧ after chunkR9 V (Proc.devRef .tc main_v8) = V (Proc.devRef .tc main_v8)
    ∧ after chunkR9 V (Proc.devRef .tc main_arg2) = V (Proc.devRef .tc main_arg2) := by
  refine ⟨?_, ?_, ?_, ?_, ?_⟩ <;> unfold chunkR9 <;> after_results_simp
  · rw [hr, ha]; first | rfl | fail "round 9: reachability stage"
  · rw [hr, hd, ha]; first | rfl | fail "round 9: distance stage"

/-- Round 10 of the search: the reachability matrix times the adjacency, thresholded at zero and joined with the old reachability; the pairs reached for the first time get distance 10. -/
def chunkR10 : List (HloOp τ sig (Elt F)) :=
  [ unary main_v88 main_v92 (uitofp .f32 : (⟨S32x512x512, .i1⟩ : BufTy).Contents (Elt F) → (⟨S32x512x512, .f32⟩ : BufTy).Contents (Elt F)),
    binary main_v92 main_v10 main_v93 ((fun l r => Host.dotGeneral dot_S32x512x512_S32x512x512_S32x512x512_2_1_1_2_0_0 none l r) : (⟨S32x512x512, .f32⟩ : BufTy).Contents (Elt F) → (⟨S32x512x512, .f32⟩ : BufTy).Contents (Elt F) → (⟨S32x512x512, .f32⟩ : BufTy).Contents (Elt F)),
    nullary main_cst_20 (constant S_ .f32 0x00000000#32),
    unary main_cst_20 main_v94 (broadcastInDim S32x512x512 ![] bcast_S_S32x512x512 : (⟨S_, .f32⟩ : BufTy).Contents (Elt F) → (⟨S32x512x512, .f32⟩ : BufTy).Contents (Elt F)),
    binary main_v93 main_v94 main_v95 (cmpf .ogt : (⟨S32x512x512, .f32⟩ : BufTy).Contents (Elt F) → (⟨S32x512x512, .f32⟩ : BufTy).Contents (Elt F) → (⟨S32x512x512, .i1⟩ : BufTy).Contents (Elt F)),
    binary main_v95 main_v88 main_v96 (ori : (⟨S32x512x512, .i1⟩ : BufTy).Contents (Elt F) → (⟨S32x512x512, .i1⟩ : BufTy).Contents (Elt F) → (⟨S32x512x512, .i1⟩ : BufTy).Contents (Elt F)),
    unary main_v88 main_v97 (noti : (⟨S32x512x512, .i1⟩ : BufTy).Contents (Elt F) → (⟨S32x512x512, .i1⟩ : BufTy).Contents (Elt F)),
    binary main_v96 main_v97 main_v98 (andi : (⟨S32x512x512, .i1⟩ : BufTy).Contents (Elt F) → (⟨S32x512x512, .i1⟩ : BufTy).Contents (Elt F) → (⟨S32x512x512, .i1⟩ : BufTy).Contents (Elt F)),
    nullary main_c_21 (constantI S_ 32 10#32),
    TRef.unary (TRef.of (T := ⟨S_, .i32⟩) main_c_21) (TRef.of (T := ⟨S32x512x512, .i32⟩) main_call10_v0) (broadcastInDim S32x512x512 ![] bcast_S_S32x512x512),
    TRef.ternary (TRef.of (T := ⟨S32x512x512, .i1⟩) main_v98) (TRef.of (T := ⟨S32x512x512, .i32⟩) main_call10_v0) (TRef.of (T := ⟨S32x512x512, .i32⟩) main_v91) (TRef.of (T := ⟨S32x512x512, .i32⟩) main_v99) select]

set_option maxRecDepth 8192 in
set_option maxHeartbeats 4000000 in
/-- From a state whose reachability, distance and adjacency buffers hold the stages before round 10, the round leaves the stages after it, and the adjacency, the mask and the table as they were. -/
theorem after_chunkR10 (V : Valuation τ sig (Elt F)) (x0 : (⟨S32x512x512, .f32⟩ : BufTy).Contents (Elt F)) (x1 : (⟨S32x512, .i1⟩ : BufTy).Contents (Elt F))
    (hr : V (Proc.devRef .tc main_v88) = Cert.ReferenceIdeal.ReadP.val_main_v88 (F := F) x0 x1)
    (hd : V (Proc.devRef .tc main_v91) = Cert.ReferenceIdeal.ReadP.val_main_v91 (F := F) x0 x1)
    (ha : V (Proc.devRef .tc main_v10) = Cert.ReferenceIdeal.ReadP.val_main_v10 (F := F) x0 x1) :
    after chunkR10 V (Proc.devRef .tc main_v96) = Cert.ReferenceIdeal.ReadP.val_main_v96 (F := F) x0 x1
    ∧ after chunkR10 V (Proc.devRef .tc main_v99) = Cert.ReferenceIdeal.ReadP.val_main_v99 (F := F) x0 x1
    ∧ after chunkR10 V (Proc.devRef .tc main_v10) = V (Proc.devRef .tc main_v10)
    ∧ after chunkR10 V (Proc.devRef .tc main_v8) = V (Proc.devRef .tc main_v8)
    ∧ after chunkR10 V (Proc.devRef .tc main_arg2) = V (Proc.devRef .tc main_arg2) := by
  refine ⟨?_, ?_, ?_, ?_, ?_⟩ <;> unfold chunkR10 <;> after_results_simp
  · rw [hr, ha]; first | rfl | fail "round 10: reachability stage"
  · rw [hr, hd, ha]; first | rfl | fail "round 10: distance stage"

/-- The last 13 operations: distance 11 where an end is masked, the distance as a row number of the table (negative numbers wrapped by 12), and the rows gathered. -/
def chunkE : List (HloOp τ sig (Elt F)) :=
  [ nullary main_c_22 (constantI S_ 32 11#32),
    TRef.unary (TRef.of (T := ⟨S_, .i32⟩) main_c_22) (TRef.of (T := ⟨S_, .i32⟩) main_call11_v0) id,
    TRef.unary (TRef.of (T := ⟨S_, .i32⟩) main_call11_v0) (TRef.of (T := ⟨S32x512x512, .i32⟩) main_call11_v1) (broadcastInDim S32x512x512 ![] bcast_S_S32x512x512),
    TRef.ternary (TRef.of (T := ⟨S32x512x512, .i1⟩) main_v8) (TRef.of (T := ⟨S32x512x512, .i32⟩) main_v99) (TRef.of (T := ⟨S32x512x512, .i32⟩) main_call11_v1) (TRef.of (T := ⟨S32x512x512, .i32⟩) main_v100) select,
    nullary main_c_23 (constantI S_ 32 0#32),
    unary main_c_23 main_v101 (broadcastInDim S32x512x512 ![] bcast_S_S32x512x512 : (⟨S_, .i32⟩ : BufTy).Contents (Elt F) → (⟨S32x512x512, .i32⟩ : BufTy).Contents (Elt F)),
    binary main_v100 main_v101 main_v102 (cmpi .slt : (⟨S32x512x512, .i32⟩ : BufTy).Contents (Elt F) → (⟨S32x512x512, .i32⟩ : BufTy).Contents (Elt F) → (⟨S32x512x512, .i1⟩ : BufTy).Contents (Elt F)),
    nullary main_c_24 (constantI S_ 32 12#32),
    unary main_c_24 main_v103 (broadcastInDim S32x512x512 ![] bcast_S_S32x512x512 : (⟨S_, .i32⟩ : BufTy).Contents (Elt F) → (⟨S32x512x512, .i32⟩ : BufTy).Contents (Elt F)),
    binary main_v100 main_v103 main_v104 (addi : (⟨S32x512x512, .i32⟩ : BufTy).Contents (Elt F) → (⟨S32x512x512, .i32⟩ : BufTy).Contents (Elt F) → (⟨S32x512x512, .i32⟩ : BufTy).Contents (Elt F)),
    ternary main_v102 main_v104 main_v100 main_v105 (select : (⟨S32x512x512, .i1⟩ : BufTy).Contents (Elt F) → (⟨S32x512x512, .i32⟩ : BufTy).Contents (Elt F) → (⟨S32x512x512, .i32⟩ : BufTy).Contents (Elt F) → (⟨S32x512x512, .i32⟩ : BufTy).Contents (Elt F)),
    unary main_v105 main_v106 (broadcastInDim S32x512x512x1 ![0, 1, 2] bcast_S32x512x512_S32x512x512x1_0_1_2 : (⟨S32x512x512, .i32⟩ : BufTy).Contents (Elt F) → (⟨S32x512x512x1, .i32⟩ : BufTy).Contents (Elt F)),
    binary main_arg2 main_v106 main_v107 ((fun x i => Host.gather gather_S12x8_S32x512x512x1_S32x512x512x8_3_0_n_n_0_3_18 x i) : (⟨S12x8, .f32⟩ : BufTy).Contents (Elt F) → (⟨S32x512x512x1, .i32⟩ : BufTy).Contents (Elt F) → (⟨S32x512x512x8, .f32⟩ : BufTy).Contents (Elt F)) ]

set_option maxRecDepth 8192 in
set_option maxHeartbeats 4000000 in
/-- From a state holding the distances after round 10 and the mask, they leave the result stage. -/
theorem after_chunkE (V : Valuation τ sig (Elt F)) (x0 : (⟨S32x512x512, .f32⟩ : BufTy).Contents (Elt F)) (x1 : (⟨S32x512, .i1⟩ : BufTy).Contents (Elt F))
    (hd : V (Proc.devRef .tc main_v99) = Cert.ReferenceIdeal.ReadP.val_main_v99 (F := F) x0 x1)
    (hm : V (Proc.devRef .tc main_v8) = Cert.ReferenceIdeal.ReadP.val_main_v8 (F := F) x1) :
    after chunkE V (Proc.devRef .tc main_v107) = Cert.ReferenceIdeal.ReadP.val_main_v107 (F := F) x0 x1 (V (Proc.devRef .tc main_arg2)) := by
  unfold chunkE; after_results_simp
  rw [hd, hm]; first | rfl | fail "epilogue: result stage"

end Cert.ReferenceIdeal.ValueP

end
-- ==== Proof.RefDot.lean ====
/-
  One round of the breadth-first search as the reference spells it, read at one pair of nodes.
  The reach matrix becomes 0/1 numbers, is multiplied with the 0/1 edge matrix batch entry by batch entry, and a
  pair is reached after the round when its entry of the product is positive or it was reached before; the distance
  array takes the round's number at the pairs reached in this round and keeps its old value elsewhere.
  The product's entry (p, q) of batch entry b is the plain sum over j of reach (b, p, j) times edge (b, j, q), so the
  two operations are the specification's `grow` and `mark` on the matrices of batch entry b.
-/
import proofs.«127861_j44693429682446_1_alg».proof.Proof.SpecArr
import proofs.«127861_j44693429682446_1_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.ValueIdx Cert.Spec

/-- The dimension numbers of the batched product: batch axis 0 of both operands, axis 2 of the left operand summed
    against axis 1 of the right. -/
abbrev dotD : DotDims S32x512x512 S32x512x512 S32x512x512 := dot_S32x512x512_S32x512x512_S32x512x512_2_1_1_2_0_0

/-! ## The product's operand indices -/

theorem lhs0 (i : S32x512x512.Idx) (k : dotD.contr.Idx) : (dotD.lhsIdx i k 0).val = (i 0).val := by
  unfold DotDims.lhsIdx
  rw [dif_pos (show (0 : Fin S32x512x512.rank) ∈ dotD.lhsBatch by decide)]
  rfl
theorem lhs1 (i : S32x512x512.Idx) (k : dotD.contr.Idx) : (dotD.lhsIdx i k 1).val = (i 1).val := by
  unfold DotDims.lhsIdx
  rw [dif_neg (show ¬(1 : Fin S32x512x512.rank) ∈ dotD.lhsBatch by decide),
    dif_pos (show (1 : Fin S32x512x512.rank) ∈ dotD.lhsNonContracting by decide)]
  rfl
theorem lhs2 (i : S32x512x512.Idx) (k : dotD.contr.Idx) : (dotD.lhsIdx i k 2).val = (k ⟨0, by decide⟩).val :=
  dotD.lhsIdx_val_of_single rfl i k
theorem rhs0 (i : S32x512x512.Idx) (k : dotD.contr.Idx) : (dotD.rhsIdx i k 0).val = (i 0).val := by
  unfold DotDims.rhsIdx
  rw [dif_pos (show (0 : Fin S32x512x512.rank) ∈ dotD.rhsBatch by decide)]
  rfl
theorem rhs1 (i : S32x512x512.Idx) (k : dotD.contr.Idx) : (dotD.rhsIdx i k 1).val = (k ⟨0, by decide⟩).val :=
  dotD.rhsIdx_val_of_single rfl i k
theorem rhs2 (i : S32x512x512.Idx) (k : dotD.contr.Idx) : (dotD.rhsIdx i k 2).val = (i 2).val := by
  unfold DotDims.rhsIdx
  rw [dif_neg (show ¬(2 : Fin S32x512x512.rank) ∈ dotD.rhsBatch by decide),
    dif_pos (show (2 : Fin S32x512x512.rank) ∈ dotD.rhsNonContracting by decide)]
  rfl

/-- Entry (p, q) of batch entry b of the product is the sum over j of left (b, p, j) times right (b, j, q). -/
theorem dot_apply (l r : FVec Ideal S32x512x512 .f32) (b : Fin 32) (p q : Fin 512) :
    Host.dotGeneral dotD none l r (ix3 b p q) = ∑ j : Fin 512, l (ix3 b p j) * r (ix3 b j q) := by
  simp only [Host.dotGeneral]
  rw [Ideal.dotGeneral_apply, ← Equiv.sum_comp (contrEquiv1 dotD 512 rfl rfl).symm]
  refine Finset.sum_congr rfl fun j _ => ?_
  have hj := contrEquiv1_symm_val dotD 512 rfl rfl j
  have el : dotD.lhsIdx (ix3 b p q) ((contrEquiv1 dotD 512 rfl rfl).symm j) = ix3 b p j := funext fun a => Fin.ext (by
    match a with
    | ⟨0, _⟩ => exact lhs0 _ _
    | ⟨1, _⟩ => exact lhs1 _ _
    | ⟨2, _⟩ => exact (lhs2 _ _).trans hj)
  have er : dotD.rhsIdx (ix3 b p q) ((contrEquiv1 dotD 512 rfl rfl).symm j) = ix3 b j q := funext fun a => Fin.ext (by
    match a with
    | ⟨0, _⟩ => exact rhs0 _ _
    | ⟨1, _⟩ => exact (rhs1 _ _).trans hj
    | ⟨2, _⟩ => exact rhs2 _ _)
  rw [el, er]

/-! ## One round -/

/-- The zero the product is compared against, at every index. -/
def zeros : FVec Ideal S32x512x512 .f32 :=
  broadcastInDim S32x512x512 ![] bcast_S_S32x512x512 (constant (F := Ideal) S_ .f32 0x00000000#32)

theorem zeros_apply (i : S32x512x512.Idx) : zeros i = zeroF := rfl

/-- The reach array after one more round. -/
def step (adj : FVec Ideal S32x512x512 .f32) (reach : IVec S32x512x512 1) : IVec S32x512x512 1 :=
  ori (cmpf .ogt (Host.dotGeneral dotD none (uitofp (F := Ideal) .f32 reach) adj) zeros) reach

/-- The distance array after the round numbered k: k where the pair is reached after the round and was not before. -/
def stepd (k : BitVec 32) (reach reach' : IVec S32x512x512 1) (dist : IVec S32x512x512 32) : IVec S32x512x512 32 :=
  select (andi reach' (noti reach)) (broadcastInDim S32x512x512 ![] bcast_S_S32x512x512 (constantI S_ 32 k)) dist

/-- If batch entry b of the reach array is the matrix r and batch entry b of the edge array is the matrix a read as
    numbers, batch entry b of the next reach array is `grow a r`. -/
theorem step_apply (adj : FVec Ideal S32x512x512 .f32) (reach : IVec S32x512x512 1) (b : Fin 32) (a r : Mat (BitVec 1))
    (hr : ∀ p q, reach (ix3 b p q) = r p q) (ha : ∀ j q, adj (ix3 b j q) = b2r (a j q)) (p q : Fin 512) :
    step adj reach (ix3 b p q) = grow a r p q := by
  have hdot : Host.dotGeneral dotD none (uitofp (F := Ideal) .f32 reach) adj (ix3 b p q)
      = ∑ j : Fin 512, b2r (r p j) * b2r (a j q) := by
    rw [dot_apply]
    refine Finset.sum_congr rfl fun j _ => ?_
    rw [ha j q]
    show b2r (reach (ix3 b p j)) * _ = _
    rw [hr p j]
  show IntOp.ori (FloatOps.cmpf .ogt (Host.dotGeneral dotD none (uitofp (F := Ideal) .f32 reach) adj (ix3 b p q))
    (zeros (ix3 b p q))) (reach (ix3 b p q)) = _
  rw [hdot, hr p q]
  rfl

/-- If batch entry b of the two reach arrays and of the distance array are the matrices r, r' and d, batch entry b
    of the next distance array is `mark k r r' d`. -/
theorem stepd_apply (k : BitVec 32) (reach reach' : IVec S32x512x512 1) (dist : IVec S32x512x512 32) (b : Fin 32)
    (r r' : Mat (BitVec 1)) (d : Mat (BitVec 32))
    (hr : ∀ p q, reach (ix3 b p q) = r p q) (hr' : ∀ p q, reach' (ix3 b p q) = r' p q)
    (hd : ∀ p q, dist (ix3 b p q) = d p q) (p q : Fin 512) :
    stepd k reach reach' dist (ix3 b p q) = mark k r r' d p q := by
  show Scalar.select (IntOp.andi (reach' (ix3 b p q)) (~~~ reach (ix3 b p q))) k (dist (ix3 b p q)) = _
  rw [hr p q, hr' p q, hd p q]
  rfl

end Cert.RefSide

end
-- ==== Proof.RefPro.lean ====
/-
  Before the first round, read at one pair of nodes of one batch entry.
  The edge array: an entry of the adjacency array is compared with one half, the comparison is symmetrized with its
  transpose on the two node axes, and the result is kept only where both nodes are unmasked (the mask spread once
  along the rows and once along the columns); as a number it is the specification's edge bit of the pair.
  The first reach array is the identity matrix (row number equal to column number) spread over the batch, and the
  first distance array is 0 on the diagonal and 11 elsewhere.
-/
import proofs.«127861_j44693429682446_1_alg».proof.Proof.SpecArr
import proofs.«127861_j44693429682446_1_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx Cert.Spec

/-! ## Both ends unmasked -/

/-- The mask of the row node, at every pair. -/
def rowMask (M : IVec S32x512 1) : IVec S32x512x512 1 :=
  broadcastInDim S32x512x512 ![0, 1, 2] bcast_S32x512x1_S32x512x512_0_1_2
    (broadcastInDim S32x512x1 ![0, 1] bcast_S32x512_S32x512x1_0_1 M)

/-- The mask of the column node, at every pair. -/
def colMask (M : IVec S32x512 1) : IVec S32x512x512 1 :=
  broadcastInDim S32x512x512 ![0, 1, 2] bcast_S32x1x512_S32x512x512_0_1_2
    (broadcastInDim S32x1x512 ![0, 2] bcast_S32x512_S32x1x512_0_2 M)

theorem rowMask_apply (M : IVec S32x512 1) (b : Fin 32) (p q : Fin 512) : rowMask M (ix3 b p q) = M (ix2 b p) := by
  unfold rowMask
  refine (broadcastInDim_apply _ bcast_S32x512x1_S32x512x512_0_1_2 _ (ix3 b p q) (ix3 b p (0 : Fin 1)) (fun a => match a with
    | ⟨0, _⟩ => by show b.val = if (32 : Nat) = 1 then 0 else b.val; rw [if_neg (by decide)]
    | ⟨1, _⟩ => by show p.val = if (512 : Nat) = 1 then 0 else p.val; rw [if_neg (by decide)]
    | ⟨2, _⟩ => by show 0 = if (1 : Nat) = 1 then 0 else q.val; rw [if_pos rfl])).trans ?_
  exact broadcastInDim_apply _ bcast_S32x512_S32x512x1_0_1 M (ix3 b p (0 : Fin 1)) (ix2 b p) (fun a => match a with
    | ⟨0, _⟩ => by show b.val = if (32 : Nat) = 1 then 0 else b.val; rw [if_neg (by decide)]
    | ⟨1, _⟩ => by show p.val = if (512 : Nat) = 1 then 0 else p.val; rw [if_neg (by decide)])

theorem colMask_apply (M : IVec S32x512 1) (b : Fin 32) (p q : Fin 512) : colMask M (ix3 b p q) = M (ix2 b q) := by
  unfold colMask
  refine (broadcastInDim_apply _ bcast_S32x1x512_S32x512x512_0_1_2 _ (ix3 b p q) (ix3 b (0 : Fin 1) q) (fun a => match a with
    | ⟨0, _⟩ => by show b.val = if (32 : Nat) = 1 then 0 else b.val; rw [if_neg (by decide)]
    | ⟨1, _⟩ => by show 0 = if (1 : Nat) = 1 then 0 else p.val; rw [if_pos rfl]
    | ⟨2, _⟩ => by show q.val = if (512 : Nat) = 1 then 0 else q.val; rw [if_neg (by decide)])).trans ?_
  exact broadcastInDim_apply _ bcast_S32x512_S32x1x512_0_2 M (ix3 b (0 : Fin 1) q) (ix2 b q) (fun a => match a with
    | ⟨0, _⟩ => by show b.val = if (32 : Nat) = 1 then 0 else b.val; rw [if_neg (by decide)]
    | ⟨1, _⟩ => by show q.val = if (512 : Nat) = 1 then 0 else q.val; rw [if_neg (by decide)])

/-- Both ends of a pair unmasked, at every pair. -/
def pairValid (M : IVec S32x512 1) : IVec S32x512x512 1 := andi (rowMask M) (colMask M)

theorem pairValid_apply (M : IVec S32x512 1) (b : Fin 32) (p q : Fin 512) :
    pairValid M (ix3 b p q) = both (maskOf M b) p q := by
  show IntOp.andi (rowMask M (ix3 b p q)) (colMask M (ix3 b p q)) = _
  rw [rowMask_apply, colMask_apply]
  rfl

/-! ## The edge array -/

/-- One half, at every index. -/
def halfs : FVec Ideal S32x512x512 .f32 :=
  broadcastInDim S32x512x512 ![] bcast_S_S32x512x512 (constant (F := Ideal) S_ .f32 0x3F000000#32)

/-- Is the adjacency entry above one half, at every index. -/
def above (A : FVec Ideal S32x512x512 .f32) : IVec S32x512x512 1 := cmpf .ogt A halfs

theorem above_apply (A : FVec Ideal S32x512x512 .f32) (i : S32x512x512.Idx) : above A i = big (A i) := rfl

/-- The edge array as numbers. -/
def adjF (A : FVec Ideal S32x512x512 .f32) (M : IVec S32x512 1) : FVec Ideal S32x512x512 .f32 :=
  uitofp .f32 (andi (ori (above A) (transpose S32x512x512 [0, 2, 1] (above A) transposes_S32x512x512_S32x512x512_0_2_1))
    (pairValid M))

theorem adjF_apply (A : FVec Ideal S32x512x512 .f32) (M : IVec S32x512 1) (b : Fin 32) (j q : Fin 512) :
    adjF A M (ix3 b j q) = b2r (edge (adjOf A b) (maskOf M b) j q) := by
  show b2r (IntOp.andi (IntOp.ori (above A (ix3 b j q))
    (transpose S32x512x512 [0, 2, 1] (above A) transposes_S32x512x512_S32x512x512_0_2_1 (ix3 b j q))) (pairValid M (ix3 b j q))) = _
  rw [transpose_apply [0, 2, 1] (above A) transposes_S32x512x512_S32x512x512_0_2_1 (ix3 b j q) (ix3 b q j) (fun c => match c with
    | ⟨0, _⟩ => rfl
    | ⟨1, _⟩ => rfl
    | ⟨2, _⟩ => rfl), pairValid_apply, above_apply, above_apply]
  rfl

/-! ## The identity matrix, the first reach array and the first distance array -/

/-- Row number equal to column number, with a leading axis of one. -/
def eyeB : IVec S1x512x512 1 :=
  broadcastInDim S1x512x512 ![1, 2] bcast_S512x512_S1x512x512_1_2
    (cmpi .eq (addi (iotaInDim S512x512 32 0) (broadcastInDim S512x512 ![] bcast_S_S512x512 (constantI S_ 32 0#32)))
      (iotaInDim S512x512 32 1))

theorem eyeB_apply (p q : Fin 512) : eyeB (ix3 (0 : Fin 1) p q) = eye p q := by
  unfold eyeB
  refine (broadcastInDim_apply _ bcast_S512x512_S1x512x512_1_2 _ (ix3 (0 : Fin 1) p q) (ix2 p q) (fun a => match a with
    | ⟨0, _⟩ => by show p.val = if (512 : Nat) = 1 then 0 else p.val; rw [if_neg (by decide)]
    | ⟨1, _⟩ => by show q.val = if (512 : Nat) = 1 then 0 else q.val; rw [if_neg (by decide)])).trans ?_
  show BitVec.ofBool (BitVec.ofNat 32 p.val + 0#32 == BitVec.ofNat 32 q.val) = _
  rw [BitVec.add_zero]
  rfl

/-- The identity matrix in every batch entry. -/
def reach0 : IVec S32x512x512 1 := broadcastInDim S32x512x512 ![0, 1, 2] bcast_S1x512x512_S32x512x512_0_1_2 eyeB

theorem bcastB_apply {α : Type} (x : S1x512x512.Idx → α) (b : Fin 32) (p q : Fin 512) :
    broadcastInDim S32x512x512 ![0, 1, 2] bcast_S1x512x512_S32x512x512_0_1_2 x (ix3 b p q) = x (ix3 (0 : Fin 1) p q) :=
  broadcastInDim_apply _ bcast_S1x512x512_S32x512x512_0_1_2 x (ix3 b p q) (ix3 (0 : Fin 1) p q) (fun a => match a with
    | ⟨0, _⟩ => by show 0 = if (1 : Nat) = 1 then 0 else b.val; rw [if_pos rfl]
    | ⟨1, _⟩ => by show p.val = if (512 : Nat) = 1 then 0 else p.val; rw [if_neg (by decide)]
    | ⟨2, _⟩ => by show q.val = if (512 : Nat) = 1 then 0 else q.val; rw [if_neg (by decide)])

theorem reach0_apply (b : Fin 32) (p q : Fin 512) : reach0 (ix3 b p q) = eye p q := by
  unfold reach0
  rw [bcastB_apply, eyeB_apply]

/-- 0 on the diagonal and 11 elsewhere, in every batch entry. -/
def dist0A : IVec S32x512x512 32 :=
  broadcastInDim S32x512x512 ![0, 1, 2] bcast_S1x512x512_S32x512x512_0_1_2
    (id (select eyeB (broadcastInDim S1x512x512 ![] bcast_S_S1x512x512 (constantI S_ 32 0#32))
      (broadcastInDim S1x512x512 ![] bcast_S_S1x512x512 (constantI S_ 32 11#32))))

theorem dist0A_apply (b : Fin 32) (p q : Fin 512) : dist0A (ix3 b p q) = dist0 p q := by
  unfold dist0A
  rw [bcastB_apply]
  show Scalar.select (eyeB (ix3 (0 : Fin 1) p q)) 0#32 11#32 = _
  rw [eyeB_apply]
  rfl

end Cert.RefSide

end
-- ==== Proof.RefEpi.lean ====
/-
  After the last round, read at one pair of nodes of one batch entry.
  The distance is replaced by 11 where an end of the pair is masked. The table look-up first adds 12 to a negative
  index, which never happens for a word in 0 … 11, and then reads, for every pair and column, the table row whose
  number is the index read signed and clamped into 0 … 11: the row the specification's `sel` names.
-/
import proofs.«127861_j44693429682446_1_alg».proof.Proof.SpecArr
import proofs.«127861_j44693429682446_1_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx Cert.Spec

/-! ## Masked pairs -/

/-- 11 at every index. -/
def elevens : IVec S32x512x512 32 :=
  broadcastInDim S32x512x512 ![] bcast_S_S32x512x512 (id (constantI S_ 32 11#32))

/-- The distance where both ends are unmasked, 11 elsewhere. -/
def distFin (valid : IVec S32x512x512 1) (d : IVec S32x512x512 32) : IVec S32x512x512 32 := select valid d elevens

theorem distFin_apply (valid : IVec S32x512x512 1) (d : IVec S32x512x512 32) (i : S32x512x512.Idx) :
    distFin valid d i = if valid i = 1#1 then d i else 11#32 := rfl

/-! ## A word in 0 … 11 is not negative -/

theorem wrap_word (x : BitVec 32) (h : x.toNat ≤ 11) :
    Scalar.select (IntOp.cmpi .slt x 0#32) (IntOp.addi x 12#32) x = x := by
  have hx : x.toInt = (x.toNat : ℤ) := by
    rw [BitVec.toInt_eq_toNat_cond]; split
    · rfl
    · omega
  have hs : x.slt 0#32 = false := by
    unfold BitVec.slt
    rw [hx]
    simp
  show Scalar.select (BitVec.ofBool (x.slt 0#32)) (IntOp.addi x 12#32) x = x
  rw [hs]
  exact select_zero _ _

/-- The index with 12 added where it is negative. -/
def wrap (d : IVec S32x512x512 32) : IVec S32x512x512 32 :=
  select (cmpi .slt d (broadcastInDim S32x512x512 ![] bcast_S_S32x512x512 (constantI S_ 32 0#32)))
    (addi d (broadcastInDim S32x512x512 ![] bcast_S_S32x512x512 (constantI S_ 32 12#32))) d

theorem wrap_apply (d : IVec S32x512x512 32) (i : S32x512x512.Idx) (h : (d i).toNat ≤ 11) : wrap d i = d i :=
  wrap_word (d i) h

/-! ## The table look-up -/

/-- The look-up's dimension numbers: the table's row axis is indexed and collapsed, its column axis is the result's
    last axis, and the index array's last axis (of size one) holds the row index. -/
abbrev gD : GatherDims S12x8 S32x512x512x1 S32x512x512x8 := gather_S12x8_S32x512x512x1_S32x512x512x8_3_0_n_n_0_3_18

/-- The index array with a trailing axis of size one. -/
def asIndex (d : IVec S32x512x512 32) : IVec S32x512x512x1 32 :=
  broadcastInDim S32x512x512x1 ![0, 1, 2] bcast_S32x512x512_S32x512x512x1_0_1_2 d

theorem asIndex_apply (d : IVec S32x512x512 32) (b : Fin 32) (p q : Fin 512) :
    asIndex d (ix4 b p q (0 : Fin 1)) = d (ix3 b p q) :=
  broadcastInDim_apply _ bcast_S32x512x512_S32x512x512x1_0_1_2 d (ix4 b p q (0 : Fin 1)) (ix3 b p q) (fun a => match a with
    | ⟨0, _⟩ => by show b.val = if (32 : Nat) = 1 then 0 else b.val; rw [if_neg (by decide)]
    | ⟨1, _⟩ => by show p.val = if (512 : Nat) = 1 then 0 else p.val; rw [if_neg (by decide)]
    | ⟨2, _⟩ => by show q.val = if (512 : Nat) = 1 then 0 else q.val; rw [if_neg (by decide)])

/-- The look-up at (b, p, q, e): column e of the table row the index word at (b, p, q, 0) selects. -/
theorem gather_apply {α : Type} (x : S12x8.Idx → α) (idx : IVec S32x512x512x1 32) (b : Fin 32) (p q : Fin 512) (e : Fin 8) :
    Host.gather gD x idx (ix4 b p q e) = x (ix2 (sel (idx (ix4 b p q (0 : Fin 1)))) e) := by
  unfold Host.gather
  refine congrArg x (funext fun a => Fin.ext ?_)
  match a with
  | ⟨0, _⟩ =>
    show gD.start (ix4 b p q e) idx 0 + gD.batchCoord (ix4 b p q e) 0 + gD.offCoord (ix4 b p q e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gD.startIndexMap from List.mem_singleton.mpr rfl)]
    have hsi : gD.siIdx (ix4 b p q e) ⟨List.idxOf (0 : Fin 2) gD.startIndexMap,
        List.idxOf_lt_length_iff.2 (List.mem_singleton.mpr rfl)⟩ = ix4 b p q (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gD.start (ix4 b p q e) idx 1 + gD.batchCoord (ix4 b p q e) 1 + gD.offCoord (ix4 b p q e) 1 = e.val
    have hst : gD.start (ix4 b p q e) idx 1 = 0 := by
      unfold GatherDims.start
      rw [dif_neg (show ¬(1 : Fin 2) ∈ gD.startIndexMap by decide)]
    rw [hst, GatherDims.batchCoord_eq_zero _ _ _ List.not_mem_nil, Nat.zero_add]
    unfold GatherDims.offCoord
    rw [dif_pos (show (1 : Fin 2) ∈ gD.sKept by decide)]
    rfl

end Cert.RefSide

end
-- ==== Proof.RefSide.lean ====
/-
  The reference program computes the specification.
  Its stages are, in program order: the edge array; the identity reach array and the first distance array; ten
  rounds, each one application of the round's two operations to the stages before it; the replacement of the distance
  by 11 at masked pairs; the index normalisation; and the table look-up. Read at batch entry b, the reach and distance
  stages after round k are the specification's matrices after k rounds for the edge matrix of b, round by round; the
  last three stages are then the specification's distance, itself again (it is not negative), and the table row it
  selects.
-/
import proofs.«127861_j44693429682446_1_alg».proof.Proof.RefRead
import proofs.«127861_j44693429682446_1_alg».proof.Proof.RefDot
import proofs.«127861_j44693429682446_1_alg».proof.Proof.RefPro
import proofs.«127861_j44693429682446_1_alg».proof.Proof.RefEpi

noncomputable section

namespace Cert.RefSide

open Cert.ReferenceIdeal Cert.ReferenceIdeal.Gen Cert.ReferenceIdeal.ReadP Idealize.ShloMosaic Idealize.ShloMosaic.ValueIdx Cert.Spec

section Stages
variable (A : FVec Ideal S32x512x512 .f32) (M : IVec S32x512 1)

/-! ## Each stage is the operation of its part of the program, applied to the stages before it -/

theorem adj_eq : val_main_v10 (F := Ideal) A M = adjF A M := rfl
theorem valid_eq : val_main_v8 (F := Ideal) M = pairValid M := rfl
theorem reach0_eq : val_main_v19 (F := Ideal) = reach0 := rfl
theorem dist0_eq : val_main_call1_v1 (F := Ideal) = dist0A := rfl
theorem reach1_eq : val_main_v24 (F := Ideal) A M = step (val_main_v10 (F := Ideal) A M) (val_main_v19 (F := Ideal)) := rfl
theorem dist1_eq : val_main_v27 (F := Ideal) A M = stepd 1#32 (val_main_v19 (F := Ideal)) (val_main_v24 (F := Ideal) A M) (val_main_call1_v1 (F := Ideal)) := rfl
theorem reach2_eq : val_main_v32 (F := Ideal) A M = step (val_main_v10 (F := Ideal) A M) (val_main_v24 (F := Ideal) A M) := rfl
theorem dist2_eq : val_main_v35 (F := Ideal) A M = stepd 2#32 (val_main_v24 (F := Ideal) A M) (val_main_v32 (F := Ideal) A M) (val_main_v27 (F := Ideal) A M) := rfl
theorem reach3_eq : val_main_v40 (F := Ideal) A M = step (val_main_v10 (F := Ideal) A M) (val_main_v32 (F := Ideal) A M) := rfl
theorem dist3_eq : val_main_v43 (F := Ideal) A M = stepd 3#32 (val_main_v32 (F := Ideal) A M) (val_main_v40 (F := Ideal) A M) (val_main_v35 (F := Ideal) A M) := rfl
theorem reach4_eq : val_main_v48 (F := Ideal) A M = step (val_main_v10 (F := Ideal) A M) (val_main_v40 (F := Ideal) A M) := rfl
theorem dist4_eq : val_main_v51 (F := Ideal) A M = stepd 4#32 (val_main_v40 (F := Ideal) A M) (val_main_v48 (F := Ideal) A M) (val_main_v43 (F := Ideal) A M) := rfl
theorem reach5_eq : val_main_v56 (F := Ideal) A M = step (val_main_v10 (F := Ideal) A M) (val_main_v48 (F := Ideal) A M) := rfl
theorem dist5_eq : val_main_v59 (F := Ideal) A M = stepd 5#32 (val_main_v48 (F := Ideal) A M) (val_main_v56 (F := Ideal) A M) (val_main_v51 (F := Ideal) A M) := rfl
theorem reach6_eq : val_main_v64 (F := Ideal) A M = step (val_main_v10 (F := Ideal) A M) (val_main_v56 (F := Ideal) A M) := rfl
theorem dist6_eq : val_main_v67 (F := Ideal) A M = stepd 6#32 (val_main_v56 (F := Ideal) A M) (val_main_v64 (F := Ideal) A M) (val_main_v59 (F := Ideal) A M) := rfl
theorem reach7_eq : val_main_v72 (F := Ideal) A M = step (val_main_v10 (F := Ideal) A M) (val_main_v64 (F := Ideal) A M) := rfl
theorem dist7_eq : val_main_v75 (F := Ideal) A M = stepd 7#32 (val_main_v64 (F := Ideal) A M) (val_main_v72 (F := Ideal) A M) (val_main_v67 (F := Ideal) A M) := rfl
theorem reach8_eq : val_main_v80 (F := Ideal) A M = step (val_main_v10 (F := Ideal) A M) (val_main_v72 (F := Ideal) A M) := rfl
theorem dist8_eq : val_main_v83 (F := Ideal) A M = stepd 8#32 (val_main_v72 (F := Ideal) A M) (val_main_v80 (F := Ideal) A M) (val_main_v75 (F := Ideal) A M) := rfl
theorem reach9_eq : val_main_v88 (F := Ideal) A M = step (val_main_v10 (F := Ideal) A M) (val_main_v80 (F := Ideal) A M) := rfl
theorem dist9_eq : val_main_v91 (F := Ideal) A M = stepd 9#32 (val_main_v80 (F := Ideal) A M) (val_main_v88 (F := Ideal) A M) (val_main_v83 (F := Ideal) A M) := rfl
theorem reach10_eq : val_main_v96 (F := Ideal) A M = step (val_main_v10 (F := Ideal) A M) (val_main_v88 (F := Ideal) A M) := rfl
theorem dist10_eq : val_main_v99 (F := Ideal) A M = stepd 10#32 (val_main_v88 (F := Ideal) A M) (val_main_v96 (F := Ideal) A M) (val_main_v91 (F := Ideal) A M) := rfl
theorem masked_eq : val_main_v100 (F := Ideal) A M = distFin (val_main_v8 (F := Ideal) M) (val_main_v99 (F := Ideal) A M) := rfl
theorem wrap_eq : val_main_v105 (F := Ideal) A M = wrap (val_main_v100 (F := Ideal) A M) := rfl
theorem index_eq : val_main_v106 (F := Ideal) A M = asIndex (val_main_v105 (F := Ideal) A M) := rfl

/-! ## The stages of batch entry b -/

variable (b : Fin 32)

theorem adj_at (j q : Fin 512) :
    val_main_v10 (F := Ideal) A M (ix3 b j q) = b2r (edge (adjOf A b) (maskOf M b) j q) := by
  rw [adj_eq]; exact adjF_apply A M b j q
theorem valid_at (p q : Fin 512) : val_main_v8 (F := Ideal) M (ix3 b p q) = both (maskOf M b) p q := by
  rw [valid_eq]; exact pairValid_apply M b p q
theorem reach0_at (p q : Fin 512) :
    val_main_v19 (F := Ideal) (ix3 b p q) = reachAt (edge (adjOf A b) (maskOf M b)) 0 p q := by
  rw [reach0_eq]; exact reach0_apply b p q
theorem dist0_at (p q : Fin 512) :
    val_main_call1_v1 (F := Ideal) (ix3 b p q) = distAt (edge (adjOf A b) (maskOf M b)) 0 p q := by
  rw [dist0_eq]; exact dist0A_apply b p q
theorem reach1_at (p q : Fin 512) : (val_main_v24 (F := Ideal) A M) (ix3 b p q) = reachAt (edge (adjOf A b) (maskOf M b)) 1 p q := by
  rw [reach1_eq]
  exact step_apply _ _ b _ _ (reach0_at A M b) (adj_at A M b) p q
theorem dist1_at (p q : Fin 512) : (val_main_v27 (F := Ideal) A M) (ix3 b p q) = distAt (edge (adjOf A b) (maskOf M b)) 1 p q := by
  rw [dist1_eq]
  exact stepd_apply _ _ _ _ b _ _ _ (reach0_at A M b) (reach1_at A M b) (dist0_at A M b) p q
theorem reach2_at (p q : Fin 512) : (val_main_v32 (F := Ideal) A M) (ix3 b p q) = reachAt (edge (adjOf A b) (maskOf M b)) 2 p q := by
  rw [reach2_eq]
  exact step_apply _ _ b _ _ (reach1_at A M b) (adj_at A M b) p q
theorem dist2_at (p q : Fin 512) : (val_main_v35 (F := Ideal) A M) (ix3 b p q) = distAt (edge (adjOf A b) (maskOf M b)) 2 p q := by
  rw [dist2_eq]
  exact stepd_apply _ _ _ _ b _ _ _ (reach1_at A M b) (reach2_at A M b) (dist1_at A M b) p q
theorem reach3_at (p q : Fin 512) : (val_main_v40 (F := Ideal) A M) (ix3 b p q) = reachAt (edge (adjOf A b) (maskOf M b)) 3 p q := by
  rw [reach3_eq]
  exact step_apply _ _ b _ _ (reach2_at A M b) (adj_at A M b) p q
theorem dist3_at (p q : Fin 512) : (val_main_v43 (F := Ideal) A M) (ix3 b p q) = distAt (edge (adjOf A b) (maskOf M b)) 3 p q := by
  rw [dist3_eq]
  exact stepd_apply _ _ _ _ b _ _ _ (reach2_at A M b) (reach3_at A M b) (dist2_at A M b) p q
theorem reach4_at (p q : Fin 512) : (val_main_v48 (F := Ideal) A M) (ix3 b p q) = reachAt (edge (adjOf A b) (maskOf M b)) 4 p q := by
  rw [reach4_eq]
  exact step_apply _ _ b _ _ (reach3_at A M b) (adj_at A M b) p q
theorem dist4_at (p q : Fin 512) : (val_main_v51 (F := Ideal) A M) (ix3 b p q) = distAt (edge (adjOf A b) (maskOf M b)) 4 p q := by
  rw [dist4_eq]
  exact stepd_apply _ _ _ _ b _ _ _ (reach3_at A M b) (reach4_at A M b) (dist3_at A M b) p q
theorem reach5_at (p q : Fin 512) : (val_main_v56 (F := Ideal) A M) (ix3 b p q) = reachAt (edge (adjOf A b) (maskOf M b)) 5 p q := by
  rw [reach5_eq]
  exact step_apply _ _ b _ _ (reach4_at A M b) (adj_at A M b) p q
theorem dist5_at (p q : Fin 512) : (val_main_v59 (F := Ideal) A M) (ix3 b p q) = distAt (edge (adjOf A b) (maskOf M b)) 5 p q := by
  rw [dist5_eq]
  exact stepd_apply _ _ _ _ b _ _ _ (reach4_at A M b) (reach5_at A M b) (dist4_at A M b) p q
theorem reach6_at (p q : Fin 512) : (val_main_v64 (F := Ideal) A M) (ix3 b p q) = reachAt (edge (adjOf A b) (maskOf M b)) 6 p q := by
  rw [reach6_eq]
  exact step_apply _ _ b _ _ (reach5_at A M b) (adj_at A M b) p q
theorem dist6_at (p q : Fin 512) : (val_main_v67 (F := Ideal) A M) (ix3 b p q) = distAt (edge (adjOf A b) (maskOf M b)) 6 p q := by
  rw [dist6_eq]
  exact stepd_apply _ _ _ _ b _ _ _ (reach5_at A M b) (reach6_at A M b) (dist5_at A M b) p q
theorem reach7_at (p q : Fin 512) : (val_main_v72 (F := Ideal) A M) (ix3 b p q) = reachAt (edge (adjOf A b) (maskOf M b)) 7 p q := by
  rw [reach7_eq]
  exact step_apply _ _ b _ _ (reach6_at A M b) (adj_at A M b) p q
theorem dist7_at (p q : Fin 512) : (val_main_v75 (F := Ideal) A M) (ix3 b p q) = distAt (edge (adjOf A b) (maskOf M b)) 7 p q := by
  rw [dist7_eq]
  exact stepd_apply _ _ _ _ b _ _ _ (reach6_at A M b) (reach7_at A M b) (dist6_at A M b) p q
theorem reach8_at (p q : Fin 512) : (val_main_v80 (F := Ideal) A M) (ix3 b p q) = reachAt (edge (adjOf A b) (maskOf M b)) 8 p q := by
  rw [reach8_eq]
  exact step_apply _ _ b _ _ (reach7_at A M b) (adj_at A M b) p q
theorem dist8_at (p q : Fin 512) : (val_main_v83 (F := Ideal) A M) (ix3 b p q) = distAt (edge (adjOf A b) (maskOf M b)) 8 p q := by
  rw [dist8_eq]
  exact stepd_apply _ _ _ _ b _ _ _ (reach7_at A M b) (reach8_at A M b) (dist7_at A M b) p q
theorem reach9_at (p q : Fin 512) : (val_main_v88 (F := Ideal) A M) (ix3 b p q) = reachAt (edge (adjOf A b) (maskOf M b)) 9 p q := by
  rw [reach9_eq]
  exact step_apply _ _ b _ _ (reach8_at A M b) (adj_at A M b) p q
theorem dist9_at (p q : Fin 512) : (val_main_v91 (F := Ideal) A M) (ix3 b p q) = distAt (edge (adjOf A b) (maskOf M b)) 9 p q := by
  rw [dist9_eq]
  exact stepd_apply _ _ _ _ b _ _ _ (reach8_at A M b) (reach9_at A M b) (dist8_at A M b) p q
theorem reach10_at (p q : Fin 512) : (val_main_v96 (F := Ideal) A M) (ix3 b p q) = reachAt (edge (adjOf A b) (maskOf M b)) 10 p q := by
  rw [reach10_eq]
  exact step_apply _ _ b _ _ (reach9_at A M b) (adj_at A M b) p q
theorem dist10_at (p q : Fin 512) : (val_main_v99 (F := Ideal) A M) (ix3 b p q) = distAt (edge (adjOf A b) (maskOf M b)) 10 p q := by
  rw [dist10_eq]
  exact stepd_apply _ _ _ _ b _ _ _ (reach9_at A M b) (reach10_at A M b) (dist9_at A M b) p q

/-- The distance stage with masked pairs set to 11 is the specification's distance matrix of batch entry b. -/
theorem masked_at (p q : Fin 512) :
    val_main_v100 (F := Ideal) A M (ix3 b p q) = dist (adjOf A b) (maskOf M b) p q := by
  rw [masked_eq, distFin_apply, valid_at, dist10_at]
  rfl

/-- The normalised index is the distance itself: it is at most 11. -/
theorem wrap_at (p q : Fin 512) :
    val_main_v105 (F := Ideal) A M (ix3 b p q) = dist (adjOf A b) (maskOf M b) p q := by
  rw [wrap_eq, wrap_apply _ _ (by rw [masked_at]; exact dist_le _ _ p q), masked_at]

end Stages

/-- The reference's result array, as a function of its three argument arrays, is the specification's. -/
theorem ref_out (A : FVec Ideal S32x512x512 .f32) (M : IVec S32x512 1) (E : FVec Ideal S12x8 .f32) :
    val_main_v107 (F := Ideal) A M E = outArr A M E := by
  funext i
  obtain ⟨b, p, q, e, rfl⟩ : ∃ (b : Fin 32) (p q : Fin 512) (e : Fin 8), i = ix4 b p q e :=
    ⟨i 0, i 1, i 2, i 3, eq_ix4 i⟩
  rw [outArr_apply]
  show Host.gather gD E (val_main_v106 (F := Ideal) A M) (ix4 b p q e) = _
  rw [gather_apply, index_eq, asIndex_apply, wrap_at]

end Cert.RefSide

end
-- ==== Proof.lean ====
/-
  The certificate's claims.

  Both programs compute, for each of 32 graphs on 512 nodes, the breadth-first distance between every pair of nodes
  within ten rounds, and return for every pair the row of a twelve-row embedding table that the distance selects
  (0 … 10, or 11 for "not reached or an end masked"). An edge joins two nodes when either orientation's adjacency entry
  exceeds one half and both are unmasked. A round multiplies the 0/1 reachability matrix by the 0/1 edge matrix and
  marks the pairs whose product is positive; the products are exact sums of zeros and ones over the extended reals, so
  the kernel's matrix unit product into a zero accumulator and the reference's contraction are one sum, and the
  kernel's arithmetic on 0/1 numbers (maximum for "or", product for "and", a difference above one half for "newly
  reached") is the reference's logic on bits. The kernel looks the table up by summing, over the twelve categories,
  (is the distance this category) times the category's row: eleven zeros and the selected entry, which is the
  reference's gather of that row. No finiteness of the inputs is used.

  The kernel runs its search once per graph, at the first of the graph's sixteen grid points, keeps the distance
  matrix in scratch memory and emits 32 rows of the result per point; the sixteen points' blocks tile the graph's
  slab of the result. The specification both sides are compared with is Proof/Spec.lean.
-/
import proofs.«127861_j44693429682446_1_alg».proof.Defs
import proofs.«127861_j44693429682446_1_alg».proof.Proof.Gen.Kernel
import proofs.«127861_j44693429682446_1_alg».proof.Proof.Gen.Kernel.Frame
import proofs.«127861_j44693429682446_1_alg».proof.Proof.Gen.KernelIdeal
import proofs.«127861_j44693429682446_1_alg».proof.Proof.Gen.KernelIdeal.Frame
import proofs.«127861_j44693429682446_1_alg».proof.Proof.Gen.KernelIdeal.Value
import proofs.«127861_j44693429682446_1_alg».proof.Proof.Gen.ReferenceIdeal
import proofs.«127861_j44693429682446_1_alg».proof.Proof.Gen.Pre_finite_inputs
import proofs.«127861_j44693429682446_1_alg».proof.Proof.KValue
import proofs.«127861_j44693429682446_1_alg».proof.Proof.RefRun
import proofs.«127861_j44693429682446_1_alg».proof.Proof.RefSide
import Idealize.ShloMosaic.Adequacy
import Idealize.ShloMosaic.Init

noncomputable section

namespace Cert.Proof

open Idealize.ShloMosaic Idealize.ShloMosaic.TcCoe Idealize.SL.Sem

/-- The reference's result, from a memory whose three argument arrays are A, M, E, is the specification's result
    of A, M, E. -/
theorem ref_val (m' : (ℓ : Loc Cert.ReferenceIdeal.nD Cert.ReferenceIdeal.τ Cert.ReferenceIdeal.sig) → Buf (Elt Ideal) ℓ)
    (c : Dev Cert.ReferenceIdeal.nD)
    (A : Cert.Spec.SA.Idx → EReal) (M : Cert.Spec.SM.Idx → BitVec 1) (E : Cert.Spec.SE.Idx → EReal)
    (hA : m' ((c.tc : Thread Cert.ReferenceIdeal.nD Cert.ReferenceIdeal.τ).loc Cert.ReferenceIdeal.main_arg0) = A)
    (hM : m' ((c.tc : Thread Cert.ReferenceIdeal.nD Cert.ReferenceIdeal.τ).loc Cert.ReferenceIdeal.main_arg1) = M)
    (hE : m' ((c.tc : Thread Cert.ReferenceIdeal.nD Cert.ReferenceIdeal.τ).loc Cert.ReferenceIdeal.main_arg2) = E) :
    Cert.ReferenceIdeal.ReadP.val_main_v107 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.Spec.outArr A M E := by
  subst hA hM hE
  exact Cert.RefSide.ref_out _ _ _

/-- The kernel's result, from a memory whose three argument arrays are A, M, E, is the same. -/
theorem ker_val (m : (ℓ : Loc Cert.KernelIdeal.nD Cert.KernelIdeal.τ Cert.KernelIdeal.sig) → Buf (Elt Ideal) ℓ)
    (c : Dev Cert.KernelIdeal.nD)
    (A : Cert.Spec.SA.Idx → EReal) (M : Cert.Spec.SM.Idx → BitVec 1) (E : Cert.Spec.SE.Idx → EReal)
    (hA : m ((c.tc : Thread Cert.KernelIdeal.nD Cert.KernelIdeal.τ).loc Cert.KernelIdeal.main_arg0) = A)
    (hM : m ((c.tc : Thread Cert.KernelIdeal.nD Cert.KernelIdeal.τ).loc Cert.KernelIdeal.main_arg1) = M)
    (hE : m ((c.tc : Thread Cert.KernelIdeal.nD Cert.KernelIdeal.τ).loc Cert.KernelIdeal.main_arg2) = E) :
    Cert.KernelIdeal.Final.G m c = Cert.Spec.outArr A M E := by
  subst hA hM hE
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the specification's result of those arguments. -/
theorem algebraic : Cert.algebraic_KernelIdeal_ReferenceIdeal := fun m ρ m' ρ' _ hagree =>
  ⟨fun c => Cert.KernelIdeal.Final.G m c, Cert.KernelIdeal.Final.run m ρ,
    (θ_run Cert.ReferenceIdeal.defs _ _).mono
      (fun _ h c => ⟨(h c).1.trans ((ref_val m' c _ _ _ (hagree c).1 (hagree c).2.1 (hagree c).2.2).trans
        (ker_val m c _ _ _ rfl rfl rfl).symm), (h c).2⟩)
      (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
